-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x7 : Shape := ⟨2, ![2097152, 7]⟩
abbrev S2097152 : Shape := ⟨1, ![2097152]⟩
abbrev S_ : Shape := ⟨0, ![]⟩

class Facts : Prop where
  bcast_S_S2097152x7 : S_.BroadcastsInDim S2097152x7 (![] : Fin 0 → Fin S2097152x7.rank)
  reducesTo_S2097152x7_S_d0_1 : S2097152x7.ReducesTo [0, 1] S_
  h_S_ : 0 < S_.numel

variable [Facts]

def fn_part1 {F : FTy → Type} [FloatOps F] (main_v13 : IVec S_ 1) (main_v16 : IVec S2097152x7 1) : IVec S_ 1 :=
  let main_c_5 : IVec S_ 1 := constantI S_ 1 1#1
  let main_v17 : IVec S_ 1 := (fun x v => Host.reduce IntOp.andi x v reducesTo_S2097152x7_S_d0_1 h_S_) main_v16 main_c_5
  let main_v18 : IVec S_ 1 := andi main_v13 main_v17
  main_v18

def fn {F : FTy → Type} [FloatOps F] (main_arg0 : FVec F S2097152x7 .f32) (main_arg1 : FVec F S2097152x7 .f32) (main_arg2 : FVec F S2097152x7 .f32) (main_arg3 : FVec F S2097152x7 .f32) (main_arg4 : IVec S2097152 32) : IVec S_ 1 :=
  let main_v0 : FVec F S2097152x7 .f32 := Host.absf main_arg0
  let main_cst : FVec F S_ .f32 := constant S_ .f32 0x7F800000#32
  let main_v1 : FVec F S2097152x7 .f32 := broadcastInDim S2097152x7 ![] bcast_S_S2097152x7 main_cst
  let main_v2 : IVec S2097152x7 1 := cmpf .olt main_v0 main_v1
  let main_c : IVec S_ 1 := constantI S_ 1 1#1
  let main_v3 : IVec S_ 1 := (fun x v => Host.reduce IntOp.andi x v reducesTo_S2097152x7_S_d0_1 h_S_) main_v2 main_c
  let main_v4 : FVec F S2097152x7 .f32 := Host.absf main_arg1
  let main_cst_0 : FVec F S_ .f32 := constant S_ .f32 0x7F800000#32
  let main_v5 : FVec F S2097152x7 .f32 := broadcastInDim S2097152x7 ![] bcast_S_S2097152x7 main_cst_0
  let main_v6 : IVec S2097152x7 1 := cmpf .olt main_v4 main_v5
  let main_c_1 : IVec S_ 1 := constantI S_ 1 1#1
  let main_v7 : IVec S_ 1 := (fun x v => Host.reduce IntOp.andi x v reducesTo_S2097152x7_S_d0_1 h_S_) main_v6 main_c_1
  let main_v8 : IVec S_ 1 := andi main_v3 main_v7
  let main_v9 : FVec F S2097152x7 .f32 := Host.absf main_arg2
  let main_cst_2 : FVec F S_ .f32 := constant S_ .f32 0x7F800000#32
  let main_v10 : FVec F S2097152x7 .f32 := broadcastInDim S2097152x7 ![] bcast_S_S2097152x7 main_cst_2
  let main_v11 : IVec S2097152x7 1 := cmpf .olt main_v9 main_v10
  let main_c_3 : IVec S_ 1 := constantI S_ 1 1#1
  let main_v12 : IVec S_ 1 := (fun x v => Host.reduce IntOp.andi x v reducesTo_S2097152x7_S_d0_1 h_S_) main_v11 main_c_3
  let main_v13 : IVec S_ 1 := andi main_v8 main_v12
  let main_v14 : FVec F S2097152x7 .f32 := Host.absf main_arg3
  let main_cst_4 : FVec F S_ .f32 := constant S_ .f32 0x7F800000#32
  let main_v15 : FVec F S2097152x7 .f32 := broadcastInDim S2097152x7 ![] bcast_S_S2097152x7 main_cst_4
  let main_v16 : IVec S2097152x7 1 := cmpf .olt main_v14 main_v15
  fn_part1 (F := F) main_v13 main_v16
-- ==== Kernel.lean ====
abbrev S2097152x7 : Shape := ⟨2, ![2097152, 7]⟩
abbrev S2097152 : Shape := ⟨1, ![2097152]⟩
abbrev S7 : Shape := ⟨1, ![7]⟩
abbrev S1x7 : Shape := ⟨2, ![1, 7]⟩
abbrev S2x1x128 : Shape := ⟨3, ![2, 1, 128]⟩
abbrev S4096x7 : Shape := ⟨2, ![4096, 7]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S4096 : Shape := ⟨1, ![4096]⟩
abbrev S4096x1 : Shape := ⟨2, ![4096, 1]⟩
abbrev S2x1x1 : Shape := ⟨3, ![2, 1, 1]⟩
abbrev S2 : Shape := ⟨1, ![2]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S2097152x7, .f32⟩
  | .hbm, ⟨1, _⟩ => ⟨S2097152x7, .f32⟩
  | .hbm, ⟨2, _⟩ => ⟨S2097152x7, .f32⟩
  | .hbm, ⟨3, _⟩ => ⟨S2097152x7, .f32⟩
  | .hbm, ⟨4, _⟩ => ⟨S2097152, .i32⟩
  | .hbm, ⟨5, _⟩ => ⟨S7, .f32⟩
  | .hbm, ⟨6, _⟩ => ⟨S1x7, .f32⟩
  | .hbm, ⟨7, _⟩ => ⟨S2x1x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x7, .f32⟩
  | .local _ .vmem, ⟨1, _⟩ => ⟨S4096x7, .f32⟩
  | .local _ .vmem, ⟨2, _⟩ => ⟨S4096x7, .f32⟩
  | .local _ .vmem, ⟨3, _⟩ => ⟨S4096x7, .f32⟩
  | .local _ .vmem, ⟨4, _⟩ => ⟨S4096x7, .f32⟩
  | .local _ .vmem, ⟨5, _⟩ => ⟨S4096x7, .f32⟩
  | .local _ .vmem, ⟨6, _⟩ => ⟨S4096x7, .f32⟩
  | .local _ .vmem, ⟨7, _⟩ => ⟨S4096x7, .f32⟩
  | .local _ .vmem, ⟨8, _⟩ => ⟨S4096x7, .f32⟩
  | .local _ .vmem, ⟨9, _⟩ => ⟨S1x1x128, .f32⟩
  | .local _ .vmem, ⟨10, _⟩ => ⟨S1x1x128, .f32⟩
  | .local _ .vmem, ⟨11, _⟩ => ⟨S1x128, .f32⟩
  | _, _ => ⟨S2097152x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v104 : BitVec 1 := Scalar.cmpi .eq arg1 c255_i32
  let v105 : BitVec 32 := Scalar.extui v104
  let c0_i32_35 : BitVec 32 := 0#32
  let v106 : BitVec 1 := Scalar.cmpi .ne v105 c0_i32_35
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S7_S1x7_1 : S7.BroadcastsInDim S1x7 (![1] : Fin 1 → Fin S1x7.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x7_S1x7_0_0 : ∀ a, (![0, 0] : Fin 2 → Nat) a + S1x7.size a ≤ S1x7.size a
  h_S1x7 : 0 < S1x7.numel
  shapeCasts_S1x7_S1x7 : S1x7.ShapeCasts S1x7
  reduces_S1x7_S1 : S1x7.Reduces [1] S1
  shapeCasts_S1_S1x1 : S1.ShapeCasts S1x1
  inb_S4096x7_S4096x7_0_0 : ∀ a, (![0, 0] : Fin 2 → Nat) a + S4096x7.size a ≤ S4096x7.size a
  h_S4096x7 : 0 < S4096x7.numel
  broadcasts_S1x7_S4096x7 : S1x7.Broadcasts S4096x7
  reduces_S4096x7_S4096 : S4096x7.Reduces [1] S4096
  shapeCasts_S4096_S4096x1 : S4096.ShapeCasts S4096x1
  broadcasts_S4096x1_S4096x7 : S4096x1.Broadcasts S4096x7
  broadcasts_S1x1_S4096x1 : S1x1.Broadcasts S4096x1
  reduces_S4096x1_S1 : S4096x1.Reduces [0] S1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x7.size a ≤ S1x7.size a
  hwx0_0 : ∀ i : grid0.Coords, EltTy.bits .f32 = 32 ∨ (Rect.block (s := S1x7) S1x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x7.size a ≤ S2097152x7.size a
  hwx0_1 : ∀ i : grid0.Coords, EltTy.bits .f32 = 32 ∨ (Rect.block (s := S2097152x7) S4096x7.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x7.size a ≤ S2097152x7.size a
  hwx0_2 : ∀ i : grid0.Coords, EltTy.bits .f32 = 32 ∨ (Rect.block (s := S2097152x7) S4096x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x7.size a ≤ S2097152x7.size a
  hwx0_3 : ∀ i : grid0.Coords, EltTy.bits .f32 = 32 ∨ (Rect.block (s := S2097152x7) S4096x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x7.size a ≤ S2097152x7.size a
  hwx0_4 : ∀ i : grid0.Coords, EltTy.bits .f32 = 32 ∨ (Rect.block (s := S2097152x7) S4096x7.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

abbrev win0_0 : Pipeline.Window sig grid0 :=
  Pipeline.Window.ofSpec (Memref.whole main_v0) S1x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x7.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4096x7.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2097152x7 : Shape := ⟨2, ![2097152, 7]⟩
abbrev S2097152 : Shape := ⟨1, ![2097152]⟩
abbrev S7 : Shape := ⟨1, ![7]⟩
abbrev S1x7 : Shape := ⟨2, ![1, 7]⟩
abbrev S_ : Shape := ⟨0, ![]⟩
abbrev S2097152x1 : Shape := ⟨2, ![2097152, 1]⟩

abbrev nBuf : Space → Nat
  | .hbm => 126
  | .vmem => 0
  | .smem => 0
  | _ => 0

abbrev bufTy : (tb : Table) → Fin (tcTables nBuf tb) → BufTy
  | .hbm, ⟨0, _⟩ => ⟨S2097152x7, .f32⟩
  | .hbm, ⟨1, _⟩ => ⟨S2097152x7, .f32⟩
  | .hbm, ⟨2, _⟩ => ⟨S2097152x7, .f32⟩
  | .hbm, ⟨3, _⟩ => ⟨S2097152x7, .f32⟩
  | .hbm, ⟨4, _⟩ => ⟨S2097152, .i32⟩
  | .hbm, ⟨5, _⟩ => ⟨S7, .f32⟩
  | .hbm, ⟨6, _⟩ => ⟨S1x7, .f32⟩
  | .hbm, ⟨7, _⟩ => ⟨S1x7, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2097152x7, .f32⟩
  | .hbm, ⟨13, _⟩ => ⟨S2097152x7, .f32⟩
  | .hbm, ⟨14, _⟩ => ⟨S_, .f32⟩
  | .hbm, ⟨15, _⟩ => ⟨S2097152, .f32⟩
  | .hbm, ⟨16, _⟩ => ⟨S_, .f32⟩
  | .hbm, ⟨17, _⟩ => ⟨S2097152, .f32⟩
  | .hbm, ⟨18, _⟩ => ⟨S2097152, .f32⟩
  | .hbm, ⟨19, _⟩ => ⟨S2097152x1, .f32⟩
  | .hbm, ⟨20, _⟩ => ⟨S2097152x7, .f32⟩
  | .hbm, ⟨21, _⟩ => ⟨S2097152x7, .f32⟩
  | .hbm, ⟨22, _⟩ => ⟨S2097152x7, .f32⟩
  | .hbm, ⟨23, _⟩ => ⟨S_, .f32⟩
  | .hbm, ⟨24, _⟩ => ⟨S2097152, .f32⟩
  | .hbm, ⟨25, _⟩ => ⟨S2097152x1, .f32⟩
  | .hbm, ⟨26, _⟩ => ⟨S2097152x7, .f32⟩
  | .hbm, ⟨27, _⟩ => ⟨S2097152x7, .f32⟩
  | .hbm, ⟨28, _⟩ => ⟨S_, .f32⟩
  | .hbm, ⟨29, _⟩ => ⟨S2097152, .f32⟩
  | .hbm, ⟨30, _⟩ => ⟨S_, .f32⟩
  | .hbm, ⟨31, _⟩ => ⟨S2097152, .f32⟩
  | .hbm, ⟨32, _⟩ => ⟨S2097152, .f32⟩
  | .hbm, ⟨33, _⟩ => ⟨S2097152x1, .f32⟩
  | .hbm, ⟨34, _⟩ => ⟨S2097152x7, .f32⟩
  | .hbm, ⟨35, _⟩ => ⟨S2097152x7, .f32⟩
  | .hbm, ⟨36, _⟩ => ⟨S2097152x7, .f32⟩
  | .hbm, ⟨37, _⟩ => ⟨S_, .f32⟩
  | .hbm, ⟨38, _⟩ => ⟨S2097152, .f32⟩
  | .hbm, ⟨39, _⟩ => ⟨S2097152x1, .f32⟩
  | .hbm, ⟨40, _⟩ => ⟨S2097152x1, .f32⟩
  | .hbm, ⟨41, _⟩ => ⟨S2097152x7, .f32⟩
  | .hbm, ⟨42, _⟩ => ⟨S2097152x7, .f32⟩
  | .hbm, ⟨43, _⟩ => ⟨S2097152x7, .f32⟩
  | .hbm, ⟨44, _⟩ => ⟨S2097152x7, .f32⟩
  | .hbm, ⟨45, _⟩ => ⟨S_, .f32⟩
  | .hbm, ⟨46, _⟩ => ⟨S2097152, .f32⟩
  | .hbm, ⟨47, _⟩ => ⟨S_, .f32⟩
  | .hbm, ⟨48, _⟩ => ⟨S2097152, .f32⟩
  | .hbm, ⟨49, _⟩ => ⟨S2097152, .f32⟩
  | .hbm, ⟨50, _⟩ => ⟨S2097152x1, .f32⟩
  | .hbm, ⟨51, _⟩ => ⟨S2097152x7, .f32⟩
  | .hbm, ⟨52, _⟩ => ⟨S2097152x7, .f32⟩
  | .hbm, ⟨53, _⟩ => ⟨S2097152x7, .f32⟩
  | .hbm, ⟨54, _⟩ => ⟨S_, .f32⟩
  | .hbm, ⟨55, _⟩ => ⟨S2097152, .f32⟩
  | .hbm, ⟨56, _⟩ => ⟨S2097152x1, .f32⟩
  | .hbm, ⟨57, _⟩ => ⟨S2097152x1, .f32⟩
  | .hbm, ⟨58, _⟩ => ⟨S2097152x7, .f32⟩
  | .hbm, ⟨59, _⟩ => ⟨S2097152x7, .f32⟩
  | .hbm, ⟨60, _⟩ => ⟨S2097152x7, .f32⟩
  | .hbm, ⟨61, _⟩ => ⟨S2097152x7, .f32⟩
  | .hbm, ⟨62, _⟩ => ⟨S_, .f32⟩
  | .hbm, ⟨63, _⟩ => ⟨S2097152, .f32⟩
  | .hbm, ⟨64, _⟩ => ⟨S_, .f32⟩
  | .hbm, ⟨65, _⟩ => ⟨S2097152, .f32⟩
  | .hbm, ⟨66, _⟩ => ⟨S2097152, .f32⟩
  | .hbm, ⟨67, _⟩ => ⟨S2097152x7, .f32⟩
  | .hbm, ⟨68, _⟩ => ⟨S2097152x7, .f32⟩
  | .hbm, ⟨69, _⟩ => ⟨S_, .f32⟩
  | .hbm, ⟨70, _⟩ => ⟨S2097152, .f32⟩
  | .hbm, ⟨71, _⟩ => ⟨S_, .f32⟩
  | .hbm, ⟨72, _⟩ => ⟨S2097152, .f32⟩
  | .hbm, ⟨73, _⟩ => ⟨S2097152, .f32⟩
  | .hbm, ⟨74, _⟩ => ⟨S2097152x1, .f32⟩
  | .hbm, ⟨75, _⟩ => ⟨S2097152x7, .f32⟩
  | .hbm, ⟨76, _⟩ => ⟨S2097152x7, .f32⟩
  | .hbm, ⟨77, _⟩ => ⟨S2097152x7, .f32⟩
  | .hbm, ⟨78, _⟩ => ⟨S_, .f32⟩
  | .hbm, ⟨79, _⟩ => ⟨S2097152, .f32⟩
  | .hbm, ⟨80, _⟩ => ⟨S2097152x1, .f32⟩
  | .hbm, ⟨81, _⟩ => ⟨S2097152x1, .f32⟩
  | .hbm, ⟨82, _⟩ => ⟨S2097152x7, .f32⟩
  | .hbm, ⟨83, _⟩ => ⟨S2097152x7, .f32⟩
  | .hbm, ⟨84, _⟩ => ⟨S2097152x7, .f32⟩
  | .hbm, ⟨85, _⟩ => ⟨S2097152x7, .f32⟩
  | .hbm, ⟨86, _⟩ => ⟨S_, .f32⟩
  | .hbm, ⟨87, _⟩ => ⟨S2097152, .f32⟩
  | .hbm, ⟨88, _⟩ => ⟨S_, .f32⟩
  | .hbm, ⟨89, _⟩ => ⟨S2097152, .f32⟩
  | .hbm, ⟨90, _⟩ => ⟨S2097152, .f32⟩
  | .hbm, ⟨91, _⟩ => ⟨S2097152, .f32⟩
  | .hbm, ⟨92, _⟩ => ⟨S2097152x7, .f32⟩
  | .hbm, ⟨93, _⟩ => ⟨S2097152x7, .f32⟩
  | .hbm, ⟨94, _⟩ => ⟨S_, .f32⟩
  | .hbm, ⟨95, _⟩ => ⟨S2097152, .f32⟩
  | .hbm, ⟨96, _⟩ => ⟨S_, .f32⟩
  | .hbm, ⟨97, _⟩ => ⟨S2097152, .f32⟩
  | .hbm, ⟨98, _⟩ => ⟨S2097152, .f32⟩
  | .hbm, ⟨99, _⟩ => ⟨S2097152x1, .f32⟩
  | .hbm, ⟨100, _⟩ => ⟨S2097152x7, .f32⟩
  | .hbm, ⟨101, _⟩ => ⟨S2097152x7, .f32⟩
  | .hbm, ⟨102, _⟩ => ⟨S2097152x7, .f32⟩
  | .hbm, ⟨103, _⟩ => ⟨S_, .f32⟩
  | .hbm, ⟨104, _⟩ => ⟨S2097152, .f32⟩
  | .hbm, ⟨105, _⟩ => ⟨S2097152x1, .f32⟩
  | .hbm, ⟨106, _⟩ => ⟨S2097152x1, .f32⟩
  | .hbm, ⟨107, _⟩ => ⟨S2097152x7, .f32⟩
  | .hbm, ⟨108, _⟩ => ⟨S2097152x7, .f32⟩
  | .hbm, ⟨109, _⟩ => ⟨S2097152x7, .f32⟩
  | .hbm, ⟨110, _⟩ => ⟨S2097152x7, .f32⟩
  | .hbm, ⟨111, _⟩ => ⟨S_, .f32⟩
  | .hbm, ⟨112, _⟩ => ⟨S2097152, .f32⟩
  | .hbm, ⟨113, _⟩ => ⟨S_, .f32⟩
  | .hbm, ⟨114, _⟩ => ⟨S2097152, .f32⟩
  | .hbm, ⟨115, _⟩ => ⟨S2097152, .f32⟩
  | .hbm, ⟨116, _⟩ => ⟨S2097152, .f32⟩
  | .hbm, ⟨117, _⟩ => ⟨S2097152, .f32⟩
  | .hbm, ⟨118, _⟩ => ⟨S2097152, .f32⟩
  | .hbm, ⟨119, _⟩ => ⟨S_, .f32⟩
  | .hbm, ⟨120, _⟩ => ⟨S2097152, .f32⟩
  | .hbm, ⟨121, _⟩ => ⟨S2097152, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S2097152x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_5 : Ref sig .tc := ⟨.hbm, 62, rfl⟩
abbrev main_v23 : Ref sig .tc := ⟨.hbm, 63, rfl⟩
abbrev main_cst_6 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_7 : Ref sig .tc := ⟨.hbm, 86, rfl⟩
abbrev main_v31 : Ref sig .tc := ⟨.hbm, 87, rfl⟩
abbrev main_cst_8 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_call3_cst : Ref sig .tc := ⟨.hbm, 94, rfl⟩
abbrev main_call3_v0 : Ref sig .tc := ⟨.hbm, 95, rfl⟩
abbrev main_call3_cst_0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_cst_1 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_9 : Ref sig .tc := ⟨.hbm, 111, rfl⟩
abbrev main_v40 : Ref sig .tc := ⟨.hbm, 112, rfl⟩
abbrev main_cst_10 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_11 : Ref sig .tc := ⟨.hbm, 119, rfl⟩
abbrev main_v46 : Ref sig .tc := ⟨.hbm, 120, rfl⟩
abbrev main_v47 : Ref sig .tc := ⟨.hbm, 121, rfl⟩
abbrev main_cst_12 : Ref sig .tc := ⟨.hbm, 122, rfl⟩
abbrev main_v48 : Ref sig .tc := ⟨.hbm, 123, rfl⟩
abbrev main_cst_13 : Ref sig .tc := ⟨.hbm, 124, rfl⟩
abbrev main_v49 : Ref sig .tc := ⟨.hbm, 125, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  reducesTo_S1x7_S_d0_1 : S1x7.ReducesTo [0, 1] S_
  h_S_ : 0 < S_.numel
  bcast_S1x7_S2097152x7_0_1 : S1x7.BroadcastsInDim S2097152x7 (![0, 1] : Fin 2 → Fin S2097152x7.rank)
  reducesTo_S2097152x7_S2097152_d1 : S2097152x7.ReducesTo [1] S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x7_0_1 : S2097152x1.BroadcastsInDim S2097152x7 (![0, 1] : Fin 2 → Fin S2097152x7.rank)
  reducesTo_S2097152_S_d0 : S2097152.ReducesTo [0] S_

variable [Facts₀]

class Facts : Prop extends Facts₀ where

variable [Facts]
-- ==== Proof.Spec.lean ====
/-
  The two programs as formulas over the extended reals.

  A row is seven logits. Both programs divide a row entry by entry by seven fixed temperatures, take the row's
  log-softmax (subtract the row's maximum, then the logarithm of the sum of the exponentials), and for the first
  row against each of the three others form the mean over the seven classes of  q · (log q − log p),  q the
  first row's softmax. The three means are added, scaled by a third of the mean squared temperature, and the
  scaled costs of all 2097152 rows are averaged.

  The kernel's form ("K") and the reference's form ("R") differ in three places only: q is exp (log-softmax) in
  the kernel and exp (shifted) / (sum of exp) in the reference; the kernel multiplies the cost by (m / 3) where the
  reference divides (cost · m) by 3; and the reference's sums start from an explicit zero. The kernel adds the
  rows up tile by tile (2 halves × 256 steps × 4096 rows), the reference all at once.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- −∞, the start of both programs' row maxima. -/
abbrev negInf : EReal := Ideal.ofBits .f32 0xFF800000#32
/-- The zero the reference's sums start from. -/
abbrev zero : EReal := Ideal.ofBits .f32 0x00000000#32
/-- The number of classes, 7. -/
abbrev seven : EReal := Ideal.ofBits .f32 0x40E00000#32
/-- The number of student rows, 3. -/
abbrev three : EReal := Ideal.ofBits .f32 0x40400000#32
/-- The number of rows, 2097152 = 2²¹. -/
abbrev count : EReal := Ideal.ofBits .f32 0x4A000000#32

/-- The seven temperatures' words. -/
abbrev tWord : Fin 7 → BitVec 32 := fun
  | 0 => 0x3FB97C91#32 | 1 => 0x3FB9817D#32 | 2 => 0x3FB8CEBB#32 | 3 => 0x3FC00000#32 | 4 => 0x3FBB8820#32 | 5 => 0x3FBA6C6A#32 | 6 => 0x3FBC6657#32
  | _ => 0#32

/-- The seven temperatures. -/
def temp : Fin 7 → EReal := fun k => Ideal.ofBits .f32 (tWord k)

/-- A row divided entry by entry by the temperatures. -/
def scaled (T o : Fin 7 → EReal) : Fin 7 → EReal := fun k => Ideal.div (o k) (T k)

/-- A row's maximum as both programs compute it: −∞ against the running maximum started from −∞. -/
def rowMax (z : Fin 7 → EReal) : EReal := max negInf ((Finset.univ : Finset (Fin 7)).fold max negInf z)

/-- A row minus its maximum. -/
def shifted (z : Fin 7 → EReal) : Fin 7 → EReal := fun k => z k - rowMax z

/-- The sum of the exponentials of the shifted row: the kernel's. -/
def sumExpK (z : Fin 7 → EReal) : EReal := ∑ k : Fin 7, Ideal.exp (shifted z k)
/-- The same started from the explicit zero: the reference's. -/
def sumExpR (z : Fin 7 → EReal) : EReal := zero + ∑ k : Fin 7, Ideal.exp (shifted z k)

/-- The row's log-softmax, kernel's form. -/
def lsmK (z : Fin 7 → EReal) : Fin 7 → EReal := fun k => shifted z k - Ideal.log (sumExpK z)
/-- The row's log-softmax, reference's form. -/
def lsmR (z : Fin 7 → EReal) : Fin 7 → EReal := fun k => shifted z k - Ideal.log (sumExpR z)

/-- The mean squared temperature, kernel's form. -/
def meanSqK (T : Fin 7 → EReal) : EReal := Ideal.div (∑ k : Fin 7, T k * T k) seven
/-- The mean squared temperature, reference's form. -/
def meanSqR (T : Fin 7 → EReal) : EReal := Ideal.div (zero + ∑ k : Fin 7, T k * T k) seven

/-- The mean over the classes of q · (log q − log p) for teacher row `a` and student row `b`: kernel's form, q = exp (log q). -/
def klK (T a b : Fin 7 → EReal) : EReal :=
  Ideal.div (∑ k : Fin 7, Ideal.exp (lsmK (scaled T a) k) * (lsmK (scaled T a) k - lsmK (scaled T b) k)) seven

/-- The same, reference's form: q = exp (shifted) / (sum of exp). -/
def klR (T a b : Fin 7 → EReal) : EReal :=
  Ideal.div (zero + ∑ k : Fin 7, Ideal.div (Ideal.exp (shifted (scaled T a) k)) (sumExpR (scaled T a))
      * (lsmR (scaled T a) k - lsmR (scaled T b) k)) seven

/-- One row's scaled cost, kernel's form: (kl₂ + kl₃ + kl₄) · (m / 3). -/
def rowK (T o1 o2 o3 o4 : Fin 7 → EReal) : EReal :=
  ((klK T o1 o2 + klK T o1 o3) + klK T o1 o4) * Ideal.div (meanSqK T) three

/-- One row's scaled cost, reference's form: ((kl₂ + kl₃ + kl₄) · m) / 3. -/
def rowR (T o1 o2 o3 o4 : Fin 7 → EReal) : EReal :=
  Ideal.div (((klR T o1 o2 + klR T o1 o3) + klR T o1 o4) * meanSqR T) three

/-- The reference's result from the rows' costs `f`: the mean of all rows. -/
def totalR (f : ℕ → EReal) : EReal := Ideal.div (zero + ∑ r : Fin 2097152, f r.val) count

/-- The kernel's result from the rows' costs `f`: each half's 256 tile sums of 4096 rows, the two halves added, divided by the count.
    Row 4096 · (256 · c + s) + p is row p of tile s of half c. -/
def totalK (f : ℕ → EReal) : EReal :=
  Ideal.div (zero + ∑ c : Fin 2, ∑ s : Fin 256, ∑ p : Fin 4096, f (4096 * (256 * c.val + s.val) + p.val)) count

/-- Row `r` of a 2097152 × 7 array (a row beyond the array reads as zeros; none is ever asked for). -/
def rowOf (a : (⟨2, ![2097152, 7]⟩ : Shape).Idx → EReal) (r : ℕ) : Fin 7 → EReal :=
  fun k => if h : r < 2097152 then a (ix2 (⟨r, h⟩ : Fin 2097152) k) else 0

/-- Row `r`'s scaled cost from the four logit arrays, kernel's form. -/
def costK (a0 a1 a2 a3 : (⟨2, ![2097152, 7]⟩ : Shape).Idx → EReal) (r : ℕ) : EReal :=
  rowK temp (rowOf a0 r) (rowOf a1 r) (rowOf a2 r) (rowOf a3 r)

/-- Row `r`'s scaled cost from the four logit arrays, reference's form. -/
def costR (a0 a1 a2 a3 : (⟨2, ![2097152, 7]⟩ : Shape).Idx → EReal) (r : ℕ) : EReal :=
  rowR temp (rowOf a0 r) (rowOf a1 r) (rowOf a2 r) (rowOf a3 r)

/-- The kernel's result as a function of the four logit arrays. -/
def resultK (a0 a1 a2 a3 : (⟨2, ![2097152, 7]⟩ : Shape).Idx → EReal) : EReal := totalK (costK a0 a1 a2 a3)

/-- The reference's result as a function of the four logit arrays. -/
def resultR (a0 a1 a2 a3 : (⟨2, ![2097152, 7]⟩ : Shape).Idx → EReal) : EReal := totalR (costR a0 a1 a2 a3)

end Cert.Spec

end
-- ==== Proof.KPieces.lean ====
/-
  What each control case of the body leaves behind, as values.

  The body adds one tile's scaled cost to every lane of a carried [1,128] accumulator. At a half's first step the
  accumulator is first set to zero; at a half's last step the accumulator is also copied to the output block.
  Each case's stores cover the buffer they write, so what a buffer holds afterwards is the last store's value:
  the accumulator's is the body's arithmetic (its one pure term) applied to the input blocks and to the accumulator
  as it stood — the stored zeros in the first case —, and the output's is the new accumulator re-laid as [1,1,128].
-/
import proofs.«126880_j42013370090071_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after one step, from the temperatures' block `x0`, the four logit tiles and the accumulator before. -/
abbrev stepAcc (x0 : Vec F S1x7 .f32) (x1 x2 x3 x4 : Vec F S4096x7 .f32) (old : Vec F S1x128 .f32) : Vec F S1x128 .f32 :=
  k0_pay1 (k0_pay5 x0) (k0_pay9 (k0_pay4 x0) (k0_pay6 x0 x1) (k0_pay7 x0 x1) (k0_pay8 x0 x2) x3) (k0_pay10 (k0_pay4 x0) (k0_pay6 x0 x1) (k0_pay7 x0 x1) x4) old

/-- A later step that is not a half's last: the accumulator holds the step's sum over what it held. -/
theorem scratch_B (c : Dev nD) (i : grid0.Coords) (arg2 : Memref sig .tc .vmem S1x7 .f32) (harg2 : arg2.IsWhole) (arg3 : Memref sig .tc .vmem S4096x7 .f32) (harg3 : arg3.IsWhole) (arg4 : Memref sig .tc .vmem S4096x7 .f32) (harg4 : arg4.IsWhole) (arg5 : Memref sig .tc .vmem S4096x7 .f32) (harg5 : arg5.IsWhole) (arg6 : Memref sig .tc .vmem S4096x7 .f32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : ¬cond0_1 i)
    (x0 : Vec F S1x7 .f32) (x1 : Vec F S4096x7 .f32) (x2 : Vec F S4096x7 .f32) (x3 : Vec F S4096x7 .f32) (x4 : Vec F S4096x7 .f32) (xs0 : Vec F S1x128 .f32) :
    sout0_B_0 c i arg2 harg2 arg3 harg3 arg4 harg4 arg5 harg5 arg6 harg6 arg7 harg7 arg8 harg8 hc0 hc1 x0 x1 x2 x3 x4 xs0 = stepAcc x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread,
    View.ld_unit_zero (S := S1x7) hz2, View.ld_unit_zero (S := S4096x7) hz2, View.ld_unit_zero (S := S1x128) hz2]

/-- A half's last step: the same for the accumulator. -/
theorem scratch_C (c : Dev nD) (i : grid0.Coords) (arg2 : Memref sig .tc .vmem S1x7 .f32) (harg2 : arg2.IsWhole) (arg3 : Memref sig .tc .vmem S4096x7 .f32) (harg3 : arg3.IsWhole) (arg4 : Memref sig .tc .vmem S4096x7 .f32) (harg4 : arg4.IsWhole) (arg5 : Memref sig .tc .vmem S4096x7 .f32) (harg5 : arg5.IsWhole) (arg6 : Memref sig .tc .vmem S4096x7 .f32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i)
    (x0 : Vec F S1x7 .f32) (x1 : Vec F S4096x7 .f32) (x2 : Vec F S4096x7 .f32) (x3 : Vec F S4096x7 .f32) (x4 : Vec F S4096x7 .f32) (xs0 : Vec F S1x128 .f32) :
    sout0_C_0 c i arg2 harg2 arg3 harg3 arg4 harg4 arg5 harg5 arg6 harg6 arg7 harg7 arg8 harg8 hc0 hc1 x0 x1 x2 x3 x4 xs0 = stepAcc x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread,
    View.ld_unit_zero (S := S1x7) hz2, View.ld_unit_zero (S := S4096x7) hz2, View.ld_unit_zero (S := S1x128) hz2]

/-- A half's first step: the accumulator is zeroed first, so it ends at the step's sum over the zeros. -/
theorem scratch_A (c : Dev nD) (i : grid0.Coords) (arg2 : Memref sig .tc .vmem S1x7 .f32) (harg2 : arg2.IsWhole) (arg3 : Memref sig .tc .vmem S4096x7 .f32) (harg3 : arg3.IsWhole) (arg4 : Memref sig .tc .vmem S4096x7 .f32) (harg4 : arg4.IsWhole) (arg5 : Memref sig .tc .vmem S4096x7 .f32) (harg5 : arg5.IsWhole) (arg6 : Memref sig .tc .vmem S4096x7 .f32) (harg6 : arg6.IsWhole) (arg7 : Memref sig .tc .vmem S1x1x128 .f32) (harg7 : arg7.IsWhole) (arg8 : Memref sig .tc .vmem S1x128 .f32) (harg8 : arg8.IsWhole) (hc0 : cond0_0 i) (hc1 : ¬cond0_1 i)
    (x0 : Vec F S1x7 .f32) (x1 : Vec F S4096x7 .f32) (x2 : Vec F S4096x7 .f32) (x3 : Vec F S4096x7 .f32) (x4 : Vec F S4096x7 .f32) :
    sout0_A_0 c i arg2 harg2 arg3 harg3 arg4 harg4 arg5 harg5 arg6 harg6 arg7 harg7 arg8 harg8 hc0 hc1 x0 x1 x2 x3 x4 = stepAcc x0 x1 x2 x3 x4 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg8.read_unread,
    View.ld_unit_zero (S := S1x7) hz2, View.ld_unit_zero (S := S4096x7) hz2, View.ld_unit_zero (S := S1x128) hz2]

/-- A half's last step: the output block is the new accumulator, re-laid. -/
theorem out_C (c : Dev nD) (i : grid0.Coords) (arg2 : Memref sig .tc .vmem S1x7 .f32) (harg2 : arg2.IsWhole) (arg3 : Memref sig .tc .vmem S4096x7 .f32) (harg3 : arg3.IsWhole) (arg4 : Memref sig .tc .vmem S4096x7 .f32) (harg4 : arg4.IsWhole) (arg5 : Memref sig .tc .vmem S4096x7 .f32) (harg5 : arg5.IsWhole) (arg6 : Memref sig .tc .vmem S4096x7 .f32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i)
    (x0 : Vec F S1x7 .f32) (x1 : Vec F S4096x7 .f32) (x2 : Vec F S4096x7 .f32) (x3 : Vec F S4096x7 .f32) (x4 : Vec F S4096x7 .f32) (xs0 : Vec F S1x128 .f32) :
    out0_C_5 c i arg2 harg2 arg3 harg3 arg4 harg4 arg5 harg5 arg6 harg6 arg7 harg7 arg8 harg8 hc0 hc1 x0 x1 x2 x3 x4 xs0 = k0_pay2 (stepAcc x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread, harg6.read_unread, harg8.read_unread,
    View.ld_unit_zero (S := S1x7) hz2, View.ld_unit_zero (S := S4096x7) hz2, View.ld_unit_zero (S := S1x128) hz2]

end Cert.KernelIdeal.Gen

end
-- ==== Proof.LibReduceRead.lean ====
/-
  One-axis reductions of a rank-2 value, read at coordinates, over the extended reals.

  A reduction of an `[a, b]` value along its lanes (axis 1) leaves a vector of length `a` whose element `i` is
  the sum (or the maximum) of row `i`; along its sublanes (axis 0) a vector of length `b` whose element `j` is the
  sum (or the maximum) of column `j`. The library states these over `Shape.Reduces.lift` (the result index with the
  reduced coordinate inserted); here the inserted index is written out as `ix2 i k` resp. `ix2 k j`, so that the
  terms of the sum are the operand at plain coordinates and can be rewritten one by one.
-/
import Idealize.ShloMosaic.PureOps.Ideal.Laws
import Idealize.ShloMosaic.Lib.ValueIdx

namespace Cert.LibReduceRead

open Idealize.ShloMosaic Idealize.ShloMosaic.ValueIdx

/-- Row `i`'s sum: the lane reduction of an `[a, b]` value at `i` is `∑ k, src (i, k)`. -/
theorem laneSum_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src ?_
  funext c; apply Fin.ext
  match c with
  | ⟨0, _⟩ => rfl
  | ⟨1, _⟩ => rfl

/-- Column `j`'s sum: the sublane reduction of an `[a, b]` value at `j` is `∑ k, src (k, j)`. -/
theorem sublaneSum_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src ?_
  funext c; apply Fin.ext
  match c with
  | ⟨0, _⟩ => rfl
  | ⟨1, _⟩ => rfl

/-- Row `i`'s maximum: the lane max-reduction at `i` is the fold of `max` over row `i`, from the accumulator's value. -/
theorem laneMax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (FloatOps.ofBits (F := Ideal) .f32 acc) (fun k => src (ix2 i k)) := by
  refine (Ideal.multiReduction_maximumf_single src acc h hφ hacc (ix1 i)).trans ?_
  refine congrArg (fun f => (Finset.univ : Finset (Fin b)).fold max (FloatOps.ofBits (F := Ideal) .f32 acc) f) ?_
  funext k
  refine congrArg src ?_
  funext c; apply Fin.ext
  match c with
  | ⟨0, _⟩ => rfl
  | ⟨1, _⟩ => rfl

/-- Column `j`'s maximum: the sublane max-reduction at `j` is the fold of `max` over column `j`. -/
theorem sublaneMax_apply {a b : ℕ} (src : FVec Ideal ⟨2, ![a, b]⟩ .f32) (acc : BitVec FTy.f32.bits)
    (h : (⟨2, ![a, b]⟩ : Shape).Reduces [0] ⟨1, ![b]⟩) (hφ : FKind.Formats .f32)
    (hacc : acc = FKind.maximumf.neutral .f32 hφ) (j : Fin b) :
    multiReduction .maximumf [0] ⟨1, ![b]⟩ src acc h hφ hacc (ix1 j)
      = (Finset.univ : Finset (Fin a)).fold max (FloatOps.ofBits (F := Ideal) .f32 acc) (fun k => src (ix2 k j)) := by
  refine (Ideal.multiReduction_maximumf_single src acc h hφ hacc (ix1 j)).trans ?_
  refine congrArg (fun f => (Finset.univ : Finset (Fin a)).fold max (FloatOps.ofBits (F := Ideal) .f32 acc) f) ?_
  funext k
  refine congrArg src ?_
  funext c; apply Fin.ext
  match c with
  | ⟨0, _⟩ => rfl
  | ⟨1, _⟩ => rfl

end Cert.LibReduceRead
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KValue.lean ====
/-
  The body's arithmetic, read row by row over the extended reals.

  A tile is 4096 rows of 7 logits. Everything the body computes from a tile is computed row by row: a row divided
  by the temperatures, the row minus its maximum, the log-softmax row, and the mean over the 7 classes of a product.
  Each vector operation below is the body's own chain of operations; its lemma says what the result holds at row p
  (and class k) in terms of that row alone, in the specification's words.
-/
import proofs.«126880_j42013370090071_1_alg».proof.Proof.Gen.KernelIdeal.Skeleton
import proofs.«126880_j42013370090071_1_alg».proof.Proof.Spec
import proofs.«126880_j42013370090071_1_alg».proof.Proof.LibReduceRead
import proofs.«126880_j42013370090071_1_alg».proof.Proof.LibKeepdims
import Idealize.ShloMosaic.Lib.ValueIdx
import Idealize.ShloMosaic.Lib.ValueLayout
import Idealize.ShloMosaic.Lib.Pipeline.Value

noncomputable section

namespace Cert.KValue

open Idealize.ShloMosaic Idealize.ShloMosaic.ValueIdx Cert.KernelIdeal Cert.KernelIdeal.Gen Cert.Spec

/-- The temperatures held by a [1,7] block. -/
def tempsOf (T4 : FVec Ideal S1x7 .f32) : Fin 7 → EReal := fun k => T4 (ix2 (0 : Fin 1) k)
/-- Row p of a tile. -/
def rowAt (x : FVec Ideal S4096x7 .f32) (p : Fin 4096) : Fin 7 → EReal := fun k => x (ix2 p k)

/-- A tile divided by the temperatures, spread over the rows. -/
def zVec (T4 : FVec Ideal S1x7 .f32) (x : FVec Ideal S4096x7 .f32) : FVec Ideal S4096x7 .f32 :=
  divf x (broadcastTo S4096x7 T4 broadcasts_S1x7_S4096x7)

/-- Each row minus its maximum. -/
def shVec (z : FVec Ideal S4096x7 .f32) : FVec Ideal S4096x7 .f32 :=
  subf z (broadcastTo S4096x7 (shapeCast S4096x1 (maximumf (broadcast S4096 (Scalar.ofBits .f32 0xFF800000#32))
    (multiReduction .maximumf [1] S4096 z 0xFF800000#32 reduces_S4096x7_S4096 (.inl rfl) rfl)) shapeCasts_S4096_S4096x1) broadcasts_S4096x1_S4096x7)

/-- Each (shifted) row minus the logarithm of the sum of its exponentials. -/
def lsVec (d : FVec Ideal S4096x7 .f32) : FVec Ideal S4096x7 .f32 :=
  subf d (broadcastTo S4096x7 (log (shapeCast S4096x1 (multiReduction .add [1] S4096 (exp d) 0x00000000#32 reduces_S4096x7_S4096 (.inl rfl) rfl)
    shapeCasts_S4096_S4096x1)) broadcasts_S4096x1_S4096x7)

/-- The log-softmax of every row of a tile divided by the temperatures. -/
def lsmVec (T4 : FVec Ideal S1x7 .f32) (x : FVec Ideal S4096x7 .f32) : FVec Ideal S4096x7 .f32 := lsVec (shVec (zVec T4 x))

/-- Each row's sum over the classes, divided by 7, as a column. -/
def meanVec (w : FVec Ideal S4096x7 .f32) : FVec Ideal S4096x1 .f32 :=
  divf (shapeCast S4096x1 (multiReduction .add [1] S4096 w 0x00000000#32 reduces_S4096x7_S4096 (.inl rfl) rfl) shapeCasts_S4096_S4096x1)
    (broadcast S4096x1 (Scalar.ofBits .f32 0x40E00000#32))

theorem zVec_apply (T4 : FVec Ideal S1x7 .f32) (x : FVec Ideal S4096x7 .f32) (p : Fin 4096) (k : Fin 7) :
    zVec T4 x (ix2 p k) = scaled (tempsOf T4) (rowAt x p) k := by
  unfold zVec scaled tempsOf rowAt
  rw [divf_apply, broadcastTo_1b_ab_apply]

theorem shVec_apply (z : FVec Ideal S4096x7 .f32) (p : Fin 4096) (k : Fin 7) :
    shVec z (ix2 p k) = shifted (rowAt z p) k := by
  unfold shVec shifted rowMax rowAt
  rw [subf_apply, Cert.LibKeepdims.broadcastTo_a1_ab_apply, Cert.LibKeepdims.shapeCast_a_a1_apply, maximumf_apply, broadcast_apply]
  rw [Cert.LibReduceRead.laneMax_apply (a := 4096) (b := 7) z 0xFF800000#32 reduces_S4096x7_S4096 (.inl rfl) rfl p]
  rfl

theorem lsVec_apply (d : FVec Ideal S4096x7 .f32) (p : Fin 4096) (k : Fin 7) :
    lsVec d (ix2 p k) = d (ix2 p k) - Ideal.log (∑ k' : Fin 7, Ideal.exp (d (ix2 p k'))) := by
  unfold lsVec
  rw [subf_apply, Cert.LibKeepdims.broadcastTo_a1_ab_apply]
  show d (ix2 p k) - Ideal.log (shapeCast S4096x1 _ shapeCasts_S4096_S4096x1 (ix2 p (0 : Fin 1))) = _
  rw [Cert.LibKeepdims.shapeCast_a_a1_apply]
  rw [Cert.LibReduceRead.laneSum_apply (a := 4096) (b := 7) (exp d) 0x00000000#32 reduces_S4096x7_S4096 (.inl rfl) rfl p]
  rfl

theorem lsmVec_apply (T4 : FVec Ideal S1x7 .f32) (x : FVec Ideal S4096x7 .f32) (p : Fin 4096) (k : Fin 7) :
    lsmVec T4 x (ix2 p k) = lsmK (scaled (tempsOf T4) (rowAt x p)) k := by
  unfold lsmVec
  rw [lsVec_apply]
  unfold lsmK sumExpK
  have hrow : rowAt (zVec T4 x) p = scaled (tempsOf T4) (rowAt x p) := funext fun k' => zVec_apply T4 x p k'
  simp only [shVec_apply, hrow]

theorem meanVec_apply (w : FVec Ideal S4096x7 .f32) (p : Fin 4096) :
    meanVec w (ix2 p (0 : Fin 1)) = Ideal.div (∑ k : Fin 7, w (ix2 p k)) seven := by
  unfold meanVec
  rw [divf_apply, broadcast_apply, Cert.LibKeepdims.shapeCast_a_a1_apply]
  rw [Cert.LibReduceRead.laneSum_apply (a := 4096) (b := 7) w 0x00000000#32 reduces_S4096x7_S4096 (.inl rfl) rfl p]
  rfl

end Cert.KValue

end
-- ==== Proof.KStep.lean ====
/-
  One step of the body, read at a lane.

  The body's one pure term is the vector operations of the previous module composed: the four log-softmax tiles, the
  teacher's probabilities as their exponential, three class means, their sum scaled by a third of the mean squared
  temperature, the tile's rows added up, and that one number added to every lane of the accumulator. So after a step,
  lane l of the accumulator holds what it held plus the sum over the tile's 4096 rows of the row's scaled cost.
-/
import proofs.«126880_j42013370090071_1_alg».proof.Proof.KValue

noncomputable section

namespace Cert.KValue

open Idealize.ShloMosaic Idealize.ShloMosaic.ValueIdx Cert.KernelIdeal Cert.KernelIdeal.Gen Cert.Spec

theorem expVec_apply {s : Shape} (v : FVec Ideal s .f32) (i : s.Idx) : exp v i = Ideal.exp (v i) := rfl

theorem pay4_eq (x0 : FVec Ideal S1x7 .f32) : k0_pay4 x0 = x0 := shapeCast_self _ _
theorem pay6_eq (x0 : FVec Ideal S1x7 .f32) (x1 : FVec Ideal S4096x7 .f32) : k0_pay6 x0 x1 = lsmVec (k0_pay4 x0) x1 := rfl
theorem pay7_eq (x0 : FVec Ideal S1x7 .f32) (x1 : FVec Ideal S4096x7 .f32) : k0_pay7 x0 x1 = exp (lsmVec (k0_pay4 x0) x1) := rfl
theorem pay8_eq (x0 : FVec Ideal S1x7 .f32) (x2 : FVec Ideal S4096x7 .f32) : k0_pay8 x0 x2 = lsmVec (k0_pay4 x0) x2 := rfl
theorem pay9_eq (v4 : FVec Ideal S1x7 .f32) (v24 v25 v40 v47 : FVec Ideal S4096x7 .f32) :
    k0_pay9 v4 v24 v25 v40 v47 = addf (meanVec (mulf v25 (subf v24 v40))) (meanVec (mulf v25 (subf v24 (lsmVec v4 v47)))) := rfl
theorem pay10_eq (v4 : FVec Ideal S1x7 .f32) (v24 v25 v69 : FVec Ideal S4096x7 .f32) :
    k0_pay10 v4 v24 v25 v69 = mulf v25 (subf v24 (lsmVec v4 v69)) := rfl

/-- The mean squared temperature, as the body computes it from the temperatures' block. -/
theorem pay5_apply (x0 : FVec Ideal S1x7 .f32) :
    k0_pay5 (F := Ideal) x0 (ix2 (0 : Fin 1) (0 : Fin 1)) = meanSqK (tempsOf (k0_pay4 (F := Ideal) x0)) := by
  unfold k0_pay5
  dsimp only
  rw [divf_apply, broadcast_apply, Cert.LibKeepdims.shapeCast_a_a1_apply]
  rw [Cert.LibReduceRead.laneSum_apply (a := 1) (b := 7) (mulf (k0_pay4 (F := Ideal) x0) (k0_pay4 (F := Ideal) x0)) 0x00000000#32 reduces_S1x7_S1 (.inl rfl) rfl (0 : Fin 1)]
  rfl

/-- The accumulator's store: lane l gets what it held plus the tile's rows added up, each row's class means summed and scaled. -/
theorem pay1_apply (v9 : FVec Ideal S1x1 .f32) (v68 : FVec Ideal S4096x1 .f32) (v85 : FVec Ideal S4096x7 .f32) (v97 : FVec Ideal S1x128 .f32) (l : Fin 128) :
    k0_pay1 v9 v68 v85 v97 (ix2 (0 : Fin 1) l)
      = v97 (ix2 (0 : Fin 1) l) + ∑ p : Fin 4096, (v68 (ix2 p (0 : Fin 1)) + meanVec v85 (ix2 p (0 : Fin 1))) * Ideal.div (v9 (ix2 (0 : Fin 1) (0 : Fin 1))) three := by
  unfold k0_pay1
  dsimp only
  rw [shapeCast_self, addf_apply, Cert.LibKeepdims.broadcastTo_a1_ab_apply, shapeCast_self, Cert.LibKeepdims.shapeCast_a_a1_apply]
  rw [Cert.LibReduceRead.sublaneSum_apply (a := 4096) (b := 1) _ 0x00000000#32 reduces_S4096x1_S1 (.inl rfl) rfl (0 : Fin 1)]
  congr 1
  refine Finset.sum_congr rfl fun p _ => ?_
  rw [mulf_apply, addf_apply, broadcastTo_1b_ab_apply, divf_apply, broadcast_apply]
  rfl

/-- One step: lane l of the accumulator afterwards is lane l before plus the sum of the tile's rows' scaled costs. -/
theorem step_apply (x0 : FVec Ideal S1x7 .f32) (x1 x2 x3 x4 : FVec Ideal S4096x7 .f32) (old : FVec Ideal S1x128 .f32) (l : Fin 128) :
    k0_pay1 (k0_pay5 x0) (k0_pay9 (k0_pay4 x0) (k0_pay6 x0 x1) (k0_pay7 x0 x1) (k0_pay8 x0 x2) x3)
        (k0_pay10 (k0_pay4 x0) (k0_pay6 x0 x1) (k0_pay7 x0 x1) x4) old (ix2 (0 : Fin 1) l)
      = old (ix2 (0 : Fin 1) l) + ∑ p : Fin 4096, rowK (tempsOf x0) (rowAt x1 p) (rowAt x2 p) (rowAt x3 p) (rowAt x4 p) := by
  rw [pay1_apply]
  congr 1
  refine Finset.sum_congr rfl fun p _ => ?_
  rw [pay9_eq, addf_apply, meanVec_apply, meanVec_apply, pay10_eq, meanVec_apply, pay5_apply, pay4_eq]
  unfold rowK klK
  simp only [mulf_apply, subf_apply, pay7_eq, pay6_eq, pay8_eq, pay4_eq, expVec_apply, lsmVec_apply]

end Cert.KValue

end
-- ==== Proof.LibTileSum.lean ====
import Mathlib.Data.EReal.Operations
import Mathlib.Algebra.BigOperators.Fin
import Mathlib.Algebra.BigOperators.Ring.Finset
import Mathlib.Logic.Equiv.Fin.Basic

/-!
# Sums over a grid of tiles

Pure algebra, no program: a sum over `n * m` points regrouped as `n` blocks of `m` points, the
two contractions `Sᵀ·X` and `Sᵀ·A·S` computed tile by tile against the same contractions computed
whole, and a running accumulator over the points of a grid against the double sum over the grid.

The regrouping laws hold in any additive commutative monoid, so in particular in the extended
reals.  The law for `Sᵀ·A·S` moves a factor across a sum, which the extended reals do not allow at
`±∞`; it is proved for real-valued `S` and `A` and transported along the coercion `ℝ → EReal`.
-/

namespace Cert.TileSum

open Finset

variable {M : Type*} [AddCommMonoid M]

/-! ## Regrouping a sum over `n * m` points into `n` blocks of `m` -/

/-- For `i < n` and `r < m`, the point `m * i + r` lies below `n * m`. -/
theorem tile_lt {n m : ℕ} (i : Fin n) (r : Fin m) : m * i.1 + r.1 < n * m :=
  calc m * i.1 + r.1 < m * i.1 + m := Nat.add_lt_add_left r.2 _
    _ = (i.1 + 1) * m := by rw [Nat.succ_mul, Nat.mul_comm]
    _ ≤ n * m := Nat.mul_le_mul_right _ i.2

/-- The point `m * i + r` of block `i`, offset `r`, as an element of `Fin (n * m)`. -/
def tile {n m : ℕ} (i : Fin n) (r : Fin m) : Fin (n * m) := ⟨m * i.1 + r.1, tile_lt i r⟩

@[simp] theorem tile_val {n m : ℕ} (i : Fin n) (r : Fin m) : (tile i r).1 = m * i.1 + r.1 := rfl

/-- `tile i r` is the image of `(i, r)` under the standard bijection `Fin n × Fin m ≃ Fin (n * m)`. -/
theorem tile_eq_finProdFinEquiv {n m : ℕ} (i : Fin n) (r : Fin m) :
    tile i r = finProdFinEquiv (i, r) :=
  Fin.ext (by simp [finProdFinEquiv, Nat.add_comm])

/-- **Regrouping.** `Σ_{i<n} Σ_{r<m} f (m*i + r) = Σ_{k<n*m} f k`, for `f` on `Fin (n * m)`. -/
theorem sum_tile (n m : ℕ) (f : Fin (n * m) → M) :
    ∑ i : Fin n, ∑ r : Fin m, f (tile i r) = ∑ k : Fin (n * m), f k := by
  rw [← Fintype.sum_prod_type']
  exact Fintype.sum_equiv finProdFinEquiv _ _ fun x => by rw [tile_eq_finProdFinEquiv]

/-- **Regrouping**, for a function on `ℕ`: `Σ_{i<n} Σ_{r<m} f (m*i + r) = Σ_{k<n*m} f k`. -/
theorem sum_tile_nat (n m : ℕ) (f : ℕ → M) :
    ∑ i : Fin n, ∑ r : Fin m, f (m * i.1 + r.1) = ∑ k : Fin (n * m), f k.1 :=
  sum_tile n m fun k => f k.1

/-- **Regrouping**, over ranges of `ℕ`: `Σ_{i<n} Σ_{r<m} f (m*i + r) = Σ_{k<n*m} f k`. -/
theorem sum_tile_range (n m : ℕ) (f : ℕ → M) :
    ∑ i ∈ range n, ∑ r ∈ range m, f (m * i + r) = ∑ k ∈ range (n * m), f k := by
  rw [Finset.sum_range, Finset.sum_range fun k => f k]
  simp only [Finset.sum_range fun r => f (m * _ + r)]
  exact sum_tile_nat n m f

/-- Regrouping with the block and the offset given separately:
`Σ_{k<n*m} G (k / m) (k % m) = Σ_{i<n} Σ_{r<m} G i r`. -/
theorem sum_div_mod (n m : ℕ) (G : ℕ → ℕ → M) :
    ∑ k : Fin (n * m), G (k.1 / m) (k.1 % m) = ∑ i : Fin n, ∑ r : Fin m, G i.1 r.1 := by
  rw [← sum_tile_nat n m fun k => G (k / m) (k % m)]
  refine Finset.sum_congr rfl fun i _ => Finset.sum_congr rfl fun r _ => ?_
  have hm : 0 < m := Nat.lt_of_le_of_lt (Nat.zero_le _) r.2
  rw [Nat.mul_add_div hm, Nat.div_eq_of_lt r.2, Nat.add_zero, Nat.mul_add_mod,
    Nat.mod_eq_of_lt r.2]

/-- 8192 rows as 8 tiles of 1024 rows: `Σ_{i<8} Σ_{r<1024} f (1024*i + r) = Σ_{k<8192} f k`. -/
theorem sum_8_1024 (f : Fin 8192 → M) :
    ∑ i : Fin 8, ∑ r : Fin 1024, f ⟨1024 * i.1 + r.1, by omega⟩ = ∑ k : Fin 8192, f k :=
  sum_tile 8 1024 f

/-- 8192 columns as 4 tiles of 2048 columns: `Σ_{j<4} Σ_{c<2048} f (2048*j + c) = Σ_{k<8192} f k`. -/
theorem sum_4_2048 (f : Fin 8192 → M) :
    ∑ j : Fin 4, ∑ c : Fin 2048, f ⟨2048 * j.1 + c.1, by omega⟩ = ∑ k : Fin 8192, f k :=
  sum_tile 4 2048 f

/-- 32 grid points as 8 rows of 4: `Σ_{i<8} Σ_{j<4} g (4*i + j) = Σ_{t<32} g t`. -/
theorem sum_8_4 (g : Fin 32 → M) :
    ∑ i : Fin 8, ∑ j : Fin 4, g ⟨4 * i.1 + j.1, by omega⟩ = ∑ t : Fin 32, g t :=
  sum_tile 8 4 g

/-- `sum_8_1024` for a function on `ℕ`. -/
theorem sum_8_1024_nat (f : ℕ → M) :
    ∑ i : Fin 8, ∑ r : Fin 1024, f (1024 * i.1 + r.1) = ∑ k : Fin 8192, f k.1 :=
  sum_tile_nat 8 1024 f

/-- `sum_4_2048` for a function on `ℕ`. -/
theorem sum_4_2048_nat (f : ℕ → M) :
    ∑ j : Fin 4, ∑ c : Fin 2048, f (2048 * j.1 + c.1) = ∑ k : Fin 8192, f k.1 :=
  sum_tile_nat 4 2048 f

/-! ## The contraction `Sᵀ·X`, tile by tile -/

/-- **`x1`.** `Σ_{i<n} Σ_{r<m} S (m*i+r) * X (m*i+r) = Σ_{k<n*m} S k * X k` in the extended reals
(or any additive commutative monoid with a product): only a regrouping of one sum, so no
finiteness is needed. -/
theorem x1_tiles {E : Type*} [AddCommMonoid E] [Mul E] (n m : ℕ) (S X : ℕ → E) :
    ∑ i : Fin n, ∑ r : Fin m, S (m * i.1 + r.1) * X (m * i.1 + r.1)
      = ∑ k : Fin (n * m), S k.1 * X k.1 :=
  sum_tile_nat n m fun k => S k * X k

/-- **`x1K = x1R`**: the 8 row tiles of 1024 rows against the whole contraction over 8192 rows,
in the extended reals, with no hypothesis. -/
theorem x1K_eq_x1R {ι κ : Type*} (S : ℕ → ι → EReal) (X : ℕ → κ → EReal) (a : ι) (d : κ) :
    ∑ i : Fin 8, ∑ r : Fin 1024, S (1024 * i.1 + r.1) a * X (1024 * i.1 + r.1) d
      = ∑ k : Fin 8192, S k.1 a * X k.1 d :=
  x1_tiles 8 1024 (fun k => S k a) (fun k => X k d)

/-! ## The contraction `Sᵀ·A·S`, tile by tile -/

/-- **`adj` over a commutative semiring.**  With rows in `n` tiles of `m` and columns in `p` tiles
of `q`,
`Σ_{i<n} Σ_{j<p} Σ_{c<q} (Σ_{r<m} u (m*i+r) * α (m*i+r) (q*j+c)) * v (q*j+c)
  = Σ_{c<p*q} (Σ_{r<n*m} u r * α r c) * v c`:
regroup the columns, distribute `v c` over the inner sum, exchange the sums over row tiles and
columns, regroup the rows, and factor `v c` out again. -/
theorem adj_tiles {R : Type*} [CommSemiring R] (n m p q : ℕ) (u v : ℕ → R) (α : ℕ → ℕ → R) :
    ∑ i : Fin n, ∑ j : Fin p, ∑ c : Fin q,
        (∑ r : Fin m, u (m * i.1 + r.1) * α (m * i.1 + r.1) (q * j.1 + c.1)) * v (q * j.1 + c.1)
      = ∑ c : Fin (p * q), (∑ r : Fin (n * m), u r.1 * α r.1 c.1) * v c.1 :=
  calc ∑ i : Fin n, ∑ j : Fin p, ∑ c : Fin q,
        (∑ r : Fin m, u (m * i.1 + r.1) * α (m * i.1 + r.1) (q * j.1 + c.1)) * v (q * j.1 + c.1)
      = ∑ i : Fin n, ∑ c : Fin (p * q),
          (∑ r : Fin m, u (m * i.1 + r.1) * α (m * i.1 + r.1) c.1) * v c.1 :=
        Finset.sum_congr rfl fun i _ =>
          sum_tile_nat p q fun c => (∑ r : Fin m, u (m * i.1 + r.1) * α (m * i.1 + r.1) c) * v c
    _ = ∑ c : Fin (p * q), ∑ i : Fin n, ∑ r : Fin m,
          u (m * i.1 + r.1) * α (m * i.1 + r.1) c.1 * v c.1 := by
        rw [Finset.sum_comm]; simp only [Finset.sum_mul]
    _ = ∑ c : Fin (p * q), ∑ r : Fin (n * m), u r.1 * α r.1 c.1 * v c.1 :=
        Finset.sum_congr rfl fun c _ => sum_tile_nat n m fun r => u r * α r c.1 * v c.1
    _ = ∑ c : Fin (p * q), (∑ r : Fin (n * m), u r.1 * α r.1 c.1) * v c.1 := by
        simp only [Finset.sum_mul]

/-- The coercion `ℝ → EReal` commutes with finite sums. -/
@[norm_cast]
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- **`adj` in the extended reals, real-valued data.**  `adj_tiles` for `u`, `v`, `α` that are
coercions of real-valued functions: both sides are coercions of the corresponding real sums. -/
theorem adj_tiles_coe (n m p q : ℕ) (u v : ℕ → ℝ) (α : ℕ → ℕ → ℝ) :
    ∑ i : Fin n, ∑ j : Fin p, ∑ c : Fin q,
        (∑ r : Fin m, (u (m * i.1 + r.1) : EReal) * (α (m * i.1 + r.1) (q * j.1 + c.1) : EReal))
          * (v (q * j.1 + c.1) : EReal)
      = ∑ c : Fin (p * q), (∑ r : Fin (n * m), (u r.1 : EReal) * (α r.1 c.1 : EReal))
          * (v c.1 : EReal) := by
  have h := congrArg Real.toEReal (adj_tiles n m p q u v α)
  simpa only [coe_sum, EReal.coe_mul] using h

/-- **`adjK = adjR`**: 8 × 4 tiles of 1024 × 2048 against the whole contraction over
8192 × 8192, in the extended reals, for `S` and `A` the coercions of real-valued `s` and `α`. -/
theorem adjK_eq_adjR {ι : Type*} (s : ℕ → ι → ℝ) (α : ℕ → ℕ → ℝ) (a b : ι) :
    ∑ i : Fin 8, ∑ j : Fin 4, ∑ c : Fin 2048,
        (∑ r : Fin 1024, (s (1024 * i.1 + r.1) a : EReal)
            * (α (1024 * i.1 + r.1) (2048 * j.1 + c.1) : EReal))
          * (s (2048 * j.1 + c.1) b : EReal)
      = ∑ c : Fin 8192, (∑ r : Fin 8192, (s r.1 a : EReal) * (α r.1 c.1 : EReal))
          * (s c.1 b : EReal) :=
  adj_tiles_coe 8 1024 4 2048 (fun k => s k a) (fun k => s k b) α

/-- **`adjK = adjR`, finiteness as a hypothesis.**  The same law for extended-real `S` and `A`
every entry of which is the coercion of some real. -/
theorem adjK_eq_adjR_of_real {ι : Type*} (S : ℕ → ι → EReal) (A : ℕ → ℕ → EReal)
    (hS : ∀ k a, ∃ x : ℝ, S k a = (x : EReal)) (hA : ∀ k l, ∃ x : ℝ, A k l = (x : EReal))
    (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b := by
  choose s hs using hS
  choose α hα using hA
  simp only [hs, hα]
  exact adjK_eq_adjR s α a b

/-! ## The running accumulator over the points of a grid -/

/-- The accumulator after `t` points: it starts at `0` and point `t` adds `g t`. -/
def acc (g : ℕ → M) : ℕ → M
  | 0 => 0
  | t + 1 => acc g t + g t

@[simp] theorem acc_zero (g : ℕ → M) : acc g 0 = 0 := rfl

@[simp] theorem acc_succ (g : ℕ → M) (t : ℕ) : acc g (t + 1) = acc g t + g t := rfl

/-- After `n` points the accumulator holds `Σ_{t<n} g t`. -/
theorem acc_eq_sum_range (g : ℕ → M) (n : ℕ) : acc g n = ∑ t ∈ range n, g t := by
  induction n with
  | zero => rfl
  | succ n ih => rw [acc_succ, ih, Finset.sum_range_succ]

/-- After `n` points the accumulator holds `Σ_{t : Fin n} g t`. -/
theorem acc_eq_sum (g : ℕ → M) (n : ℕ) : acc g n = ∑ t : Fin n, g t.1 := by
  rw [acc_eq_sum_range, Finset.sum_range]

/-- After the `n * m` points of an `n × m` grid visited row by row (point `t = m*i + j`), the
accumulator holds the double sum over the grid. -/
theorem acc_grid (g : ℕ → M) (n m : ℕ) :
    acc g (n * m) = ∑ i : Fin n, ∑ j : Fin m, g (m * i.1 + j.1) := by
  rw [acc_eq_sum, sum_tile_nat]

/-- The same with the contribution of point `t` given by its row `t / m` and column `t % m`. -/
theorem acc_grid_div_mod (G : ℕ → ℕ → M) (n m : ℕ) :
    acc (fun t => G (t / m) (t % m)) (n * m) = ∑ i : Fin n, ∑ j : Fin m, G i.1 j.1 := by
  rw [acc_eq_sum, sum_div_mod]

/-- The 32 points of the 8 × 4 grid: `acc g 32 = Σ_{t<32} g t`. -/
theorem acc_32 (g : ℕ → M) : acc g 32 = ∑ t : Fin 32, g t.1 := acc_eq_sum g 32

/-- The 32 points of the 8 × 4 grid: `acc g 32 = Σ_{i<8} Σ_{j<4} g (4*i + j)`. -/
theorem acc_32_grid (g : ℕ → M) : acc g 32 = ∑ i : Fin 8, ∑ j : Fin 4, g (4 * i.1 + j.1) :=
  acc_grid g 8 4

/-- The accumulator to which only the points satisfying `p` add. -/
def accIf (p : ℕ → Prop) [DecidablePred p] (h : ℕ → M) : ℕ → M
  | 0 => 0
  | t + 1 => if p t then accIf p h t + h t else accIf p h t

@[simp] theorem accIf_zero (p : ℕ → Prop) [DecidablePred p] (h : ℕ → M) : accIf p h 0 = 0 := rfl

@[simp] theorem accIf_succ (p : ℕ → Prop) [DecidablePred p] (h : ℕ → M) (t : ℕ) :
    accIf p h (t + 1) = if p t then accIf p h t + h t else accIf p h t := rfl

/-- A point that does not add, adds `0`. -/
theorem accIf_eq_acc (p : ℕ → Prop) [DecidablePred p] (h : ℕ → M) (n : ℕ) :
    accIf p h n = acc (fun t => if p t then h t else 0) n := by
  induction n with
  | zero => rfl
  | succ n ih =>
    rw [accIf_succ, acc_succ, ih]
    by_cases hp : p n
    · rw [if_pos hp, if_pos hp]
    · rw [if_neg hp, if_neg hp, add_zero]

/-- Over an `n × m` grid with `0 < m`, if only the first point of each row (`t % m = 0`) adds, the
accumulator ends with `Σ_{i<n} h (m*i)`. -/
theorem accIf_mod_grid (h : ℕ → M) (n m : ℕ) (hm : 0 < m) :
    accIf (fun t => t % m = 0) h (n * m) = ∑ i : Fin n, h (m * i.1) := by
  rw [accIf_eq_acc, acc_grid]
  refine Finset.sum_congr rfl fun i _ => ?_
  beta_reduce
  rw [Finset.sum_eq_single (⟨0, hm⟩ : Fin m)]
  · rw [Nat.add_zero, Nat.mul_mod_right, if_pos rfl]
  · intro j _ hj
    have hne : (m * i.1 + j.1) % m ≠ 0 := by
      rw [Nat.mul_add_mod, Nat.mod_eq_of_lt j.2]
      exact fun h0 => hj (Fin.ext h0)
    rw [if_neg hne]
  · intro h0
    exact absurd (Finset.mem_univ _) h0

/-- The 8 × 4 grid, only the points with `t % 4 = 0` adding: the accumulator ends with
`Σ_{i<8} h (4*i)`. -/
theorem accIf_32 (h : ℕ → M) :
    accIf (fun t => t % 4 = 0) h 32 = ∑ i : Fin 8, h (4 * i.1) :=
  accIf_mod_grid h 8 4 (by decide)

/-- The same with the contribution of a row's first point given by the row `t / m` alone. -/
theorem accIf_mod_grid_div (H : ℕ → M) (n m : ℕ) (hm : 0 < m) :
    accIf (fun t => t % m = 0) (fun t => H (t / m)) (n * m) = ∑ i : Fin n, H i.1 := by
  rw [accIf_mod_grid _ n m hm]
  refine Finset.sum_congr rfl fun i _ => ?_
  beta_reduce
  rw [Nat.mul_div_cancel_left _ hm]

/-! ### The accumulator as a sequence of observed values

The same laws for any sequence `f` of observed accumulator values that obeys the step equation on
the first `N` points, with the accumulator either starting at `0` or being cleared by the first
point (whatever it held before). -/

/-- A sequence that starts at `0` and whose step `t < N` adds `g t` is the accumulator up to `N`. -/
theorem eq_acc_of_step (N : ℕ) (f g : ℕ → M) (h0 : f 0 = 0)
    (hs : ∀ t, t < N → f (t + 1) = f t + g t) : ∀ n, n ≤ N → f n = acc g n := by
  intro n
  induction n with
  | zero => intro _; exact h0
  | succ n ih => intro hn; rw [hs n hn, ih (Nat.le_of_succ_le hn), acc_succ]

/-- The same when the sequence starts anywhere and the first point, instead of adding to what it
finds, leaves `g 0` (the accumulator is cleared at the first point). -/
theorem eq_acc_of_step_reset (N : ℕ) (f g : ℕ → M) (h1 : f 1 = g 0)
    (hs : ∀ t, 0 < t → t < N → f (t + 1) = f t + g t) :
    ∀ n, 0 < n → n ≤ N → f n = acc g n := by
  intro n
  induction n with
  | zero => intro h; exact absurd h (Nat.lt_irrefl 0)
  | succ n ih =>
    intro _ hn
    rcases Nat.eq_zero_or_pos n with rfl | hpos
    · rw [h1, acc_succ, acc_zero, zero_add]
    · rw [hs n hpos hn, ih hpos (Nat.le_of_succ_le hn), acc_succ]

/-- A sequence that starts at `0` and whose step `t < N` adds `h t` exactly when `p t` is the
conditional accumulator up to `N`. -/
theorem eq_accIf_of_step (N : ℕ) (p : ℕ → Prop) [DecidablePred p] (f h : ℕ → M) (h0 : f 0 = 0)
    (hs : ∀ t, t < N → f (t + 1) = if p t then f t + h t else f t) :
    ∀ n, n ≤ N → f n = accIf p h n := by
  intro n
  induction n with
  | zero => intro _; exact h0
  | succ n ih => intro hn; rw [hs n hn, ih (Nat.le_of_succ_le hn), accIf_succ]

/-- The same when the first point (which satisfies `p`) clears the accumulator before adding. -/
theorem eq_accIf_of_step_reset (N : ℕ) (p : ℕ → Prop) [DecidablePred p] (f h : ℕ → M)
    (hp0 : p 0) (h1 : f 1 = h 0)
    (hs : ∀ t, 0 < t → t < N → f (t + 1) = if p t then f t + h t else f t) :
    ∀ n, 0 < n → n ≤ N → f n = accIf p h n := by
  intro n
  induction n with
  | zero => intro h; exact absurd h (Nat.lt_irrefl 0)
  | succ n ih =>
    intro _ hn
    rcases Nat.eq_zero_or_pos n with rfl | hpos
    · rw [h1, accIf_succ, if_pos hp0, accIf_zero, zero_add]
    · rw [hs n hpos hn, ih hpos (Nat.le_of_succ_le hn), accIf_succ]

/-- The accumulator is the left fold of `+` over the points `0, …, n-1` in order. -/
theorem foldl_range_eq_acc (g : ℕ → M) (n : ℕ) :
    (List.range n).foldl (fun s t => s + g t) 0 = acc g n := by
  induction n with
  | zero => rfl
  | succ n ih => rw [List.range_succ, List.foldl_append, ih]; rfl

/-- For `g` given on `Fin n` only: the accumulator of its extension by `0` ends with
`Σ_{t : Fin n} g t`. -/
theorem acc_extend_eq_sum {n : ℕ} (g : Fin n → M) :
    acc (fun t => if h : t < n then g ⟨t, h⟩ else 0) n = ∑ t : Fin n, g t := by
  rw [acc_eq_sum]
  refine Finset.sum_congr rfl fun t _ => ?_
  rw [dif_pos t.2]

/-! ## Extended reals that are real numbers -/

/-- An extended real that is the coercion of a real number, that is, neither `+∞` nor `-∞`. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- Being a real number is being different from both infinities. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The sum of two reals is real. -/
theorem IsReal.add {x y : EReal} : IsReal x → IsReal y → IsReal (x + y)
  | ⟨a, ha⟩, ⟨b, hb⟩ => ⟨a + b, by rw [ha, hb, EReal.coe_add]⟩

/-- The product of two reals is real. -/
theorem IsReal.mul {x y : EReal} : IsReal x → IsReal y → IsReal (x * y)
  | ⟨a, ha⟩, ⟨b, hb⟩ => ⟨a * b, by rw [ha, hb, EReal.coe_mul]⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) isReal_zero h

/-- A signed integer word converted exactly is a real number. -/
theorem isReal_toInt {w : ℕ} (b : BitVec w) : IsReal ((b.toInt : ℝ) : EReal) := ⟨_, rfl⟩

/-- An unsigned integer word converted exactly is a real number. -/
theorem isReal_toNat {w : ℕ} (b : BitVec w) : IsReal ((b.toNat : ℝ) : EReal) := ⟨_, rfl⟩

/-- A one-hot entry, a condition read as `1` or `0`, is a real number. -/
theorem isReal_ite (c : Prop) [Decidable c] : IsReal (if c then (1 : EReal) else 0) := by
  by_cases hc : c
  · rw [if_pos hc]; exact isReal_one
  · rw [if_neg hc]; exact isReal_zero

/-- A one-hot entry, a one-bit word read unsigned, is a real number (and is `0` or `1`). -/
theorem isReal_bit (b : BitVec 1) : IsReal ((b.toNat : ℝ) : EReal) := isReal_toNat b

/-! ## The two laws end to end: accumulator over the 8 × 4 grid against the whole contraction -/

/-- **`adjK = adjR` for real entries.**  The law `adjK_eq_adjR` for extended-real `S` and `A` all of
whose entries are real numbers. -/
theorem adjK_eq_adjR_of_isReal {ι : Type*} (S : ℕ → ι → EReal) (A : ℕ → ℕ → EReal)
    (hS : ∀ k a, IsReal (S k a)) (hA : ∀ k l, IsReal (A k l)) (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b :=
  adjK_eq_adjR_of_real S A hS hA a b

/-- **`adj`, end to end.**  The accumulator that starts at `0` and to which grid point `t` (row tile
`t / 4`, column tile `t % 4`) adds the tile's contribution ends, after the 32 points, with the
whole contraction `Σ_{c<8192} (Σ_{r<8192} S r a * A r c) * S c b`, for real-valued `S` and `A`. -/
theorem adj_acc_eq {ι : Type*} (S : ℕ → ι → EReal) (A : ℕ → ℕ → EReal)
    (hS : ∀ k a, IsReal (S k a)) (hA : ∀ k l, IsReal (A k l)) (a b : ι) :
    acc (fun t => ∑ c : Fin 2048,
        (∑ r : Fin 1024, S (1024 * (t / 4) + r.1) a * A (1024 * (t / 4) + r.1) (2048 * (t % 4) + c.1))
          * S (2048 * (t % 4) + c.1) b) 32
      = ∑ c : Fin 8192, (∑ r : Fin 8192, S r.1 a * A r.1 c.1) * S c.1 b :=
  (acc_grid_div_mod (fun i j => ∑ c : Fin 2048,
      (∑ r : Fin 1024, S (1024 * i + r.1) a * A (1024 * i + r.1) (2048 * j + c.1))
        * S (2048 * j + c.1) b) 8 4).trans
    (adjK_eq_adjR_of_isReal S A hS hA a b)

/-- **`x1`, end to end.**  The accumulator that starts at `0` and to which only the first point of
each grid row (`t % 4 = 0`, row tile `t / 4`) adds the tile's contribution ends, after the 32
points, with the whole contraction `Σ_{k<8192} S k a * X k d`; no finiteness is needed. -/
theorem x1_acc_eq {ι κ : Type*} (S : ℕ → ι → EReal) (X : ℕ → κ → EReal) (a : ι) (d : κ) :
    accIf (fun t => t % 4 = 0)
        (fun t => ∑ r : Fin 1024, S (1024 * (t / 4) + r.1) a * X (1024 * (t / 4) + r.1) d) 32
      = ∑ k : Fin 8192, S k.1 a * X k.1 d :=
  (accIf_mod_grid_div
      (fun i => ∑ r : Fin 1024, S (1024 * i + r.1) a * X (1024 * i + r.1) d) 8 4 (by decide)).trans
    (x1K_eq_x1R S X a d)

/-! ## The same laws for data indexed by `Fin 8192` -/

/-- The accumulator after `n` points depends only on the contributions of the points below `n`. -/
theorem acc_congr {g g' : ℕ → M} {n : ℕ} (h : ∀ t, t < n → g t = g' t) : acc g n = acc g' n := by
  rw [acc_eq_sum_range, acc_eq_sum_range]
  exact Finset.sum_congr rfl fun t ht => h t (Finset.mem_range.1 ht)

/-- The conditional accumulator after `n` points depends only on the contributions of the points
below `n`. -/
theorem accIf_congr (p : ℕ → Prop) [DecidablePred p] {h h' : ℕ → M} {n : ℕ}
    (hh : ∀ t, t < n → h t = h' t) : accIf p h n = accIf p h' n := by
  rw [accIf_eq_acc, accIf_eq_acc]
  exact acc_congr fun t ht => by beta_reduce; rw [hh t ht]

/-- **`x1K = x1R`**, data indexed by `Fin 8192`. -/
theorem x1K_eq_x1R_fin {ι κ : Type*} (S : Fin 8192 → ι → EReal) (X : Fin 8192 → κ → EReal)
    (a : ι) (d : κ) :
    ∑ i : Fin 8, ∑ r : Fin 1024,
        S ⟨1024 * i.1 + r.1, by omega⟩ a * X ⟨1024 * i.1 + r.1, by omega⟩ d
      = ∑ k : Fin 8192, S k a * X k d :=
  sum_8_1024 fun k => S k a * X k d

/-- **`adj` over a commutative semiring**, data indexed by `Fin (n * m)` and `Fin (p * q)`: the law
`adj_tiles` with the same proof. -/
theorem adj_tiles_fin {R : Type*} [CommSemiring R] (n m p q : ℕ) (u : Fin (n * m) → R)
    (v : Fin (p * q) → R) (α : Fin (n * m) → Fin (p * q) → R) :
    ∑ i : Fin n, ∑ j : Fin p, ∑ c : Fin q,
        (∑ r : Fin m, u (tile i r) * α (tile i r) (tile j c)) * v (tile j c)
      = ∑ c : Fin (p * q), (∑ r : Fin (n * m), u r * α r c) * v c :=
  calc ∑ i : Fin n, ∑ j : Fin p, ∑ c : Fin q,
        (∑ r : Fin m, u (tile i r) * α (tile i r) (tile j c)) * v (tile j c)
      = ∑ i : Fin n, ∑ c : Fin (p * q), (∑ r : Fin m, u (tile i r) * α (tile i r) c) * v c :=
        Finset.sum_congr rfl fun i _ =>
          sum_tile p q fun c => (∑ r : Fin m, u (tile i r) * α (tile i r) c) * v c
    _ = ∑ c : Fin (p * q), ∑ i : Fin n, ∑ r : Fin m, u (tile i r) * α (tile i r) c * v c := by
        rw [Finset.sum_comm]; simp only [Finset.sum_mul]
    _ = ∑ c : Fin (p * q), ∑ r : Fin (n * m), u r * α r c * v c :=
        Finset.sum_congr rfl fun c _ => sum_tile n m fun r => u r * α r c * v c
    _ = ∑ c : Fin (p * q), (∑ r : Fin (n * m), u r * α r c) * v c := by
        simp only [Finset.sum_mul]

/-- `adj_tiles_fin` in the extended reals for coercions of real-valued data. -/
theorem adj_tiles_fin_coe (n m p q : ℕ) (u : Fin (n * m) → ℝ) (v : Fin (p * q) → ℝ)
    (α : Fin (n * m) → Fin (p * q) → ℝ) :
    ∑ i : Fin n, ∑ j : Fin p, ∑ c : Fin q,
        (∑ r : Fin m, (u (tile i r) : EReal) * (α (tile i r) (tile j c) : EReal))
          * (v (tile j c) : EReal)
      = ∑ c : Fin (p * q), (∑ r : Fin (n * m), (u r : EReal) * (α r c : EReal)) * (v c : EReal) := by
  have h := congrArg Real.toEReal (adj_tiles_fin n m p q u v α)
  simpa only [coe_sum, EReal.coe_mul] using h

/-- **`adjK = adjR`**, data indexed by `Fin 8192`, every entry of `S` and `A` a real number. -/
theorem adjK_eq_adjR_fin {ι : Type*} (S : Fin 8192 → ι → EReal) (A : Fin 8192 → Fin 8192 → EReal)
    (hS : ∀ k a, IsReal (S k a)) (hA : ∀ k l, IsReal (A k l)) (a b : ι) :
    ∑ i : Fin 8, ∑ j : Fin 4, ∑ c : Fin 2048,
        (∑ r : Fin 1024, S ⟨1024 * i.1 + r.1, by omega⟩ a
            * A ⟨1024 * i.1 + r.1, by omega⟩ ⟨2048 * j.1 + c.1, by omega⟩)
          * S ⟨2048 * j.1 + c.1, by omega⟩ b
      = ∑ c : Fin 8192, (∑ r : Fin 8192, S r a * A r c) * S c b := by
  have hS' : ∀ k a, ∃ x : ℝ, S k a = (x : EReal) := hS
  have hA' : ∀ k l, ∃ x : ℝ, A k l = (x : EReal) := hA
  choose s hs using hS'
  choose α hα using hA'
  simp only [hs, hα]
  exact adj_tiles_fin_coe 8 1024 4 2048 (fun k => s k a) (fun k => s k b) α

/-- Over an `n × m` grid, if point `m*i + j` adds `G i j`, the accumulator ends with
`Σ_{i<n} Σ_{j<m} G i j`. -/
theorem acc_grid_of_eq (n m : ℕ) (g : ℕ → M) (G : Fin n → Fin m → M)
    (hg : ∀ (i : Fin n) (j : Fin m), g (m * i.1 + j.1) = G i j) :
    acc g (n * m) = ∑ i : Fin n, ∑ j : Fin m, G i j := by
  rw [acc_grid]
  exact Finset.sum_congr rfl fun i _ => Finset.sum_congr rfl fun j _ => hg i j

/-- Over an `n × m` grid with `0 < m`, if only the first point of each row adds and point `m*i`
adds `H i`, the accumulator ends with `Σ_{i<n} H i`. -/
theorem accIf_mod_grid_of_eq (n m : ℕ) (hm : 0 < m) (h : ℕ → M) (H : Fin n → M)
    (hh : ∀ i : Fin n, h (m * i.1) = H i) :
    accIf (fun t => t % m = 0) h (n * m) = ∑ i : Fin n, H i := by
  rw [accIf_mod_grid h n m hm]
  exact Finset.sum_congr rfl fun i _ => hh i

end Cert.TileSum
-- ==== Proof.KAccum.lean ====
/-
  The accumulator over the grid.

  The 512 grid points are two halves of 256 steps; point n is step n % 256 of half n / 256 and stages tile n (rows
  4096·n … 4096·n + 4095). At a half's first step the accumulator is zeroed and then takes the tile's cost; at every
  later step the tile's cost is added to what the step before left. So after point n every lane of the accumulator
  holds the running sum of the tile costs of steps 0 … n % 256 of its half, and at a half's last step (n % 256 = 255)
  the output block holds the same: the sum of that half's 256 tile costs.
-/
import proofs.«126880_j42013370090071_1_alg».proof.Proof.Gen.KernelIdeal.Frame
import proofs.«126880_j42013370090071_1_alg».proof.Proof.KPieces
import proofs.«126880_j42013370090071_1_alg».proof.Proof.KStep
import proofs.«126880_j42013370090071_1_alg».proof.Proof.LibTileSum
import Idealize.ShloMosaic.PureOps.Ideal.Laws
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KValue Cert.Spec Cert.TileSum

variable (m : (ℓ : Loc nD τ sig) → Buf (Elt Ideal) ℓ)

/-- The cost of the tile staged at grid point t: its 4096 rows' scaled costs added up. -/
def tileOf (c : Dev nD) (t : Fin cfg0.N) : EReal :=
  ∑ p : Fin 4096, rowK (tempsOf (iblk m c 0 t)) (rowAt (iblk m c 1 t) p) (rowAt (iblk m c 2 t) p) (rowAt (iblk m c 3 t) p) (rowAt (iblk m c 4 t) p)

/-- The same for a point given as a number (no tile beyond the grid). -/
def tileNat (c : Dev nD) (n : ℕ) : EReal := if h : n < cfg0.N then tileOf m c ⟨n, h⟩ else 0

/-- Half `hh`'s tile costs, by step. -/
def halfTiles (c : Dev nD) (hh : ℕ) : ℕ → EReal := fun s => tileNat m c (256 * hh + s)

theorem tileNat_of_lt (c : Dev nD) (n : ℕ) (h : n < cfg0.N) : tileNat m c n = tileOf m c ⟨n, h⟩ := dif_pos h

/-- The zeros a half's first step stores. -/
theorem pay3_apply (l : Fin 128) : k0_pay3 (F := Ideal) (ix2 (0 : Fin 1) l) = 0 := by
  unfold k0_pay3
  rw [shapeCast_self, broadcast_apply]
  exact Ideal.ofBits_zero_f32

/-- One step at point t over an accumulator `old`: lane l gets `old`'s lane plus the tile's cost. -/
theorem stepAcc_apply (c : Dev nD) (t : Fin cfg0.N) (old : FVec Ideal S1x128 .f32) (l : Fin 128) :
    stepAcc (F := Ideal) (iblk m c 0 t) (iblk m c 1 t) (iblk m c 2 t) (iblk m c 3 t) (iblk m c 4 t) old (ix2 (0 : Fin 1) l)
      = old (ix2 (0 : Fin 1) l) + tileOf m c t :=
  step_apply _ _ _ _ _ old l

/-- After point n every lane of the accumulator holds the running sum of its half's tile costs up to this step. -/
theorem scratch_inv (c : Dev nD) : ∀ (n : ℕ) (h : n < cfg0.N) (l : Fin 128),
    ((outsAt0 m c n h).2 : FVec Ideal S1x128 .f32) (ix2 (0 : Fin 1) l) = acc (halfTiles m c (n / 256)) (n % 256 + 1)
  | n, h, l => by
    have hN : cfg0.N = 512 := N_0
    have hn : n < 512 := hN ▸ h
    have hlast : halfTiles m c (n / 256) (n % 256) = tileOf m c ⟨n, h⟩ := by
      unfold halfTiles
      rw [show 256 * (n / 256) + n % 256 = n from Nat.div_add_mod n 256]
      exact tileNat_of_lt m c n h
    by_cases h0 : n % 256 = 0
    · have h1 : ¬n % 256 = 255 := by omega
      rw [outsAt0_A m c ⟨n, h⟩ h0 h1]
      dsimp only
      rw [scratch_A]
      refine (stepAcc_apply m c ⟨n, h⟩ k0_pay3 l).trans ?_
      rw [pay3_apply, h0, acc_succ, acc_zero, ← hlast, h0]
    · have hpos : 0 < n := by omega
      have e1 : (n - 1) / 256 = n / 256 := by omega
      have e2 : (n - 1) % 256 + 1 = n % 256 := by omega
      have ih := scratch_inv c (n - 1) (Nat.lt_of_le_of_lt (Nat.sub_le _ _) h) l
      rw [e1, e2] at ih
      by_cases h1 : n % 256 = 255
      · rw [outsAt0_C m c ⟨n, h⟩ h0 h1]
        dsimp only
        rw [scratch_C]
        refine (stepAcc_apply m c ⟨n, h⟩ _ l).trans ?_
        rw [acc_succ, ← hlast]
        exact congrArg (· + _) ih
      · rw [outsAt0_B m c ⟨n, h⟩ h0 h1]
        dsimp only
        rw [scratch_B]
        refine (stepAcc_apply m c ⟨n, h⟩ _ l).trans ?_
        rw [acc_succ, ← hlast]
        exact congrArg (· + _) ih
termination_by n => n
decreasing_by all_goals omega

/-- At a half's last step the output block holds, in every lane, the sum of the half's 256 tile costs. -/
theorem out_last (c : Dev nD) (n : ℕ) (h : n < cfg0.N) (h1 : n % 256 = 255) (l : Fin 128) :
    ((outsAt0 m c n h).1 : FVec Ideal S1x1x128 .f32) (ix3 (0 : Fin 1) (0 : Fin 1) l) = acc (halfTiles m c (n / 256)) 256 := by
  have h0 : ¬n % 256 = 0 := by omega
  have hs := scratch_inv m c n h l
  rw [h1] at hs
  rw [← hs, outsAt0_C m c ⟨n, h⟩ h0 h1]
  dsimp only
  rw [out_C, scratch_C]
  unfold k0_pay2
  exact shapeCast_ab_1ab_apply _ _ _ _ _

end Cert.KernelIdeal.Gen

end
-- ==== Proof.KBlocks.lean ====
/-
  The kernel's input blocks as rows of the argument arrays. At grid point t (half c, step s, t = 256 · c + s)
  each of the four logit windows stages rows 4096 · t … 4096 · t + 4095 of its array, and the temperature window
  stages the whole [1,7] array that the host makes before the call by spreading the table of seven words.
-/
import proofs.«126880_j42013370090071_1_alg».proof.Proof.Gen.KernelIdeal.Frame
import proofs.«126880_j42013370090071_1_alg».proof.Proof.KValue
import proofs.«126880_j42013370090071_1_alg».proof.Proof.Spec
import Idealize.ShloMosaic.Lib.Pipeline.Value
import Idealize.ShloMosaic.Lib.StableHlo.Run
import Idealize.ShloMosaic.Lib.Tactic
import Idealize.ShloMosaic.Lib.ValueIdx

noncomputable section

namespace Cert.KBlocks

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD) (t : Fin cfg0.N)

/-- Window 1's block index at point t is (t, 0). -/
theorem idx_facts1 : ∀ t : Fin cfg0.N, win0_1.index t (0 : Fin 2) = t.val ∧ win0_1.index t (1 : Fin 2) = 0 :=
  (by decide +kernel : ∀ t : Fin grid0.N, _)

/-- Row p of window 1's block at point t is row 4096 · t + p of the array. -/
theorem rowAt_block1 (p : Fin 4096) :
    Cert.KValue.rowAt (Gen.iblk m c 1 t : FVec Ideal S4096x7 .f32) p
      = Cert.Spec.rowOf (m ((c : Thread nD τ).loc main_arg0)) (4096 * t.val + p.val) := by
  funext k
  have hi := idx_facts1 t
  have ht : t.val < 512 := Nat.lt_of_lt_of_eq t.isLt N_0
  have hr : 4096 * t.val + p.val < 2097152 := by have h := p.isLt; omega
  unfold Cert.KValue.rowAt Cert.Spec.rowOf
  rw [dif_pos hr]
  unfold iblk
  rw [View.read_apply]
  show V m c main_arg0 _ = m (c.tc.loc main_arg0) _
  rw [V_main_arg0]
  congr 1
  funext a
  apply Fin.ext
  match a with
  | ⟨0, _⟩ => show win0_1.index t 0 * 4096 + 1 * p.val = 4096 * t.val + p.val; rw [hi.1]; omega
  | ⟨1, _⟩ => show win0_1.index t 1 * 7 + 1 * k.val = k.val; rw [hi.2]; omega

/-- Window 2's block index at point t is (t, 0). -/
theorem idx_facts2 : ∀ t : Fin cfg0.N, win0_2.index t (0 : Fin 2) = t.val ∧ win0_2.index t (1 : Fin 2) = 0 :=
  (by decide +kernel : ∀ t : Fin grid0.N, _)

/-- Row p of window 2's block at point t is row 4096 · t + p of the array. -/
theorem rowAt_block2 (p : Fin 4096) :
    Cert.KValue.rowAt (Gen.iblk m c 2 t : FVec Ideal S4096x7 .f32) p
      = Cert.Spec.rowOf (m ((c : Thread nD τ).loc main_arg1)) (4096 * t.val + p.val) := by
  funext k
  have hi := idx_facts2 t
  have ht : t.val < 512 := Nat.lt_of_lt_of_eq t.isLt N_0
  have hr : 4096 * t.val + p.val < 2097152 := by have h := p.isLt; omega
  unfold Cert.KValue.rowAt Cert.Spec.rowOf
  rw [dif_pos hr]
  unfold iblk
  rw [View.read_apply]
  show V m c main_arg1 _ = m (c.tc.loc main_arg1) _
  rw [V_main_arg1]
  congr 1
  funext a
  apply Fin.ext
  match a with
  | ⟨0, _⟩ => show win0_2.index t 0 * 4096 + 1 * p.val = 4096 * t.val + p.val; rw [hi.1]; omega
  | ⟨1, _⟩ => show win0_2.index t 1 * 7 + 1 * k.val = k.val; rw [hi.2]; omega

/-- Window 3's block index at point t is (t, 0). -/
theorem idx_facts3 : ∀ t : Fin cfg0.N, win0_3.index t (0 : Fin 2) = t.val ∧ win0_3.index t (1 : Fin 2) = 0 :=
  (by decide +kernel : ∀ t : Fin grid0.N, _)

/-- Row p of window 3's block at point t is row 4096 · t + p of the array. -/
theorem rowAt_block3 (p : Fin 4096) :
    Cert.KValue.rowAt (Gen.iblk m c 3 t : FVec Ideal S4096x7 .f32) p
      = Cert.Spec.rowOf (m ((c : Thread nD τ).loc main_arg2)) (4096 * t.val + p.val) := by
  funext k
  have hi := idx_facts3 t
  have ht : t.val < 512 := Nat.lt_of_lt_of_eq t.isLt N_0
  have hr : 4096 * t.val + p.val < 2097152 := by have h := p.isLt; omega
  unfold Cert.KValue.rowAt Cert.Spec.rowOf
  rw [dif_pos hr]
  unfold iblk
  rw [View.read_apply]
  show V m c main_arg2 _ = m (c.tc.loc main_arg2) _
  rw [V_main_arg2]
  congr 1
  funext a
  apply Fin.ext
  match a with
  | ⟨0, _⟩ => show win0_3.index t 0 * 4096 + 1 * p.val = 4096 * t.val + p.val; rw [hi.1]; omega
  | ⟨1, _⟩ => show win0_3.index t 1 * 7 + 1 * k.val = k.val; rw [hi.2]; omega

/-- Window 4's block index at point t is (t, 0). -/
theorem idx_facts4 : ∀ t : Fin cfg0.N, win0_4.index t (0 : Fin 2) = t.val ∧ win0_4.index t (1 : Fin 2) = 0 :=
  (by decide +kernel : ∀ t : Fin grid0.N, _)

/-- Row p of window 4's block at point t is row 4096 · t + p of the array. -/
theorem rowAt_block4 (p : Fin 4096) :
    Cert.KValue.rowAt (Gen.iblk m c 4 t : FVec Ideal S4096x7 .f32) p
      = Cert.Spec.rowOf (m ((c : Thread nD τ).loc main_arg3)) (4096 * t.val + p.val) := by
  funext k
  have hi := idx_facts4 t
  have ht : t.val < 512 := Nat.lt_of_lt_of_eq t.isLt N_0
  have hr : 4096 * t.val + p.val < 2097152 := by have h := p.isLt; omega
  unfold Cert.KValue.rowAt Cert.Spec.rowOf
  rw [dif_pos hr]
  unfold iblk
  rw [View.read_apply]
  show V m c main_arg3 _ = m (c.tc.loc main_arg3) _
  rw [V_main_arg3]
  congr 1
  funext a
  apply Fin.ext
  match a with
  | ⟨0, _⟩ => show win0_4.index t 0 * 4096 + 1 * p.val = 4096 * t.val + p.val; rw [hi.1]; omega
  | ⟨1, _⟩ => show win0_4.index t 1 * 7 + 1 * k.val = k.val; rw [hi.2]; omega

/-- The temperature window's block index is (0, 0) at every point. -/
theorem idx_facts0 : ∀ t : Fin cfg0.N, win0_0.index t (0 : Fin 2) = 0 ∧ win0_0.index t (1 : Fin 2) = 0 :=
  (by decide +kernel : ∀ t : Fin grid0.N, _)

/-- The [1,7] array the region finds: the table of seven words spread along axis 1. -/
theorem V_main_v0 : (V m c main_v0 : S1x7.Idx → EReal)
    = broadcastInDim S1x7 ![1] Facts₀.bcast_S7_S1x7_1 (fun i : S7.Idx => FloatOps.ofBits (F := Ideal) .f32 (lit0 (S7.rowMajor i))) := by
  show StableHlo.after hostOps0 (fun b => m (c, b)) (Proc.devRef .tc main_v0) = _
  after_results
  rfl

/-- The words of the table are the specification's. -/
theorem lit0_eq (k : Fin 7) : lit0 (S7.rowMajor (ix1 k)) = Cert.Spec.tWord k := by
  fin_cases k <;> rfl

/-- The temperature window's block holds the seven temperatures at every point. -/
theorem temps_block : Cert.KValue.tempsOf (Gen.iblk m c 0 t : FVec Ideal S1x7 .f32) = Cert.Spec.temp := by
  funext k
  have hi := idx_facts0 t
  unfold Cert.KValue.tempsOf Cert.Spec.temp
  unfold iblk
  rw [View.read_apply]
  show (V m c main_v0 : S1x7.Idx → EReal) _ = _
  rw [V_main_v0]
  refine (broadcastInDim_apply _ _ _ _ (ix1 k) (fun a => ?_)).trans ?_
  · match a with
    | ⟨0, _⟩ => show k.val = win0_0.index t 1 * 7 + 1 * k.val; rw [hi.2]; omega
  · show Ideal.ofBits .f32 (lit0 (S7.rowMajor (ix1 k))) = _
    rw [lit0_eq]

end Cert.KBlocks

end
-- ==== Proof.LibIdx1.lean ====
/-
  Sums over the indices of a vector.

  An index of a rank-1 shape of extent n is one coordinate below n, so a sum over all indices of such a shape is the
  sum over the coordinates. (The rank-2 counterpart is in the library; a host reduction over every axis of a vector
  reads as a sum over all its indices, and this turns it into a sum over `Fin n`.)
-/
import Idealize.ShloMosaic.Lib.ValueIdx

namespace Cert.LibIdx1

open Idealize.ShloMosaic Idealize.ShloMosaic.ValueIdx

/-- Indices of a vector are its coordinates. -/
def idxEquiv1 {n : ℕ} : (⟨1, ![n]⟩ : Shape).Idx ≃ Fin n where
  toFun i := i 0
  invFun k := ix1 k
  left_inv i := (eq_ix1 i).symm
  right_inv _ := rfl

/-- A sum over the indices of a vector is the sum over its coordinates. -/
theorem sum_idx1 {M : Type*} [AddCommMonoid M] {n : ℕ} (f : (⟨1, ![n]⟩ : Shape).Idx → M) :
    ∑ i, f i = ∑ k : Fin n, f (ix1 k) :=
  (Equiv.sum_comp idxEquiv1.symm f).symm

end Cert.LibIdx1
-- ==== Proof.KFinal.lean ====
/-
  The kernel's result.

  Only a half's last point writes the output block back, and it writes the half's total into row h of the [2,1,128]
  output array; the two rows cover the array. The lines after the call take lane 0 of each row, add the two from zero
  and divide by the number of rows. A half's total is the sum over its 256 steps of the tile costs, a tile cost the
  sum over its 4096 rows of the row's scaled cost, and the tile staged at point t holds rows 4096·t … 4096·t + 4095
  of the four logit arrays: so the result is the specification's kernel-form total of the rows' costs.
-/
import proofs.«126880_j42013370090071_1_alg».proof.Proof.Gen.KernelIdeal.Frame
import proofs.«126880_j42013370090071_1_alg».proof.Proof.KAccum
import proofs.«126880_j42013370090071_1_alg».proof.Proof.KBlocks
import proofs.«126880_j42013370090071_1_alg».proof.Proof.LibIdx1
import Idealize.ShloMosaic.Lib.IdealHost
import Idealize.ShloMosaic.Lib.Pipeline.Value
import Idealize.ShloMosaic.Lib.StableHlo.Run
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KValue Cert.Spec Cert.TileSum

variable (m : (ℓ : Loc nD τ sig) → Buf (Elt Ideal) ℓ) (ρ : Dev nD → PrngReg)

/-- The output array after the run: row h (either half) holds in every lane the sum of half h's 256 tile costs. -/
def halvesArr (c : Dev nD) : S2x1x128.Idx → EReal := fun i => acc (halfTiles m c (i 0).val) 256

/-- The output's block index at point t is (t / 256, 0, 0): decided once over the 512 points. -/
theorem idx5 : ∀ t : Fin cfg0.N, win0_5.index t (0 : Fin 3) = t.val / 256 ∧ win0_5.index t (1 : Fin 3) = 0 ∧ win0_5.index t (2 : Fin 3) = 0 :=
  (by decide +kernel : ∀ t : Fin grid0.N, _)

/-- The output's blocks are whole [1,1,128] blocks at every point. -/
theorem xsize5 : ∀ t : Fin cfg0.N, win0_5.xsize (grid0.coords t) (0 : Fin 3) = 1 :=
  (by decide +kernel : ∀ t : Fin grid0.N, _)

/-- At a half's last step every entry of the output block is the half's total. -/
theorem out_last' (c : Dev nD) (n : ℕ) (h : n < cfg0.N) (h1 : n % 256 = 255) (i : S1x1x128.Idx) :
    ((outsAt0 m c n h).1 : FVec Ideal S1x1x128 .f32) i = acc (halfTiles m c (n / 256)) 256 := by
  have h0 : (i 0).val < 1 := (i 0).isLt
  have h1' : (i 1).val < 1 := (i 1).isLt
  have hi : i = ix3 (0 : Fin 1) (0 : Fin 1) (i 2) := by
    funext a
    match a with
    | ⟨0, _⟩ => exact Fin.ext (by show (i 0).val = 0; omega)
    | ⟨1, _⟩ => exact Fin.ext (by show (i 1).val = 0; omega)
    | ⟨2, _⟩ => rfl
  rw [hi]
  exact out_last m c n h h1 (i 2)

/-- What a half's last point writes back is its block of the array of the halves' totals. -/
theorem flushed5_eq (c : Dev nD) (t : Fin cfg0.N) (hf : (cfg0.win 5).flush t = true) :
    (dats m 0 c).flushed 5 t = ((cfg0.win 5).blk t).view.read (Elt Ideal) (halvesArr m c) := by
  have h1 : t.val % 256 = 255 := (flush0_5 t).mp hf
  obtain ⟨e0, e1, e2⟩ := idx5 t
  have hx := xsize5 t
  show (cfg0.win 5).cut (grid0.coords t) ((dats m 0 c).after 5 t) = _
  rw [after0_5]
  funext j
  show ((outsAt0 m c t.val t.isLt).1 : FVec Ideal S1x1x128 .f32) j = halvesArr m c (((cfg0.win 5).blk t).view.emb j)
  refine (out_last' m c t.val t.isLt h1 j).trans ?_
  unfold halvesArr
  have hj0 : (j 0).val < win0_5.xsize (grid0.coords t) (0 : Fin 3) := (j 0).isLt
  have hemb : ((((cfg0.win 5).blk t).view.emb j) 0).val = t.val / 256 := by
    show win0_5.index t (0 : Fin 3) * 1 + 1 * (j 0).val = t.val / 256
    omega
  rw [hemb]

/-- An index of the output array is in point t's block iff each coordinate is in the block's range. -/
theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v1).slice (win0_5.rect t)).set ↔ _
  rw [View.set_slice_whole, Rect.mem_set_unit]
  exact Iff.rfl

/-- Row h of the output array is written back at the last point of half h. -/
theorem cover5 (i : S2x1x128.Idx) : ∃ t : Fin cfg0.N, (cfg0.win 5).flush t = true ∧ i ∈ ((cfg0.win 5).blk t).view.set := by
  have hN : cfg0.N = 512 := N_0
  have hi0 : (i 0).val < 2 := (i 0).isLt
  have hi1 : (i 1).val < 1 := (i 1).isLt
  have hi2 : (i 2).val < 128 := (i 2).isLt
  have hlt : 256 * (i 0).val + 255 < cfg0.N := by rw [hN]; omega
  obtain ⟨e0, e1, e2⟩ := idx5 ⟨256 * (i 0).val + 255, hlt⟩
  have e0' : win0_5.index ⟨256 * (i 0).val + 255, hlt⟩ (0 : Fin 3) = (256 * (i 0).val + 255) / 256 := e0
  refine ⟨⟨256 * (i 0).val + 255, hlt⟩, (flush0_5 _).mpr (by show (256 * (i 0).val + 255) % 256 = 255; omega), ?_⟩
  rw [mem_blk5]
  intro a
  match a with
  | ⟨0, _⟩ => show win0_5.index ⟨256 * (i 0).val + 255, hlt⟩ (0 : Fin 3) * 1 ≤ (i 0).val ∧ (i 0).val < win0_5.index ⟨256 * (i 0).val + 255, hlt⟩ (0 : Fin 3) * 1 + 1; omega
  | ⟨1, _⟩ => show win0_5.index ⟨256 * (i 0).val + 255, hlt⟩ (1 : Fin 3) * 1 ≤ (i 1).val ∧ (i 1).val < win0_5.index ⟨256 * (i 0).val + 255, hlt⟩ (1 : Fin 3) * 1 + 1; omega
  | ⟨2, _⟩ => show win0_5.index ⟨256 * (i 0).val + 255, hlt⟩ (2 : Fin 3) * 128 ≤ (i 2).val ∧ (i 2).val < win0_5.index ⟨256 * (i 0).val + 255, hlt⟩ (2 : Fin 3) * 128 + 128; omega

/-- So the output array ends holding the two halves' totals. -/
theorem final5 (c : Dev nD) : (dats m 0 c).arrAt 5 cfg0.N = halvesArr m c :=
  (dats m 0 c).arrAt_eq_of_cover 5 (halvesArr m c) (flushed5_eq m c) cover5

/-- Entry k of lane 0 of a [2,1,128] array re-laid as a vector of length 2 is the array at (k, 0, 0). -/
theorem lane0_entry (H : S2x1x128.Idx → EReal) (k : Fin 2) :
    shapeCast S2 (extractStridedSlice S2x1x1 ![0, 0, 0] H slices_S2x1x128_S2x1x1_0_0_0) shapeCasts_S2x1x1_S2 (ix1 k)
      = H (ix3 k (0 : Fin 1) (0 : Fin 128)) := by
  rw [shapeCast_apply _ shapeCasts_S2x1x1_S2 (ix1 k) (ix3 k (0 : Fin 1) (0 : Fin 1)) (by
    rw [Shape.rowMajor_val_three, Shape.rowMajor_val_one]
    show (k.val * 1 + 0) * 1 + 0 = k.val
    omega)]
  exact extractStridedSlice_apply ![0, 0, 0] H slices_S2x1x128_S2x1x1_0_0_0 (ix3 k (0 : Fin 1) (0 : Fin 1)) (ix3 k (0 : Fin 1) (0 : Fin 128)) (fun a => by
    match a with
    | ⟨0, _⟩ => show k.val = 0 + k.val; omega
    | ⟨1, _⟩ => show (0 : ℕ) = 0 + 0; rfl
    | ⟨2, _⟩ => show (0 : ℕ) = 0 + 0; rfl)

/-- The lines after the call, as arithmetic on any [2,1,128] array: lane 0 of its two rows added from zero, divided by the count. -/
theorem tail_fun (H : S2x1x128.Idx → EReal) :
    Host.divf (F := Ideal) (Host.reduceAdd (F := Ideal) (shapeCast S2 (extractStridedSlice S2x1x1 ![0, 0, 0] H slices_S2x1x128_S2x1x1_0_0_0) shapeCasts_S2x1x1_S2)
        (constant (F := Ideal) S_ .f32 0x00000000#32) reducesTo_S2_S_d0 h_S_) (constant (F := Ideal) S_ .f32 0x4A000000#32)
      = fun _ => Ideal.div (Spec.zero + ∑ k : Fin 2, H (ix3 k (0 : Fin 1) (0 : Fin 128))) Spec.count := by
  funext x
  rw [hostDivf_apply, hostReduceAdd_apply, Ideal.hostReduceAdd_total reducesTo_S2_S_d0 (fun b => b.elim0), Cert.LibIdx1.sum_idx1]
  exact congrArg₂ Ideal.div (congrArg (Spec.zero + ·) (Finset.sum_congr rfl fun k _ => lane0_entry H k)) rfl

/-- The lines after the call: the two halves' totals added from zero, divided by the count. -/
theorem tail_eq (c : Dev nD) : Pipeline.afterTail₀ cfgs (dats m) 0 (V0 m) [hostOps1] c main_v5
    = fun _ => Ideal.div (Spec.zero + ∑ hh : Fin 2, acc (halfTiles m c hh.val) 256) Spec.count := by
  unfold Pipeline.afterTail₀
  show StableHlo.after hostOps1 _ (Proc.devRef .tc main_v5) = _
  after_results
  have hW : Pipeline.withArrays (cfgs 0).spec c (V0 m c) (fun w => (dats m 0 c).arrAt w (cfgs 0).N) (Proc.tc.devRef main_v1) = halvesArr m c :=
    (Pipeline.withArrays_arr spec0 launch0.win.arr_inj c (V0 m c) (fun w => (dats m 0 c).arrAt w cfg0.N) 5).trans (final5 m c)
  rw [hW]
  exact tail_fun (halvesArr m c)

/-- A half's total is the sum over its steps and over each tile's rows of the rows' scaled costs. -/
theorem half_eq (c : Dev nD) (hh : Fin 2) :
    acc (halfTiles m c hh.val) 256
      = ∑ s : Fin 256, ∑ p : Fin 4096, costK (m ((c : Thread nD τ).loc main_arg0)) (m ((c : Thread nD τ).loc main_arg1))
          (m ((c : Thread nD τ).loc main_arg2)) (m ((c : Thread nD τ).loc main_arg3)) (4096 * (256 * hh.val + s.val) + p.val) := by
  rw [acc_eq_sum]
  refine Finset.sum_congr rfl fun s _ => ?_
  have hN : cfg0.N = 512 := N_0
  have hh2 : hh.val < 2 := hh.isLt
  have hs : s.val < 256 := s.isLt
  have hlt : 256 * hh.val + s.val < cfg0.N := by rw [hN]; omega
  show tileNat m c (256 * hh.val + s.val) = _
  rw [tileNat_of_lt m c _ hlt]
  unfold tileOf
  refine Finset.sum_congr rfl fun p _ => ?_
  rw [Cert.KBlocks.temps_block, Cert.KBlocks.rowAt_block1, Cert.KBlocks.rowAt_block2, Cert.KBlocks.rowAt_block3, Cert.KBlocks.rowAt_block4]
  rfl

/-- The kernel's run: its result is the specification's kernel-form result of the four logit arrays, its arguments unchanged. -/
theorem kerRun : θ_run defs (onTc (τ := τ) (main (F := Ideal))) ⟨m, fun _ => 0, ρ⟩ (fun r => ∀ c : Dev nD,
      r.2.mem ((c.tc : Thread nD τ).loc main_v5) = (fun _ => resultK (m ((c.tc : Thread nD τ).loc main_arg0)) (m ((c.tc : Thread nD τ).loc main_arg1))
          (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (((h c).2 main_v5 (Pipeline.mem_restRefs_of main_v5 (by decide) (by decide))).trans (tail_eq m c)).trans
        (funext fun _ => congrArg (fun z => Ideal.div (Spec.zero + z) Spec.count) (Finset.sum_congr rfl fun hh _ => half_eq m c hh)),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c))⟩)
    (run_main m ρ)

end Cert.KernelIdeal.Gen

namespace Cert.KerSide

open Idealize.ShloMosaic Idealize.ShloMosaic.TcCoe Idealize.SL.Sem

/-- The idealized kernel, from any memory: it terminates with its result at the kernel-form result of the four logit arrays and its arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5)
        = (fun _ => Cert.Spec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  Cert.KernelIdeal.Gen.kerRun m ρ

end Cert.KerSide

end
-- ==== Proof.RefOps.lean ====
/-
  The reference program's operations as one list: the host operations of the entry function, with the four
  applications of the row-wise log-softmax written out at their call sites over each call's own buffers.
-/
import proofs.«126880_j42013370090071_1_alg».proof.ReferenceIdeal
import Idealize.ShloMosaic.Lib.StableHlo.Run

noncomputable section

namespace Cert.RefSide

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The fifteen operations of the row-wise log-softmax on the operand `arg0`, over one call's buffers `φ`. -/
abbrev lsmOps (arg0 : StableHlo.TRef sig ⟨S2097152x7, .f32⟩) (φ : fn_log_softmax.Bufs) : List (HloOp τ sig (Elt F)) :=
  [ TRef.nullary φ.cst (constant S_ .f32 0xFF800000#32),
    TRef.binary arg0 φ.cst φ.v0 (fun x v => Host.reduce FloatOps.maximumf x v reducesTo_S2097152x7_S2097152_d1 h_S_),
    TRef.nullary φ.cst_0 (constant S_ .f32 0xFF800000#32),
    TRef.unary φ.cst_0 φ.v1 (broadcastInDim S2097152 ![] bcast_S_S2097152),
    TRef.binary φ.v1 φ.v0 φ.v2 maximumf,
    TRef.unary φ.v2 φ.v3 (broadcastInDim S2097152x1 ![0] bcast_S2097152_S2097152x1_0),
    TRef.unary φ.v3 φ.v4 (broadcastInDim S2097152x7 ![0, 1] bcast_S2097152x1_S2097152x7_0_1),
    TRef.binary arg0 φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S2097152x7_S2097152_d1 h_S_),
    TRef.unary φ.v7 φ.v8 (broadcastInDim S2097152x1 ![0] bcast_S2097152_S2097152x1_0),
    TRef.unary φ.v8 φ.v9 Host.log,
    TRef.unary φ.v9 φ.v10 (broadcastInDim S2097152x7 ![0, 1] bcast_S2097152x1_S2097152x7_0_1),
    TRef.binary φ.v5 φ.v10 φ.v11 subf ]

/-- The log-softmax function's body is that list run in order. -/
theorem body_eq (arg0 : StableHlo.TRef sig ⟨S2097152x7, .f32⟩) (φ : fn_log_softmax.Bufs) :
    fn_log_softmax.body (F := F) arg0 φ = seq (lsmOps arg0 φ) := rfl

/-- A stretch of the entry function's own operations. -/
abbrev opsA : List (HloOp τ sig (Elt F)) :=
  [ nullary main_cst (fun i => FloatOps.ofBits .f32 (lit0 (S7.rowMajor i))),
    unary main_cst main_v0 (broadcastInDim S1x7 ![1] bcast_S7_S1x7_1 : (⟨S7, .f32⟩ : BufTy).Contents (Elt F) → (⟨S1x7, .f32⟩ : BufTy).Contents (Elt F)),
    binary main_v0 main_v0 main_v1 (mulf : (⟨S1x7, .f32⟩ : BufTy).Contents (Elt F) → (⟨S1x7, .f32⟩ : BufTy).Contents (Elt F) → (⟨S1x7, .f32⟩ : BufTy).Contents (Elt F)),
    nullary main_cst_0 (constant S_ .f32 0x00000000#32),
    binary main_v1 main_cst_0 main_v2 ((fun x v => Host.reduceAdd x v reducesTo_S1x7_S_d0_1 h_S_) : (⟨S1x7, .f32⟩ : BufTy).Contents (Elt F) → (⟨S_, .f32⟩ : BufTy).Contents (Elt F) → (⟨S_, .f32⟩ : BufTy).Contents (Elt F)),
    nullary main_cst_1 (constant S_ .f32 0x40E00000#32),
    binary main_v2 main_cst_1 main_v3 (Host.divf : (⟨S_, .f32⟩ : BufTy).Contents (Elt F) → (⟨S_, .f32⟩ : BufTy).Contents (Elt F) → (⟨S_, .f32⟩ : BufTy).Contents (Elt F)),
    unary main_v0 main_v4 (broadcastInDim S2097152x7 ![0, 1] bcast_S1x7_S2097152x7_0_1 : (⟨S1x7, .f32⟩ : BufTy).Contents (Elt F) → (⟨S2097152x7, .f32⟩ : BufTy).Contents (Elt F)),
    binary main_arg0 main_v4 main_v5 (Host.divf : (⟨S2097152x7, .f32⟩ : BufTy).Contents (Elt F) → (⟨S2097152x7, .f32⟩ : BufTy).Contents (Elt F) → (⟨S2097152x7, .f32⟩ : BufTy).Contents (Elt F)),
    nullary main_cst_2 (constant S_ .f32 0xFF800000#32),
    binary main_v5 main_cst_2 main_v6 ((fun x v => Host.reduce FloatOps.maximumf x v reducesTo_S2097152x7_S2097152_d1 h_S_) : (⟨S2097152x7, .f32⟩ : BufTy).Contents (Elt F) → (⟨S_, .f32⟩ : BufTy).Contents (Elt F) → (⟨S2097152, .f32⟩ : BufTy).Contents (Elt F)),
    nullary main_cst_3 (constant S_ .f32 0xFF800000#32),
    unary main_cst_3 main_v7 (broadcastInDim S2097152 ![] bcast_S_S2097152 : (⟨S_, .f32⟩ : BufTy).Contents (Elt F) → (⟨S2097152, .f32⟩ : BufTy).Contents (Elt F)),
    binary main_v7 main_v6 main_v8 (maximumf : (⟨S2097152, .f32⟩ : BufTy).Contents (Elt F) → (⟨S2097152, .f32⟩ : BufTy).Contents (Elt F) → (⟨S2097152, .f32⟩ : BufTy).Contents (Elt F)),
    unary main_v8 main_v9 (broadcastInDim S2097152x1 ![0] bcast_S2097152_S2097152x1_0 : (⟨S2097152, .f32⟩ : BufTy).Contents (Elt F) → (⟨S2097152x1, .f32⟩ : BufTy).Contents (Elt F)),
    unary main_v9 main_v10 (broadcastInDim S2097152x7 ![0, 1] bcast_S2097152x1_S2097152x7_0_1 : (⟨S2097152x1, .f32⟩ : BufTy).Contents (Elt F) → (⟨S2097152x7, .f32⟩ : BufTy).Contents (Elt F)),
    binary main_v5 main_v10 main_v11 (subf : (⟨S2097152x7, .f32⟩ : BufTy).Contents (Elt F) → (⟨S2097152x7, .f32⟩ : BufTy).Contents (Elt F) → (⟨S2097152x7, .f32⟩ : BufTy).Contents (Elt F)),
    unary main_v11 main_v12 (Host.exp : (⟨S2097152x7, .f32⟩ : BufTy).Contents (Elt F) → (⟨S2097152x7, .f32⟩ : BufTy).Contents (Elt F)),
    nullary main_cst_4 (constant S_ .f32 0x00000000#32),
    binary main_v12 main_cst_4 main_v13 ((fun x v => Host.reduceAdd x v reducesTo_S2097152x7_S2097152_d1 h_S_) : (⟨S2097152x7, .f32⟩ : BufTy).Contents (Elt F) → (⟨S_, .f32⟩ : BufTy).Contents (Elt F) → (⟨S2097152, .f32⟩ : BufTy).Contents (Elt F)),
    unary main_v13 main_v14 (broadcastInDim S2097152x1 ![0] bcast_S2097152_S2097152x1_0 : (⟨S2097152, .f32⟩ : BufTy).Contents (Elt F) → (⟨S2097152x1, .f32⟩ : BufTy).Contents (Elt F)),
    unary main_v14 main_v15 (broadcastInDim S2097152x7 ![0, 1] bcast_S2097152x1_S2097152x7_0_1 : (⟨S2097152x1, .f32⟩ : BufTy).Contents (Elt F) → (⟨S2097152x7, .f32⟩ : BufTy).Contents (Elt F)),
    binary main_v12 main_v15 main_v16 (Host.divf : (⟨S2097152x7, .f32⟩ : BufTy).Contents (Elt F) → (⟨S2097152x7, .f32⟩ : BufTy).Contents (Elt F) → (⟨S2097152x7, .f32⟩ : BufTy).Contents (Elt F)) ]

/-- The log-softmax of `main_v5` into the buffers of call 0. -/
abbrev lsm0 : List (HloOp τ sig (Elt F)) := lsmOps (.of main_v5) main_call0

/-- A stretch of the entry function's own operations. -/
abbrev opsB : List (HloOp τ sig (Elt F)) :=
  [ unary main_v0 main_v18 (broadcastInDim S2097152x7 ![0, 1] bcast_S1x7_S2097152x7_0_1 : (⟨S1x7, .f32⟩ : BufTy).Contents (Elt F) → (⟨S2097152x7, .f32⟩ : BufTy).Contents (Elt F)),
    binary main_arg1 main_v18 main_v19 (Host.divf : (⟨S2097152x7, .f32⟩ : BufTy).Contents (Elt F) → (⟨S2097152x7, .f32⟩ : BufTy).Contents (Elt F) → (⟨S2097152x7, .f32⟩ : BufTy).Contents (Elt F)) ]

/-- The log-softmax of `main_v19` into the buffers of call 1. -/
abbrev lsm1 : List (HloOp τ sig (Elt F)) := lsmOps (.of main_v19) main_call1

/-- A stretch of the entry function's own operations. -/
abbrev opsC : List (HloOp τ sig (Elt F)) :=
  [ binary main_v17 main_v20 main_v21 (subf : (⟨S2097152x7, .f32⟩ : BufTy).Contents (Elt F) → (⟨S2097152x7, .f32⟩ : BufTy).Contents (Elt F) → (⟨S2097152x7, .f32⟩ : BufTy).Contents (Elt F)),
    binary main_v16 main_v21 main_v22 (mulf : (⟨S2097152x7, .f32⟩ : BufTy).Contents (Elt F) → (⟨S2097152x7, .f32⟩ : BufTy).Contents (Elt F) → (⟨S2097152x7, .f32⟩ : BufTy).Contents (Elt F)),
    nullary main_cst_5 (constant S_ .f32 0x00000000#32),
    binary main_v22 main_cst_5 main_v23 ((fun x v => Host.reduceAdd x v reducesTo_S2097152x7_S2097152_d1 h_S_) : (⟨S2097152x7, .f32⟩ : BufTy).Contents (Elt F) → (⟨S_, .f32⟩ : BufTy).Contents (Elt F) → (⟨S2097152, .f32⟩ : BufTy).Contents (Elt F)),
    nullary main_cst_6 (constant S_ .f32 0x40E00000#32),
    unary main_cst_6 main_v24 (broadcastInDim S2097152 ![] bcast_S_S2097152 : (⟨S_, .f32⟩ : BufTy).Contents (Elt F) → (⟨S2097152, .f32⟩ : BufTy).Contents (Elt F)),
    binary main_v23 main_v24 main_v25 (Host.divf : (⟨S2097152, .f32⟩ : BufTy).Contents (Elt F) → (⟨S2097152, .f32⟩ : BufTy).Contents (Elt F) → (⟨S2097152, .f32⟩ : BufTy).Contents (Elt F)),
    unary main_v0 main_v26 (broadcastInDim S2097152x7 ![0, 1] bcast_S1x7_S2097152x7_0_1 : (⟨S1x7, .f32⟩ : BufTy).Contents (Elt F) → (⟨S2097152x7, .f32⟩ : BufTy).Contents (Elt F)),
    binary main_arg2 main_v26 main_v27 (Host.divf : (⟨S2097152x7, .f32⟩ : BufTy).Contents (Elt F) → (⟨S2097152x7, .f32⟩ : BufTy).Contents (Elt F) → (⟨S2097152x7, .f32⟩ : BufTy).Contents (Elt F)) ]

/-- The log-softmax of `main_v27` into the buffers of call 2. -/
abbrev lsm2 : List (HloOp τ sig (Elt F)) := lsmOps (.of main_v27) main_call2

/-- A stretch of the entry function's own operations. -/
abbrev opsD : List (HloOp τ sig (Elt F)) :=
  [ binary main_v17 main_v28 main_v29 (subf : (⟨S2097152x7, .f32⟩ : BufTy).Contents (Elt F) → (⟨S2097152x7, .f32⟩ : BufTy).Contents (Elt F) → (⟨S2097152x7, .f32⟩ : BufTy).Contents (Elt F)),
    binary main_v16 main_v29 main_v30 (mulf : (⟨S2097152x7, .f32⟩ : BufTy).Contents (Elt F) → (⟨S2097152x7, .f32⟩ : BufTy).Contents (Elt F) → (⟨S2097152x7, .f32⟩ : BufTy).Contents (Elt F)),
    nullary main_cst_7 (constant S_ .f32 0x00000000#32),
    binary main_v30 main_cst_7 main_v31 ((fun x v => Host.reduceAdd x v reducesTo_S2097152x7_S2097152_d1 h_S_) : (⟨S2097152x7, .f32⟩ : BufTy).Contents (Elt F) → (⟨S_, .f32⟩ : BufTy).Contents (Elt F) → (⟨S2097152, .f32⟩ : BufTy).Contents (Elt F)),
    nullary main_cst_8 (constant S_ .f32 0x40E00000#32),
    unary main_cst_8 main_v32 (broadcastInDim S2097152 ![] bcast_S_S2097152 : (⟨S_, .f32⟩ : BufTy).Contents (Elt F) → (⟨S2097152, .f32⟩ : BufTy).Contents (Elt F)),
    binary main_v31 main_v32 main_v33 (Host.divf : (⟨S2097152, .f32⟩ : BufTy).Contents (Elt F) → (⟨S2097152, .f32⟩ : BufTy).Contents (Elt F) → (⟨S2097152, .f32⟩ : BufTy).Contents (Elt F)),
    binary main_v25 main_v33 main_v34 (addf : (⟨S2097152, .f32⟩ : BufTy).Contents (Elt F) → (⟨S2097152, .f32⟩ : BufTy).Contents (Elt F) → (⟨S2097152, .f32⟩ : BufTy).Contents (Elt F)),
    unary main_v0 main_v35 (broadcastInDim S2097152x7 ![0, 1] bcast_S1x7_S2097152x7_0_1 : (⟨S1x7, .f32⟩ : BufTy).Contents (Elt F) → (⟨S2097152x7, .f32⟩ : BufTy).Contents (Elt F)),
    binary main_arg3 main_v35 main_v36 (Host.divf : (⟨S2097152x7, .f32⟩ : BufTy).Contents (Elt F) → (⟨S2097152x7, .f32⟩ : BufTy).Contents (Elt F) → (⟨S2097152x7, .f32⟩ : BufTy).Contents (Elt F)) ]

/-- The log-softmax of `main_v36` into the buffers of call 3. -/
abbrev lsm3 : List (HloOp τ sig (Elt F)) := lsmOps (.of main_v36) main_call3

/-- A stretch of the entry function's own operations. -/
abbrev opsE : List (HloOp τ sig (Elt F)) :=
  [ binary main_v17 main_v37 main_v38 (subf : (⟨S2097152x7, .f32⟩ : BufTy).Contents (Elt F) → (⟨S2097152x7, .f32⟩ : BufTy).Contents (Elt F) → (⟨S2097152x7, .f32⟩ : BufTy).Contents (Elt F)),
    binary main_v16 main_v38 main_v39 (mulf : (⟨S2097152x7, .f32⟩ : BufTy).Contents (Elt F) → (⟨S2097152x7, .f32⟩ : BufTy).Contents (Elt F) → (⟨S2097152x7, .f32⟩ : BufTy).Contents (Elt F)),
    nullary main_cst_9 (constant S_ .f32 0x00000000#32),
    binary main_v39 main_cst_9 main_v40 ((fun x v => Host.reduceAdd x v reducesTo_S2097152x7_S2097152_d1 h_S_) : (⟨S2097152x7, .f32⟩ : BufTy).Contents (Elt F) → (⟨S_, .f32⟩ : BufTy).Contents (Elt F) → (⟨S2097152, .f32⟩ : BufTy).Contents (Elt F)),
    nullary main_cst_10 (constant S_ .f32 0x40E00000#32),
    unary main_cst_10 main_v41 (broadcastInDim S2097152 ![] bcast_S_S2097152 : (⟨S_, .f32⟩ : BufTy).Contents (Elt F) → (⟨S2097152, .f32⟩ : BufTy).Contents (Elt F)),
    binary main_v40 main_v41 main_v42 (Host.divf : (⟨S2097152, .f32⟩ : BufTy).Contents (Elt F) → (⟨S2097152, .f32⟩ : BufTy).Contents (Elt F) → (⟨S2097152, .f32⟩ : BufTy).Contents (Elt F)),
    binary main_v34 main_v42 main_v43 (addf : (⟨S2097152, .f32⟩ : BufTy).Contents (Elt F) → (⟨S2097152, .f32⟩ : BufTy).Contents (Elt F) → (⟨S2097152, .f32⟩ : BufTy).Contents (Elt F)),
    unary main_v3 main_v44 (broadcastInDim S2097152 ![] bcast_S_S2097152 : (⟨S_, .f32⟩ : BufTy).Contents (Elt F) → (⟨S2097152, .f32⟩ : BufTy).Contents (Elt F)),
    binary main_v43 main_v44 main_v45 (mulf : (⟨S2097152, .f32⟩ : BufTy).Contents (Elt F) → (⟨S2097152, .f32⟩ : BufTy).Contents (Elt F) → (⟨S2097152, .f32⟩ : BufTy).Contents (Elt F)),
    nullary main_cst_11 (constant S_ .f32 0x40400000#32),
    unary main_cst_11 main_v46 (broadcastInDim S2097152 ![] bcast_S_S2097152 : (⟨S_, .f32⟩ : BufTy).Contents (Elt F) → (⟨S2097152, .f32⟩ : BufTy).Contents (Elt F)) ]

/-- The closing operations: the scaling by a third, the sum over all rows and the division by their number. -/
abbrev opsF : List (HloOp τ sig (Elt F)) :=
  [ binary main_v45 main_v46 main_v47 (Host.divf : (⟨S2097152, .f32⟩ : BufTy).Contents (Elt F) → (⟨S2097152, .f32⟩ : BufTy).Contents (Elt F) → (⟨S2097152, .f32⟩ : BufTy).Contents (Elt F)),
    nullary main_cst_12 (constant S_ .f32 0x00000000#32),
    binary main_v47 main_cst_12 main_v48 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    nullary main_cst_13 (constant S_ .f32 0x4A000000#32),
    binary main_v48 main_cst_13 main_v49 (Host.divf : (⟨S_, .f32⟩ : BufTy).Contents (Elt F) → (⟨S_, .f32⟩ : BufTy).Contents (Elt F) → (⟨S_, .f32⟩ : BufTy).Contents (Elt F)) ]

/-- The first sixty statements' operations. -/
abbrev ops_part0 : List (HloOp τ sig (Elt F)) :=
  opsA ++ (lsm0 ++ (opsB ++ (lsm1 ++ (opsC ++ (lsm2 ++ (opsD ++ (lsm3 ++ (opsE))))))))

/-- All 121 operations, in order. -/
abbrev ops : List (HloOp τ sig (Elt F)) := ops_part0 ++ opsF

set_option maxRecDepth 8192 in
theorem main_part0_eq (c : Dev nD) : main_part0 (F := F) c = seq ops_part0 := by
  simp only [ops_part0, seq_append, ← body_eq]
  rfl

set_option maxRecDepth 8192 in
theorem main_part1_eq (c : Dev nD) : main_part1 (F := F) c = seq opsF := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem lsmOps_sub (arg0 : StableHlo.TRef sig ⟨S2097152x7, .f32⟩) (φ : fn_log_softmax.Bufs) :
    (lsmOps (F := F) arg0 φ).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsA_sub : (opsA : List (HloOp τ sig (Elt F))).Forall fun op => op.bufs ⊆ tcRefs τ sig :=
  ⟨nullary_bufs_sub .., unary_bufs_sub .., binary_bufs_sub .., nullary_bufs_sub .., binary_bufs_sub .., nullary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsB_sub : (opsB : List (HloOp τ sig (Elt F))).Forall fun op => op.bufs ⊆ tcRefs τ sig :=
  ⟨unary_bufs_sub .., binary_bufs_sub ..⟩
theorem opsC_sub : (opsC : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., binary_bufs_sub ..⟩
theorem opsD_sub : (opsD : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., binary_bufs_sub .., unary_bufs_sub .., binary_bufs_sub ..⟩
theorem opsE_sub : (opsE : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., binary_bufs_sub .., unary_bufs_sub .., binary_bufs_sub .., nullary_bufs_sub .., unary_bufs_sub ..⟩
theorem opsF_sub : (opsF : List (HloOp τ sig (Elt F))).Forall fun op => op.bufs ⊆ tcRefs τ sig :=
  ⟨binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, ops_part0, List.mem_append] at h
    rcases h with (h | h | h | h | h | h | h | h | h) | h
    exacts [List.forall_iff_forall_mem.mp opsA_sub op h,
      List.forall_iff_forall_mem.mp (lsmOps_sub _ _) op h,
      List.forall_iff_forall_mem.mp opsB_sub op h,
      List.forall_iff_forall_mem.mp (lsmOps_sub _ _) op h,
      List.forall_iff_forall_mem.mp opsC_sub op h,
      List.forall_iff_forall_mem.mp (lsmOps_sub _ _) op h,
      List.forall_iff_forall_mem.mp opsD_sub op h,
      List.forall_iff_forall_mem.mp (lsmOps_sub _ _) op h,
      List.forall_iff_forall_mem.mp opsE_sub op h,
      List.forall_iff_forall_mem.mp opsF_sub op h]

end Cert.RefSide

end
-- ==== Proof.RefTerm.lean ====
/-
  The reference program's result as one pure term of its four float arguments.

  Every row of an argument is divided entry by entry by the seven temperatures; a row's log-softmax is the row minus
  its maximum, minus the logarithm of the sum of the exponentials; the first argument's softmax q is the exponentials
  over their sum. For the first argument against each of the other three, the mean over the seven classes of
  q · (log q − log p) is formed; the three means are added, multiplied by the mean squared temperature, divided by
  three, summed over all rows and divided by the number of rows.
-/
import proofs.«126880_j42013370090071_1_alg».proof.ReferenceIdeal
import Idealize.ShloMosaic.PureOps.Ideal

noncomputable section

namespace Cert.RefSide

open Cert.ReferenceIdeal Cert.ReferenceIdeal.Facts₀ Idealize.ShloMosaic

variable [Cert.ReferenceIdeal.Facts]

/-- A 2097152 × 7 array of extended reals. -/
abbrev Mat : Type := FVec Ideal S2097152x7 .f32
/-- One extended real per row. -/
abbrev Col : Type := FVec Ideal S2097152 .f32
/-- A single extended real, as a rank-0 array. -/
abbrev Sc : Type := FVec Ideal S_ .f32

/-- The seven temperatures as a 1 × 7 array. -/
def tRow : FVec Ideal S1x7 .f32 :=
  broadcastInDim S1x7 ![1] bcast_S7_S1x7_1
    (fun i => FloatOps.ofBits (F := Ideal) .f32 (lit0 (S7.rowMajor i)) : FVec Ideal S7 .f32)

/-- The mean of the squared temperatures. -/
def meanSq : Sc :=
  Host.divf (F := Ideal) (Host.reduceAdd (F := Ideal) (mulf tRow tRow) (constant (F := Ideal) S_ .f32 0x00000000#32) reducesTo_S1x7_S_d0_1 h_S_)
    (constant (F := Ideal) S_ .f32 0x40E00000#32)

/-- An array divided entry by entry by its column's temperature. -/
def scaledHost (a : Mat) : Mat :=
  Host.divf (F := Ideal) a (broadcastInDim S2097152x7 ![0, 1] bcast_S1x7_S2097152x7_0_1 tRow)

/-- Each row's maximum (against −∞). -/
def rowMaxHost (x : Mat) : Col :=
  maximumf (broadcastInDim S2097152 ![] bcast_S_S2097152 (constant (F := Ideal) S_ .f32 0xFF800000#32))
    (Host.reduce (FloatOps.maximumf (F := Ideal)) x (constant (F := Ideal) S_ .f32 0xFF800000#32) reducesTo_S2097152x7_S2097152_d1 h_S_)

/-- A per-row value spread over the row's seven entries. -/
def spread (v : Col) : Mat :=
  broadcastInDim S2097152x7 ![0, 1] bcast_S2097152x1_S2097152x7_0_1 (broadcastInDim S2097152x1 ![0] bcast_S2097152_S2097152x1_0 v)

/-- Each row minus its maximum. -/
def shiftedHost (x : Mat) : Mat := subf x (spread (rowMaxHost x))

/-- The exponentials of the shifted rows. -/
def expHost (x : Mat) : Mat := Host.exp (F := Ideal) (shiftedHost x)

/-- Each row's sum of exponentials (from an explicit zero). -/
def sumExpHost (x : Mat) : Col :=
  Host.reduceAdd (F := Ideal) (expHost x) (constant (F := Ideal) S_ .f32 0x00000000#32) reducesTo_S2097152x7_S2097152_d1 h_S_

/-- The row-wise log-softmax. -/
def lsmHost (x : Mat) : Mat :=
  subf (shiftedHost x)
    (broadcastInDim S2097152x7 ![0, 1] bcast_S2097152x1_S2097152x7_0_1
      (Host.log (F := Ideal) (broadcastInDim S2097152x1 ![0] bcast_S2097152_S2097152x1_0 (sumExpHost x))))

/-- The row-wise softmax. -/
def softmaxHost (x : Mat) : Mat := Host.divf (F := Ideal) (expHost x) (spread (sumExpHost x))

/-- Per row, the mean over the seven classes of q · (log q − log p). -/
def klHost (q lq lp : Mat) : Col :=
  Host.divf (F := Ideal)
    (Host.reduceAdd (F := Ideal) (mulf q (subf lq lp)) (constant (F := Ideal) S_ .f32 0x00000000#32) reducesTo_S2097152x7_S2097152_d1 h_S_)
    (broadcastInDim S2097152 ![] bcast_S_S2097152 (constant (F := Ideal) S_ .f32 0x40E00000#32))

/-- Per row, the three means added. -/
def costHost (a0 a1 a2 a3 : Mat) : Col :=
  addf (addf (klHost (softmaxHost (scaledHost a0)) (lsmHost (scaledHost a0)) (lsmHost (scaledHost a1)))
             (klHost (softmaxHost (scaledHost a0)) (lsmHost (scaledHost a0)) (lsmHost (scaledHost a2))))
       (klHost (softmaxHost (scaledHost a0)) (lsmHost (scaledHost a0)) (lsmHost (scaledHost a3)))

/-- Per row, the cost times the mean squared temperature, over three. -/
def lossHost (a0 a1 a2 a3 : Mat) : Col :=
  Host.divf (F := Ideal) (mulf (costHost a0 a1 a2 a3) (broadcastInDim S2097152 ![] bcast_S_S2097152 meanSq))
    (broadcastInDim S2097152 ![] bcast_S_S2097152 (constant (F := Ideal) S_ .f32 0x40400000#32))

/-- The reference's result: the rows' losses summed (from an explicit zero) and divided by the number of rows. -/
def refTerm (a0 a1 a2 a3 : (⟨S2097152x7, .f32⟩ : BufTy).Contents (Elt Ideal)) : (⟨S_, .f32⟩ : BufTy).Contents (Elt Ideal) :=
  (Host.divf (F := Ideal)
    (Host.reduceAdd (F := Ideal) (lossHost a0 a1 a2 a3) (constant (F := Ideal) S_ .f32 0x00000000#32) reducesTo_S2097152_S_d0 h_S_)
    (constant (F := Ideal) S_ .f32 0x4A000000#32) : FVec Ideal S_ .f32)

end Cert.RefSide

end
-- ==== Proof.RefRun.lean ====
/-
  The reference program's run read back: every weakly fair execution of the entry function ends with the result
  buffer at the pure term `refTerm` of the four float arguments, and with the arguments unchanged.

  The 121 operations are read in ten stretches (the entry function's own operations between the four log-softmax
  applications, and those four). Each stretch is read over an arbitrary starting valuation: the buffers it writes
  that a later stretch reads are given as functions of the buffers it reads, and a buffer it does not write keeps
  its contents. The stretches are then chained from the launch contents.
-/
import proofs.«126880_j42013370090071_1_alg».proof.Proof.RefOps
import proofs.«126880_j42013370090071_1_alg».proof.Proof.RefTerm

set_option Elab.async false

noncomputable section

namespace Cert.RefSide

open Cert.ReferenceIdeal Cert.ReferenceIdeal.Facts₀ Idealize.ShloMosaic Idealize.ShloMosaic.TcCoe Idealize.SL.Sem Idealize.ShloMosaic.StableHlo

variable [Cert.ReferenceIdeal.Facts]

/-! ## Small general facts -/

section General
variable {Val : EltTy → Type}

/-- Contents moved to a typed reference's buffer type and back are the contents. -/
theorem ofBuf_toBuf {T : BufTy} (x : TRef sig T) (w : T.Contents Val) : x.ofBuf (x.toBuf w) = w := by
  obtain ⟨r, h, a, b⟩ := x
  subst h
  rfl

/-- At a reference typed by its own buffer type the two moves are the identity. -/
theorem toBuf_lit (r : Ref sig .tc) (a b) (w : r.ty.Contents Val) : (TRef.of (T := r.ty) r rfl a b).toBuf w = w := rfl
theorem ofBuf_lit (r : Ref sig .tc) (a b) (w : r.ty.Contents Val) : (TRef.of (T := r.ty) r rfl a b).ofBuf w = w := rfl

/-- Two stretches read one after the other. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

end General

/-! ## What each stretch writes, and that it keeps the rest -/

abbrev opsA_W : List (Ref sig .tc) := [main_cst, main_v0, main_v1, main_cst_0, main_v2, main_cst_1, main_v3, main_v4, main_v5, main_cst_2, main_v6, main_cst_3, main_v7, main_v8, main_v9, main_v10, main_v11, main_v12, main_cst_4, main_v13, main_v14, main_v15, main_v16]
set_option maxRecDepth 8192 in
theorem opsA_writes : (opsA (F := Ideal)).Forall fun op => op.writes ⊆ (opsA_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsA (V : Valuation τ sig (Elt Ideal)) (r : Ref sig .tc) (h : r ∉ opsA_W) :
    after (opsA (F := Ideal)) V (Proc.devRef .tc r) = V (Proc.devRef .tc r) :=
  after_of_writes_sub _ V opsA_writes h

abbrev lsm0_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v17]
set_option maxRecDepth 8192 in
theorem lsm0_writes : (lsm0 (F := Ideal)).Forall fun op => op.writes ⊆ (lsm0_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_lsm0 (V : Valuation τ sig (Elt Ideal)) (r : Ref sig .tc) (h : r ∉ lsm0_W) :
    after (lsm0 (F := Ideal)) V (Proc.devRef .tc r) = V (Proc.devRef .tc r) :=
  after_of_writes_sub _ V lsm0_writes h

abbrev opsB_W : List (Ref sig .tc) := [main_v18, main_v19]
set_option maxRecDepth 8192 in
theorem opsB_writes : (opsB (F := Ideal)).Forall fun op => op.writes ⊆ (opsB_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsB (V : Valuation τ sig (Elt Ideal)) (r : Ref sig .tc) (h : r ∉ opsB_W) :
    after (opsB (F := Ideal)) V (Proc.devRef .tc r) = V (Proc.devRef .tc r) :=
  after_of_writes_sub _ V opsB_writes h

abbrev lsm1_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v20]
set_option maxRecDepth 8192 in
theorem lsm1_writes : (lsm1 (F := Ideal)).Forall fun op => op.writes ⊆ (lsm1_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_lsm1 (V : Valuation τ sig (Elt Ideal)) (r : Ref sig .tc) (h : r ∉ lsm1_W) :
    after (lsm1 (F := Ideal)) V (Proc.devRef .tc r) = V (Proc.devRef .tc r) :=
  after_of_writes_sub _ V lsm1_writes h

abbrev opsC_W : List (Ref sig .tc) := [main_v21, main_v22, main_cst_5, main_v23, main_cst_6, main_v24, main_v25, main_v26, main_v27]
set_option maxRecDepth 8192 in
theorem opsC_writes : (opsC (F := Ideal)).Forall fun op => op.writes ⊆ (opsC_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsC (V : Valuation τ sig (Elt Ideal)) (r : Ref sig .tc) (h : r ∉ opsC_W) :
    after (opsC (F := Ideal)) V (Proc.devRef .tc r) = V (Proc.devRef .tc r) :=
  after_of_writes_sub _ V opsC_writes h

abbrev lsm2_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v28]
set_option maxRecDepth 8192 in
theorem lsm2_writes : (lsm2 (F := Ideal)).Forall fun op => op.writes ⊆ (lsm2_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_lsm2 (V : Valuation τ sig (Elt Ideal)) (r : Ref sig .tc) (h : r ∉ lsm2_W) :
    after (lsm2 (F := Ideal)) V (Proc.devRef .tc r) = V (Proc.devRef .tc r) :=
  after_of_writes_sub _ V lsm2_writes h

abbrev opsD_W : List (Ref sig .tc) := [main_v29, main_v30, main_cst_7, main_v31, main_cst_8, main_v32, main_v33, main_v34, main_v35, main_v36]
set_option maxRecDepth 8192 in
theorem opsD_writes : (opsD (F := Ideal)).Forall fun op => op.writes ⊆ (opsD_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsD (V : Valuation τ sig (Elt Ideal)) (r : Ref sig .tc) (h : r ∉ opsD_W) :
    after (opsD (F := Ideal)) V (Proc.devRef .tc r) = V (Proc.devRef .tc r) :=
  after_of_writes_sub _ V opsD_writes h

abbrev lsm3_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v37]
set_option maxRecDepth 8192 in
theorem lsm3_writes : (lsm3 (F := Ideal)).Forall fun op => op.writes ⊆ (lsm3_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_lsm3 (V : Valuation τ sig (Elt Ideal)) (r : Ref sig .tc) (h : r ∉ lsm3_W) :
    after (lsm3 (F := Ideal)) V (Proc.devRef .tc r) = V (Proc.devRef .tc r) :=
  after_of_writes_sub _ V lsm3_writes h

abbrev opsE_W : List (Ref sig .tc) := [main_v38, main_v39, main_cst_9, main_v40, main_cst_10, main_v41, main_v42, main_v43, main_v44, main_v45, main_cst_11, main_v46]
set_option maxRecDepth 8192 in
theorem opsE_writes : (opsE (F := Ideal)).Forall fun op => op.writes ⊆ (opsE_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsE (V : Valuation τ sig (Elt Ideal)) (r : Ref sig .tc) (h : r ∉ opsE_W) :
    after (opsE (F := Ideal)) V (Proc.devRef .tc r) = V (Proc.devRef .tc r) :=
  after_of_writes_sub _ V opsE_writes h

abbrev opsF_W : List (Ref sig .tc) := [main_v47, main_cst_12, main_v48, main_cst_13, main_v49]
set_option maxRecDepth 8192 in
theorem opsF_writes : (opsF (F := Ideal)).Forall fun op => op.writes ⊆ (opsF_W.map (Proc.devRef (τ := τ) .tc)).toFinset :=
  ⟨by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide),
   by simp only [List.Forall, nullary_writes, unary_writes, binary_writes, Finset.singleton_subset_iff, List.mem_toFinset]; exact List.mem_map_of_mem (by decide)⟩
theorem keep_opsF (V : Valuation τ sig (Elt Ideal)) (r : Ref sig .tc) (h : r ∉ opsF_W) :
    after (opsF (F := Ideal)) V (Proc.devRef .tc r) = V (Proc.devRef .tc r) :=
  after_of_writes_sub _ V opsF_writes h

/-! ## What each stretch computes -/

set_option maxRecDepth 8192 in
set_option maxHeartbeats 2000000 in
theorem A_v0 (V : Valuation τ sig (Elt Ideal)) :
    after (opsA (F := Ideal)) V (no_index (Proc.devRef .tc main_v0)) = tRow := by
  simp only [opsA]
  after_results_simp
  all_goals rfl

set_option maxRecDepth 8192 in
set_option maxHeartbeats 2000000 in
theorem A_v3 (V : Valuation τ sig (Elt Ideal)) :
    after (opsA (F := Ideal)) V (no_index (Proc.devRef .tc main_v3)) = meanSq := by
  simp only [opsA]
  after_results_simp
  all_goals rfl

set_option maxRecDepth 8192 in
set_option maxHeartbeats 2000000 in
theorem A_v5 (V : Valuation τ sig (Elt Ideal)) :
    after (opsA (F := Ideal)) V (no_index (Proc.devRef .tc main_v5)) = scaledHost (V (Proc.devRef .tc main_arg0)) := by
  simp only [opsA]
  after_results_simp
  all_goals rfl

set_option maxRecDepth 8192 in
set_option maxHeartbeats 2000000 in
theorem A_v16 (V : Valuation τ sig (Elt Ideal)) :
    after (opsA (F := Ideal)) V (no_index (Proc.devRef .tc main_v16)) = softmaxHost (scaledHost (V (Proc.devRef .tc main_arg0))) := by
  simp only [opsA]
  after_results_simp
  all_goals rfl

set_option maxRecDepth 8192 in
set_option maxHeartbeats 2000000 in
theorem L0_out (V : Valuation τ sig (Elt Ideal)) :
    after (lsm0 (F := Ideal)) V (no_index (Proc.devRef .tc main_v17)) = lsmHost (V (Proc.devRef .tc main_v5)) := by
  after_results_simp
  simp only [ofBuf_toBuf]
  refine (toBuf_lit main_v17 _ _ _).trans ?_
  simp only [ofBuf_lit main_v5 (by decide) rfl (V (Proc.devRef .tc main_v5))]
  rfl

set_option maxRecDepth 8192 in
set_option maxHeartbeats 2000000 in
theorem L1_out (V : Valuation τ sig (Elt Ideal)) :
    after (lsm1 (F := Ideal)) V (no_index (Proc.devRef .tc main_v20)) = lsmHost (V (Proc.devRef .tc main_v19)) := by
  after_results_simp
  simp only [ofBuf_toBuf]
  refine (toBuf_lit main_v20 _ _ _).trans ?_
  simp only [ofBuf_lit main_v19 (by decide) rfl (V (Proc.devRef .tc main_v19))]
  rfl

set_option maxRecDepth 8192 in
set_option maxHeartbeats 2000000 in
theorem L2_out (V : Valuation τ sig (Elt Ideal)) :
    after (lsm2 (F := Ideal)) V (no_index (Proc.devRef .tc main_v28)) = lsmHost (V (Proc.devRef .tc main_v27)) := by
  after_results_simp
  simp only [ofBuf_toBuf]
  refine (toBuf_lit main_v28 _ _ _).trans ?_
  simp only [ofBuf_lit main_v27 (by decide) rfl (V (Proc.devRef .tc main_v27))]
  rfl

set_option maxRecDepth 8192 in
set_option maxHeartbeats 2000000 in
theorem L3_out (V : Valuation τ sig (Elt Ideal)) :
    after (lsm3 (F := Ideal)) V (no_index (Proc.devRef .tc main_v37)) = lsmHost (V (Proc.devRef .tc main_v36)) := by
  after_results_simp
  simp only [ofBuf_toBuf]
  refine (toBuf_lit main_v37 _ _ _).trans ?_
  simp only [ofBuf_lit main_v36 (by decide) rfl (V (Proc.devRef .tc main_v36))]
  rfl

set_option maxRecDepth 8192 in
set_option maxHeartbeats 2000000 in
theorem B_v19 (V : Valuation τ sig (Elt Ideal)) (h0 : V (Proc.devRef .tc main_v0) = tRow) :
    after (opsB (F := Ideal)) V (no_index (Proc.devRef .tc main_v19)) = scaledHost (V (Proc.devRef .tc main_arg1)) := by
  simp only [opsB]
  after_results_simp
  rw [h0]
  rfl

set_option maxRecDepth 8192 in
set_option maxHeartbeats 2000000 in
theorem C_v25 (V : Valuation τ sig (Elt Ideal)) :
    after (opsC (F := Ideal)) V (no_index (Proc.devRef .tc main_v25)) = klHost (V (Proc.devRef .tc main_v16)) (V (Proc.devRef .tc main_v17)) (V (Proc.devRef .tc main_v20)) := by
  simp only [opsC]
  after_results_simp
  all_goals rfl

set_option maxRecDepth 8192 in
set_option maxHeartbeats 2000000 in
theorem C_v27 (V : Valuation τ sig (Elt Ideal)) (h0 : V (Proc.devRef .tc main_v0) = tRow) :
    after (opsC (F := Ideal)) V (no_index (Proc.devRef .tc main_v27)) = scaledHost (V (Proc.devRef .tc main_arg2)) := by
  simp only [opsC]
  after_results_simp
  rw [h0]
  rfl

set_option maxRecDepth 8192 in
set_option maxHeartbeats 2000000 in
theorem D_v34 (V : Valuation τ sig (Elt Ideal)) :
    after (opsD (F := Ideal)) V (no_index (Proc.devRef .tc main_v34)) = addf (V (Proc.devRef .tc main_v25)) (klHost (V (Proc.devRef .tc main_v16)) (V (Proc.devRef .tc main_v17)) (V (Proc.devRef .tc main_v28))) := by
  simp only [opsD]
  after_results_simp
  all_goals rfl

set_option maxRecDepth 8192 in
set_option maxHeartbeats 2000000 in
theorem D_v36 (V : Valuation τ sig (Elt Ideal)) (h0 : V (Proc.devRef .tc main_v0) = tRow) :
    after (opsD (F := Ideal)) V (no_index (Proc.devRef .tc main_v36)) = scaledHost (V (Proc.devRef .tc main_arg3)) := by
  simp only [opsD]
  after_results_simp
  rw [h0]
  rfl

set_option maxRecDepth 8192 in
set_option maxHeartbeats 2000000 in
theorem E_v45 (V : Valuation τ sig (Elt Ideal)) :
    after (opsE (F := Ideal)) V (no_index (Proc.devRef .tc main_v45)) = mulf (addf (V (Proc.devRef .tc main_v34)) (klHost (V (Proc.devRef .tc main_v16)) (V (Proc.devRef .tc main_v17)) (V (Proc.devRef .tc main_v37)))) (broadcastInDim S2097152 ![] bcast_S_S2097152 (V (Proc.devRef .tc main_v3))) := by
  simp only [opsE]
  after_results_simp
  all_goals rfl

set_option maxRecDepth 8192 in
set_option maxHeartbeats 2000000 in
theorem E_v46 (V : Valuation τ sig (Elt Ideal)) :
    after (opsE (F := Ideal)) V (no_index (Proc.devRef .tc main_v46)) = (broadcastInDim S2097152 ![] bcast_S_S2097152 (constant (F := Ideal) S_ .f32 0x40400000#32) : FVec Ideal S2097152 .f32) := by
  simp only [opsE]
  after_results_simp
  all_goals rfl

set_option maxRecDepth 8192 in
set_option maxHeartbeats 2000000 in
theorem F_v49 (V : Valuation τ sig (Elt Ideal)) :
    after (opsF (F := Ideal)) V (no_index (Proc.devRef .tc main_v49)) = (Host.divf (F := Ideal) (Host.reduceAdd (F := Ideal) (Host.divf (F := Ideal) (V (Proc.devRef .tc main_v45)) (V (Proc.devRef .tc main_v46))) (constant (F := Ideal) S_ .f32 0x00000000#32) reducesTo_S2097152_S_d0 h_S_) (constant (F := Ideal) S_ .f32 0x4A000000#32) : FVec Ideal S_ .f32) := by
  simp only [opsF]
  after_results_simp
  all_goals rfl

/-! ## The stretches chained from the launch contents -/

/-- The buffers' contents after the first 1 stretches. -/
def val1 (V0 : Valuation τ sig (Elt Ideal)) : Valuation τ sig (Elt Ideal) := after (opsA (F := Ideal)) V0

theorem val1_arg0 (V0 : Valuation τ sig (Elt Ideal)) : val1 V0 (Proc.devRef .tc main_arg0) = V0 (Proc.devRef .tc main_arg0) :=
  keep_opsA V0 main_arg0 (by decide)
theorem val1_arg1 (V0 : Valuation τ sig (Elt Ideal)) : val1 V0 (Proc.devRef .tc main_arg1) = V0 (Proc.devRef .tc main_arg1) :=
  keep_opsA V0 main_arg1 (by decide)
theorem val1_arg2 (V0 : Valuation τ sig (Elt Ideal)) : val1 V0 (Proc.devRef .tc main_arg2) = V0 (Proc.devRef .tc main_arg2) :=
  keep_opsA V0 main_arg2 (by decide)
theorem val1_arg3 (V0 : Valuation τ sig (Elt Ideal)) : val1 V0 (Proc.devRef .tc main_arg3) = V0 (Proc.devRef .tc main_arg3) :=
  keep_opsA V0 main_arg3 (by decide)
theorem val1_arg4 (V0 : Valuation τ sig (Elt Ideal)) : val1 V0 (Proc.devRef .tc main_arg4) = V0 (Proc.devRef .tc main_arg4) :=
  keep_opsA V0 main_arg4 (by decide)
theorem val1_v0 (V0 : Valuation τ sig (Elt Ideal)) : val1 V0 (Proc.devRef .tc main_v0) = tRow := by
  unfold val1
  exact A_v0 V0
theorem val1_v3 (V0 : Valuation τ sig (Elt Ideal)) : val1 V0 (Proc.devRef .tc main_v3) = meanSq := by
  unfold val1
  exact A_v3 V0
theorem val1_v5 (V0 : Valuation τ sig (Elt Ideal)) : val1 V0 (Proc.devRef .tc main_v5) = scaledHost (V0 (Proc.devRef .tc main_arg0)) := by
  unfold val1
  exact A_v5 V0
theorem val1_v16 (V0 : Valuation τ sig (Elt Ideal)) : val1 V0 (Proc.devRef .tc main_v16) = softmaxHost (scaledHost (V0 (Proc.devRef .tc main_arg0))) := by
  unfold val1
  exact A_v16 V0

/-- The buffers' contents after the first 2 stretches. -/
def val2 (V0 : Valuation τ sig (Elt Ideal)) : Valuation τ sig (Elt Ideal) := after (lsm0 (F := Ideal)) (val1 V0)

theorem val2_arg0 (V0 : Valuation τ sig (Elt Ideal)) : val2 V0 (Proc.devRef .tc main_arg0) = V0 (Proc.devRef .tc main_arg0) :=
  (keep_lsm0 _ main_arg0 (by decide)).trans (val1_arg0 V0)
theorem val2_arg1 (V0 : Valuation τ sig (Elt Ideal)) : val2 V0 (Proc.devRef .tc main_arg1) = V0 (Proc.devRef .tc main_arg1) :=
  (keep_lsm0 _ main_arg1 (by decide)).trans (val1_arg1 V0)
theorem val2_arg2 (V0 : Valuation τ sig (Elt Ideal)) : val2 V0 (Proc.devRef .tc main_arg2) = V0 (Proc.devRef .tc main_arg2) :=
  (keep_lsm0 _ main_arg2 (by decide)).trans (val1_arg2 V0)
theorem val2_arg3 (V0 : Valuation τ sig (Elt Ideal)) : val2 V0 (Proc.devRef .tc main_arg3) = V0 (Proc.devRef .tc main_arg3) :=
  (keep_lsm0 _ main_arg3 (by decide)).trans (val1_arg3 V0)
theorem val2_arg4 (V0 : Valuation τ sig (Elt Ideal)) : val2 V0 (Proc.devRef .tc main_arg4) = V0 (Proc.devRef .tc main_arg4) :=
  (keep_lsm0 _ main_arg4 (by decide)).trans (val1_arg4 V0)
theorem val2_v0 (V0 : Valuation τ sig (Elt Ideal)) : val2 V0 (Proc.devRef .tc main_v0) = tRow :=
  (keep_lsm0 _ main_v0 (by decide)).trans (val1_v0 V0)
theorem val2_v3 (V0 : Valuation τ sig (Elt Ideal)) : val2 V0 (Proc.devRef .tc main_v3) = meanSq :=
  (keep_lsm0 _ main_v3 (by decide)).trans (val1_v3 V0)
theorem val2_v16 (V0 : Valuation τ sig (Elt Ideal)) : val2 V0 (Proc.devRef .tc main_v16) = softmaxHost (scaledHost (V0 (Proc.devRef .tc main_arg0))) :=
  (keep_lsm0 _ main_v16 (by decide)).trans (val1_v16 V0)
theorem val2_v17 (V0 : Valuation τ sig (Elt Ideal)) : val2 V0 (Proc.devRef .tc main_v17) = lsmHost (scaledHost (V0 (Proc.devRef .tc main_arg0))) := by
  unfold val2
  rw [L0_out, val1_v5]

/-- The buffers' contents after the first 3 stretches. -/
def val3 (V0 : Valuation τ sig (Elt Ideal)) : Valuation τ sig (Elt Ideal) := after (opsB (F := Ideal)) (val2 V0)

theorem val3_arg0 (V0 : Valuation τ sig (Elt Ideal)) : val3 V0 (Proc.devRef .tc main_arg0) = V0 (Proc.devRef .tc main_arg0) :=
  (keep_opsB _ main_arg0 (by decide)).trans (val2_arg0 V0)
theorem val3_arg1 (V0 : Valuation τ sig (Elt Ideal)) : val3 V0 (Proc.devRef .tc main_arg1) = V0 (Proc.devRef .tc main_arg1) :=
  (keep_opsB _ main_arg1 (by decide)).trans (val2_arg1 V0)
theorem val3_arg2 (V0 : Valuation τ sig (Elt Ideal)) : val3 V0 (Proc.devRef .tc main_arg2) = V0 (Proc.devRef .tc main_arg2) :=
  (keep_opsB _ main_arg2 (by decide)).trans (val2_arg2 V0)
theorem val3_arg3 (V0 : Valuation τ sig (Elt Ideal)) : val3 V0 (Proc.devRef .tc main_arg3) = V0 (Proc.devRef .tc main_arg3) :=
  (keep_opsB _ main_arg3 (by decide)).trans (val2_arg3 V0)
theorem val3_arg4 (V0 : Valuation τ sig (Elt Ideal)) : val3 V0 (Proc.devRef .tc main_arg4) = V0 (Proc.devRef .tc main_arg4) :=
  (keep_opsB _ main_arg4 (by decide)).trans (val2_arg4 V0)
theorem val3_v0 (V0 : Valuation τ sig (Elt Ideal)) : val3 V0 (Proc.devRef .tc main_v0) = tRow :=
  (keep_opsB _ main_v0 (by decide)).trans (val2_v0 V0)
theorem val3_v3 (V0 : Valuation τ sig (Elt Ideal)) : val3 V0 (Proc.devRef .tc main_v3) = meanSq :=
  (keep_opsB _ main_v3 (by decide)).trans (val2_v3 V0)
theorem val3_v16 (V0 : Valuation τ sig (Elt Ideal)) : val3 V0 (Proc.devRef .tc main_v16) = softmaxHost (scaledHost (V0 (Proc.devRef .tc main_arg0))) :=
  (keep_opsB _ main_v16 (by decide)).trans (val2_v16 V0)
theorem val3_v17 (V0 : Valuation τ sig (Elt Ideal)) : val3 V0 (Proc.devRef .tc main_v17) = lsmHost (scaledHost (V0 (Proc.devRef .tc main_arg0))) :=
  (keep_opsB _ main_v17 (by decide)).trans (val2_v17 V0)
theorem val3_v19 (V0 : Valuation τ sig (Elt Ideal)) : val3 V0 (Proc.devRef .tc main_v19) = scaledHost (V0 (Proc.devRef .tc main_arg1)) := by
  unfold val3
  rw [B_v19 _ (val2_v0 V0), val2_arg1]

/-- The buffers' contents after the first 4 stretches. -/
def val4 (V0 : Valuation τ sig (Elt Ideal)) : Valuation τ sig (Elt Ideal) := after (lsm1 (F := Ideal)) (val3 V0)

theorem val4_arg0 (V0 : Valuation τ sig (Elt Ideal)) : val4 V0 (Proc.devRef .tc main_arg0) = V0 (Proc.devRef .tc main_arg0) :=
  (keep_lsm1 _ main_arg0 (by decide)).trans (val3_arg0 V0)
theorem val4_arg1 (V0 : Valuation τ sig (Elt Ideal)) : val4 V0 (Proc.devRef .tc main_arg1) = V0 (Proc.devRef .tc main_arg1) :=
  (keep_lsm1 _ main_arg1 (by decide)).trans (val3_arg1 V0)
theorem val4_arg2 (V0 : Valuation τ sig (Elt Ideal)) : val4 V0 (Proc.devRef .tc main_arg2) = V0 (Proc.devRef .tc main_arg2) :=
  (keep_lsm1 _ main_arg2 (by decide)).trans (val3_arg2 V0)
theorem val4_arg3 (V0 : Valuation τ sig (Elt Ideal)) : val4 V0 (Proc.devRef .tc main_arg3) = V0 (Proc.devRef .tc main_arg3) :=
  (keep_lsm1 _ main_arg3 (by decide)).trans (val3_arg3 V0)
theorem val4_arg4 (V0 : Valuation τ sig (Elt Ideal)) : val4 V0 (Proc.devRef .tc main_arg4) = V0 (Proc.devRef .tc main_arg4) :=
  (keep_lsm1 _ main_arg4 (by decide)).trans (val3_arg4 V0)
theorem val4_v0 (V0 : Valuation τ sig (Elt Ideal)) : val4 V0 (Proc.devRef .tc main_v0) = tRow :=
  (keep_lsm1 _ main_v0 (by decide)).trans (val3_v0 V0)
theorem val4_v3 (V0 : Valuation τ sig (Elt Ideal)) : val4 V0 (Proc.devRef .tc main_v3) = meanSq :=
  (keep_lsm1 _ main_v3 (by decide)).trans (val3_v3 V0)
theorem val4_v16 (V0 : Valuation τ sig (Elt Ideal)) : val4 V0 (Proc.devRef .tc main_v16) = softmaxHost (scaledHost (V0 (Proc.devRef .tc main_arg0))) :=
  (keep_lsm1 _ main_v16 (by decide)).trans (val3_v16 V0)
theorem val4_v17 (V0 : Valuation τ sig (Elt Ideal)) : val4 V0 (Proc.devRef .tc main_v17) = lsmHost (scaledHost (V0 (Proc.devRef .tc main_arg0))) :=
  (keep_lsm1 _ main_v17 (by decide)).trans (val3_v17 V0)
theorem val4_v20 (V0 : Valuation τ sig (Elt Ideal)) : val4 V0 (Proc.devRef .tc main_v20) = lsmHost (scaledHost (V0 (Proc.devRef .tc main_arg1))) := by
  unfold val4
  rw [L1_out, val3_v19]

/-- The buffers' contents after the first 5 stretches. -/
def val5 (V0 : Valuation τ sig (Elt Ideal)) : Valuation τ sig (Elt Ideal) := after (opsC (F := Ideal)) (val4 V0)

theorem val5_arg0 (V0 : Valuation τ sig (Elt Ideal)) : val5 V0 (Proc.devRef .tc main_arg0) = V0 (Proc.devRef .tc main_arg0) :=
  (keep_opsC _ main_arg0 (by decide)).trans (val4_arg0 V0)
theorem val5_arg1 (V0 : Valuation τ sig (Elt Ideal)) : val5 V0 (Proc.devRef .tc main_arg1) = V0 (Proc.devRef .tc main_arg1) :=
  (keep_opsC _ main_arg1 (by decide)).trans (val4_arg1 V0)
theorem val5_arg2 (V0 : Valuation τ sig (Elt Ideal)) : val5 V0 (Proc.devRef .tc main_arg2) = V0 (Proc.devRef .tc main_arg2) :=
  (keep_opsC _ main_arg2 (by decide)).trans (val4_arg2 V0)
theorem val5_arg3 (V0 : Valuation τ sig (Elt Ideal)) : val5 V0 (Proc.devRef .tc main_arg3) = V0 (Proc.devRef .tc main_arg3) :=
  (keep_opsC _ main_arg3 (by decide)).trans (val4_arg3 V0)
theorem val5_arg4 (V0 : Valuation τ sig (Elt Ideal)) : val5 V0 (Proc.devRef .tc main_arg4) = V0 (Proc.devRef .tc main_arg4) :=
  (keep_opsC _ main_arg4 (by decide)).trans (val4_arg4 V0)
theorem val5_v0 (V0 : Valuation τ sig (Elt Ideal)) : val5 V0 (Proc.devRef .tc main_v0) = tRow :=
  (keep_opsC _ main_v0 (by decide)).trans (val4_v0 V0)
theorem val5_v3 (V0 : Valuation τ sig (Elt Ideal)) : val5 V0 (Proc.devRef .tc main_v3) = meanSq :=
  (keep_opsC _ main_v3 (by decide)).trans (val4_v3 V0)
theorem val5_v16 (V0 : Valuation τ sig (Elt Ideal)) : val5 V0 (Proc.devRef .tc main_v16) = softmaxHost (scaledHost (V0 (Proc.devRef .tc main_arg0))) :=
  (keep_opsC _ main_v16 (by decide)).trans (val4_v16 V0)
theorem val5_v17 (V0 : Valuation τ sig (Elt Ideal)) : val5 V0 (Proc.devRef .tc main_v17) = lsmHost (scaledHost (V0 (Proc.devRef .tc main_arg0))) :=
  (keep_opsC _ main_v17 (by decide)).trans (val4_v17 V0)
theorem val5_v25 (V0 : Valuation τ sig (Elt Ideal)) : val5 V0 (Proc.devRef .tc main_v25) = klHost (softmaxHost (scaledHost (V0 (Proc.devRef .tc main_arg0)))) (lsmHost (scaledHost (V0 (Proc.devRef .tc main_arg0)))) (lsmHost (scaledHost (V0 (Proc.devRef .tc main_arg1)))) := by
  unfold val5
  rw [C_v25, val4_v16, val4_v17, val4_v20]
theorem val5_v27 (V0 : Valuation τ sig (Elt Ideal)) : val5 V0 (Proc.devRef .tc main_v27) = scaledHost (V0 (Proc.devRef .tc main_arg2)) := by
  unfold val5
  rw [C_v27 _ (val4_v0 V0), val4_arg2]

/-- The buffers' contents after the first 6 stretches. -/
def val6 (V0 : Valuation τ sig (Elt Ideal)) : Valuation τ sig (Elt Ideal) := after (lsm2 (F := Ideal)) (val5 V0)

theorem val6_arg0 (V0 : Valuation τ sig (Elt Ideal)) : val6 V0 (Proc.devRef .tc main_arg0) = V0 (Proc.devRef .tc main_arg0) :=
  (keep_lsm2 _ main_arg0 (by decide)).trans (val5_arg0 V0)
theorem val6_arg1 (V0 : Valuation τ sig (Elt Ideal)) : val6 V0 (Proc.devRef .tc main_arg1) = V0 (Proc.devRef .tc main_arg1) :=
  (keep_lsm2 _ main_arg1 (by decide)).trans (val5_arg1 V0)
theorem val6_arg2 (V0 : Valuation τ sig (Elt Ideal)) : val6 V0 (Proc.devRef .tc main_arg2) = V0 (Proc.devRef .tc main_arg2) :=
  (keep_lsm2 _ main_arg2 (by decide)).trans (val5_arg2 V0)
theorem val6_arg3 (V0 : Valuation τ sig (Elt Ideal)) : val6 V0 (Proc.devRef .tc main_arg3) = V0 (Proc.devRef .tc main_arg3) :=
  (keep_lsm2 _ main_arg3 (by decide)).trans (val5_arg3 V0)
theorem val6_arg4 (V0 : Valuation τ sig (Elt Ideal)) : val6 V0 (Proc.devRef .tc main_arg4) = V0 (Proc.devRef .tc main_arg4) :=
  (keep_lsm2 _ main_arg4 (by decide)).trans (val5_arg4 V0)
theorem val6_v0 (V0 : Valuation τ sig (Elt Ideal)) : val6 V0 (Proc.devRef .tc main_v0) = tRow :=
  (keep_lsm2 _ main_v0 (by decide)).trans (val5_v0 V0)
theorem val6_v3 (V0 : Valuation τ sig (Elt Ideal)) : val6 V0 (Proc.devRef .tc main_v3) = meanSq :=
  (keep_lsm2 _ main_v3 (by decide)).trans (val5_v3 V0)
theorem val6_v16 (V0 : Valuation τ sig (Elt Ideal)) : val6 V0 (Proc.devRef .tc main_v16) = softmaxHost (scaledHost (V0 (Proc.devRef .tc main_arg0))) :=
  (keep_lsm2 _ main_v16 (by decide)).trans (val5_v16 V0)
theorem val6_v17 (V0 : Valuation τ sig (Elt Ideal)) : val6 V0 (Proc.devRef .tc main_v17) = lsmHost (scaledHost (V0 (Proc.devRef .tc main_arg0))) :=
  (keep_lsm2 _ main_v17 (by decide)).trans (val5_v17 V0)
theorem val6_v25 (V0 : Valuation τ sig (Elt Ideal)) : val6 V0 (Proc.devRef .tc main_v25) = klHost (softmaxHost (scaledHost (V0 (Proc.devRef .tc main_arg0)))) (lsmHost (scaledHost (V0 (Proc.devRef .tc main_arg0)))) (lsmHost (scaledHost (V0 (Proc.devRef .tc main_arg1)))) :=
  (keep_lsm2 _ main_v25 (by decide)).trans (val5_v25 V0)
theorem val6_v28 (V0 : Valuation τ sig (Elt Ideal)) : val6 V0 (Proc.devRef .tc main_v28) = lsmHost (scaledHost (V0 (Proc.devRef .tc main_arg2))) := by
  unfold val6
  rw [L2_out, val5_v27]

/-- The buffers' contents after the first 7 stretches. -/
def val7 (V0 : Valuation τ sig (Elt Ideal)) : Valuation τ sig (Elt Ideal) := after (opsD (F := Ideal)) (val6 V0)

theorem val7_arg0 (V0 : Valuation τ sig (Elt Ideal)) : val7 V0 (Proc.devRef .tc main_arg0) = V0 (Proc.devRef .tc main_arg0) :=
  (keep_opsD _ main_arg0 (by decide)).trans (val6_arg0 V0)
theorem val7_arg1 (V0 : Valuation τ sig (Elt Ideal)) : val7 V0 (Proc.devRef .tc main_arg1) = V0 (Proc.devRef .tc main_arg1) :=
  (keep_opsD _ main_arg1 (by decide)).trans (val6_arg1 V0)
theorem val7_arg2 (V0 : Valuation τ sig (Elt Ideal)) : val7 V0 (Proc.devRef .tc main_arg2) = V0 (Proc.devRef .tc main_arg2) :=
  (keep_opsD _ main_arg2 (by decide)).trans (val6_arg2 V0)
theorem val7_arg3 (V0 : Valuation τ sig (Elt Ideal)) : val7 V0 (Proc.devRef .tc main_arg3) = V0 (Proc.devRef .tc main_arg3) :=
  (keep_opsD _ main_arg3 (by decide)).trans (val6_arg3 V0)
theorem val7_arg4 (V0 : Valuation τ sig (Elt Ideal)) : val7 V0 (Proc.devRef .tc main_arg4) = V0 (Proc.devRef .tc main_arg4) :=
  (keep_opsD _ main_arg4 (by decide)).trans (val6_arg4 V0)
theorem val7_v3 (V0 : Valuation τ sig (Elt Ideal)) : val7 V0 (Proc.devRef .tc main_v3) = meanSq :=
  (keep_opsD _ main_v3 (by decide)).trans (val6_v3 V0)
theorem val7_v16 (V0 : Valuation τ sig (Elt Ideal)) : val7 V0 (Proc.devRef .tc main_v16) = softmaxHost (scaledHost (V0 (Proc.devRef .tc main_arg0))) :=
  (keep_opsD _ main_v16 (by decide)).trans (val6_v16 V0)
theorem val7_v17 (V0 : Valuation τ sig (Elt Ideal)) : val7 V0 (Proc.devRef .tc main_v17) = lsmHost (scaledHost (V0 (Proc.devRef .tc main_arg0))) :=
  (keep_opsD _ main_v17 (by decide)).trans (val6_v17 V0)
theorem val7_v34 (V0 : Valuation τ sig (Elt Ideal)) : val7 V0 (Proc.devRef .tc main_v34) = addf (klHost (softmaxHost (scaledHost (V0 (Proc.devRef .tc main_arg0)))) (lsmHost (scaledHost (V0 (Proc.devRef .tc main_arg0)))) (lsmHost (scaledHost (V0 (Proc.devRef .tc main_arg1))))) (klHost (softmaxHost (scaledHost (V0 (Proc.devRef .tc main_arg0)))) (lsmHost (scaledHost (V0 (Proc.devRef .tc main_arg0)))) (lsmHost (scaledHost (V0 (Proc.devRef .tc main_arg2))))) := by
  unfold val7
  rw [D_v34, val6_v25, val6_v16, val6_v17, val6_v28]
theorem val7_v36 (V0 : Valuation τ sig (Elt Ideal)) : val7 V0 (Proc.devRef .tc main_v36) = scaledHost (V0 (Proc.devRef .tc main_arg3)) := by
  unfold val7
  rw [D_v36 _ (val6_v0 V0), val6_arg3]

/-- The buffers' contents after the first 8 stretches. -/
def val8 (V0 : Valuation τ sig (Elt Ideal)) : Valuation τ sig (Elt Ideal) := after (lsm3 (F := Ideal)) (val7 V0)

theorem val8_arg0 (V0 : Valuation τ sig (Elt Ideal)) : val8 V0 (Proc.devRef .tc main_arg0) = V0 (Proc.devRef .tc main_arg0) :=
  (keep_lsm3 _ main_arg0 (by decide)).trans (val7_arg0 V0)
theorem val8_arg1 (V0 : Valuation τ sig (Elt Ideal)) : val8 V0 (Proc.devRef .tc main_arg1) = V0 (Proc.devRef .tc main_arg1) :=
  (keep_lsm3 _ main_arg1 (by decide)).trans (val7_arg1 V0)
theorem val8_arg2 (V0 : Valuation τ sig (Elt Ideal)) : val8 V0 (Proc.devRef .tc main_arg2) = V0 (Proc.devRef .tc main_arg2) :=
  (keep_lsm3 _ main_arg2 (by decide)).trans (val7_arg2 V0)
theorem val8_arg3 (V0 : Valuation τ sig (Elt Ideal)) : val8 V0 (Proc.devRef .tc main_arg3) = V0 (Proc.devRef .tc main_arg3) :=
  (keep_lsm3 _ main_arg3 (by decide)).trans (val7_arg3 V0)
theorem val8_arg4 (V0 : Valuation τ sig (Elt Ideal)) : val8 V0 (Proc.devRef .tc main_arg4) = V0 (Proc.devRef .tc main_arg4) :=
  (keep_lsm3 _ main_arg4 (by decide)).trans (val7_arg4 V0)
theorem val8_v3 (V0 : Valuation τ sig (Elt Ideal)) : val8 V0 (Proc.devRef .tc main_v3) = meanSq :=
  (keep_lsm3 _ main_v3 (by decide)).trans (val7_v3 V0)
theorem val8_v16 (V0 : Valuation τ sig (Elt Ideal)) : val8 V0 (Proc.devRef .tc main_v16) = softmaxHost (scaledHost (V0 (Proc.devRef .tc main_arg0))) :=
  (keep_lsm3 _ main_v16 (by decide)).trans (val7_v16 V0)
theorem val8_v17 (V0 : Valuation τ sig (Elt Ideal)) : val8 V0 (Proc.devRef .tc main_v17) = lsmHost (scaledHost (V0 (Proc.devRef .tc main_arg0))) :=
  (keep_lsm3 _ main_v17 (by decide)).trans (val7_v17 V0)
theorem val8_v34 (V0 : Valuation τ sig (Elt Ideal)) : val8 V0 (Proc.devRef .tc main_v34) = addf (klHost (softmaxHost (scaledHost (V0 (Proc.devRef .tc main_arg0)))) (lsmHost (scaledHost (V0 (Proc.devRef .tc main_arg0)))) (lsmHost (scaledHost (V0 (Proc.devRef .tc main_arg1))))) (klHost (softmaxHost (scaledHost (V0 (Proc.devRef .tc main_arg0)))) (lsmHost (scaledHost (V0 (Proc.devRef .tc main_arg0)))) (lsmHost (scaledHost (V0 (Proc.devRef .tc main_arg2))))) :=
  (keep_lsm3 _ main_v34 (by decide)).trans (val7_v34 V0)
theorem val8_v37 (V0 : Valuation τ sig (Elt Ideal)) : val8 V0 (Proc.devRef .tc main_v37) = lsmHost (scaledHost (V0 (Proc.devRef .tc main_arg3))) := by
  unfold val8
  rw [L3_out, val7_v36]

/-- The buffers' contents after the first 9 stretches. -/
def val9 (V0 : Valuation τ sig (Elt Ideal)) : Valuation τ sig (Elt Ideal) := after (opsE (F := Ideal)) (val8 V0)

theorem val9_arg0 (V0 : Valuation τ sig (Elt Ideal)) : val9 V0 (Proc.devRef .tc main_arg0) = V0 (Proc.devRef .tc main_arg0) :=
  (keep_opsE _ main_arg0 (by decide)).trans (val8_arg0 V0)
theorem val9_arg1 (V0 : Valuation τ sig (Elt Ideal)) : val9 V0 (Proc.devRef .tc main_arg1) = V0 (Proc.devRef .tc main_arg1) :=
  (keep_opsE _ main_arg1 (by decide)).trans (val8_arg1 V0)
theorem val9_arg2 (V0 : Valuation τ sig (Elt Ideal)) : val9 V0 (Proc.devRef .tc main_arg2) = V0 (Proc.devRef .tc main_arg2) :=
  (keep_opsE _ main_arg2 (by decide)).trans (val8_arg2 V0)
theorem val9_arg3 (V0 : Valuation τ sig (Elt Ideal)) : val9 V0 (Proc.devRef .tc main_arg3) = V0 (Proc.devRef .tc main_arg3) :=
  (keep_opsE _ main_arg3 (by decide)).trans (val8_arg3 V0)
theorem val9_arg4 (V0 : Valuation τ sig (Elt Ideal)) : val9 V0 (Proc.devRef .tc main_arg4) = V0 (Proc.devRef .tc main_arg4) :=
  (keep_opsE _ main_arg4 (by decide)).trans (val8_arg4 V0)
theorem val9_v45 (V0 : Valuation τ sig (Elt Ideal)) : val9 V0 (Proc.devRef .tc main_v45) = mulf (addf (addf (klHost (softmaxHost (scaledHost (V0 (Proc.devRef .tc main_arg0)))) (lsmHost (scaledHost (V0 (Proc.devRef .tc main_arg0)))) (lsmHost (scaledHost (V0 (Proc.devRef .tc main_arg1))))) (klHost (softmaxHost (scaledHost (V0 (Proc.devRef .tc main_arg0)))) (lsmHost (scaledHost (V0 (Proc.devRef .tc main_arg0)))) (lsmHost (scaledHost (V0 (Proc.devRef .tc main_arg2)))))) (klHost (softmaxHost (scaledHost (V0 (Proc.devRef .tc main_arg0)))) (lsmHost (scaledHost (V0 (Proc.devRef .tc main_arg0)))) (lsmHost (scaledHost (V0 (Proc.devRef .tc main_arg3)))))) (broadcastInDim S2097152 ![] bcast_S_S2097152 meanSq) := by
  unfold val9
  rw [E_v45, val8_v34, val8_v16, val8_v17, val8_v37, val8_v3]
theorem val9_v46 (V0 : Valuation τ sig (Elt Ideal)) : val9 V0 (Proc.devRef .tc main_v46) = (broadcastInDim S2097152 ![] bcast_S_S2097152 (constant (F := Ideal) S_ .f32 0x40400000#32) : FVec Ideal S2097152 .f32) := by
  unfold val9
  exact E_v46 _

/-- The buffers' contents after the first 10 stretches. -/
def val10 (V0 : Valuation τ sig (Elt Ideal)) : Valuation τ sig (Elt Ideal) := after (opsF (F := Ideal)) (val9 V0)

theorem val10_arg0 (V0 : Valuation τ sig (Elt Ideal)) : val10 V0 (Proc.devRef .tc main_arg0) = V0 (Proc.devRef .tc main_arg0) :=
  (keep_opsF _ main_arg0 (by decide)).trans (val9_arg0 V0)
theorem val10_arg1 (V0 : Valuation τ sig (Elt Ideal)) : val10 V0 (Proc.devRef .tc main_arg1) = V0 (Proc.devRef .tc main_arg1) :=
  (keep_opsF _ main_arg1 (by decide)).trans (val9_arg1 V0)
theorem val10_arg2 (V0 : Valuation τ sig (Elt Ideal)) : val10 V0 (Proc.devRef .tc main_arg2) = V0 (Proc.devRef .tc main_arg2) :=
  (keep_opsF _ main_arg2 (by decide)).trans (val9_arg2 V0)
theorem val10_arg3 (V0 : Valuation τ sig (Elt Ideal)) : val10 V0 (Proc.devRef .tc main_arg3) = V0 (Proc.devRef .tc main_arg3) :=
  (keep_opsF _ main_arg3 (by decide)).trans (val9_arg3 V0)
theorem val10_arg4 (V0 : Valuation τ sig (Elt Ideal)) : val10 V0 (Proc.devRef .tc main_arg4) = V0 (Proc.devRef .tc main_arg4) :=
  (keep_opsF _ main_arg4 (by decide)).trans (val9_arg4 V0)
theorem val10_v49 (V0 : Valuation τ sig (Elt Ideal)) : val10 V0 (Proc.devRef .tc main_v49) = refTerm (V0 (Proc.devRef .tc main_arg0)) (V0 (Proc.devRef .tc main_arg1)) (V0 (Proc.devRef .tc main_arg2)) (V0 (Proc.devRef .tc main_arg3)) := by
  unfold val10
  rw [F_v49, val9_v45, val9_v46]
  unfold refTerm lossHost costHost
  rfl

/-- All the operations read at once are the ten stretches chained. -/
theorem after_ops (V0 : Valuation τ sig (Elt Ideal)) : after (ops (F := Ideal)) V0 = val10 V0 := by
  simp only [ops, ops_part0, after_app]
  rfl

/-- After all the operations the result buffer holds `refTerm` of the four float arguments. -/
theorem out_eq (V0 : Valuation τ sig (Elt Ideal)) :
    after (ops (F := Ideal)) V0 (Proc.devRef .tc main_v49) = refTerm (V0 (Proc.devRef .tc main_arg0)) (V0 (Proc.devRef .tc main_arg1)) (V0 (Proc.devRef .tc main_arg2)) (V0 (Proc.devRef .tc main_arg3)) :=
  (congrFun (after_ops V0) _).trans (val10_v49 V0)

theorem arg0_eq (V0 : Valuation τ sig (Elt Ideal)) : after (ops (F := Ideal)) V0 (Proc.devRef .tc main_arg0) = V0 (Proc.devRef .tc main_arg0) :=
  (congrFun (after_ops V0) _).trans (val10_arg0 V0)
theorem arg1_eq (V0 : Valuation τ sig (Elt Ideal)) : after (ops (F := Ideal)) V0 (Proc.devRef .tc main_arg1) = V0 (Proc.devRef .tc main_arg1) :=
  (congrFun (after_ops V0) _).trans (val10_arg1 V0)
theorem arg2_eq (V0 : Valuation τ sig (Elt Ideal)) : after (ops (F := Ideal)) V0 (Proc.devRef .tc main_arg2) = V0 (Proc.devRef .tc main_arg2) :=
  (congrFun (after_ops V0) _).trans (val10_arg2 V0)
theorem arg3_eq (V0 : Valuation τ sig (Elt Ideal)) : after (ops (F := Ideal)) V0 (Proc.devRef .tc main_arg3) = V0 (Proc.devRef .tc main_arg3) :=
  (congrFun (after_ops V0) _).trans (val10_arg3 V0)
theorem arg4_eq (V0 : Valuation τ sig (Elt Ideal)) : after (ops (F := Ideal)) V0 (Proc.devRef .tc main_arg4) = V0 (Proc.devRef .tc main_arg4) :=
  (congrFun (after_ops V0) _).trans (val10_arg4 V0)

/-! ## The run -/

/-- From any memory with zero counters: every weakly fair execution of the entry function terminates with the result buffer
    at `refTerm` of the launch contents of the four float arguments, and the five arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v49)
          = refTerm (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c main_v49).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq (Cert.ReferenceIdeal.defs (F := Ideal)) (main (F := Ideal)) (fun _ => ops (F := Ideal))
      (main_eq (F := Ideal)) (fun _ => ops_sub (F := Ideal)) m ρ)

end Cert.RefSide

end
-- ==== Proof.LibHostLaneMax.lean ====
/-
  The host's max-reduction of a rank-2 array along its lanes, read at coordinates, over the extended reals.

  A one-operand reduction of an `[a, b]` array along axis 1 with `max` as its body leaves a vector of length `a`
  whose element `i` is the maximum of row `i`, started from the initial value. The library states this over
  `Shape.Reduces.lift` (the result index with the reduced coordinate inserted); here the inserted index is written
  out as `ix2 i k`, so that the row's entries are the operand at plain coordinates and can be rewritten one by one.
-/
import Idealize.ShloMosaic.PureOps.Ideal.Laws
import Idealize.ShloMosaic.Lib.ValueIdx

namespace Cert.LibHostLaneMax

open Idealize.ShloMosaic Idealize.ShloMosaic.ValueIdx

/-- Row `i`'s maximum: the host's lane max-reduction at `i` is the fold of `max` over row `i`, from the initial value. -/
theorem hostLaneMax_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x init h' hu (ix1 i)
      = (Finset.univ : Finset (Fin b)).fold max (init (Shape.Idx.first hu)) (fun k => x (ix2 i k)) := by
  refine (Host.reduce_eq_fold_single (FloatOps.maximumf (F := Ideal) (φ := .f32)) x init h' h hu (ix1 i)).trans ?_
  refine congrArg (fun f => (Finset.univ : Finset (Fin b)).fold max (init (Shape.Idx.first hu)) f) ?_
  funext k
  refine congrArg x ?_
  funext c; apply Fin.ext
  match c with
  | ⟨0, _⟩ => rfl
  | ⟨1, _⟩ => rfl

end Cert.LibHostLaneMax
-- ==== Proof.RefValue.lean ====
/-
  The reference's term read at its one index, row by row.

  Each host operation is read at coordinates: a quotient, an exponential or a logarithm entry by entry, a broadcast
  at the coordinate it copies, a row maximum as a fold of max over the row's seven entries, a row sum as the initial
  zero plus the sum of the seven entries, and the final sum as zero plus the sum over the 2097152 rows. Row r of the
  computation then is the specification's row formula on row r of the four arguments.
-/
import proofs.«126880_j42013370090071_1_alg».proof.Proof.RefTerm
import proofs.«126880_j42013370090071_1_alg».proof.Proof.Spec
import proofs.«126880_j42013370090071_1_alg».proof.Proof.LibHostLaneMax
import Idealize.ShloMosaic.Lib.IdealHost
import Idealize.ShloMosaic.Lib.KernelVsHost
import Idealize.ShloMosaic.Lib.Pipeline.Value

noncomputable section

namespace Cert.RefSide

open Cert.ReferenceIdeal Cert.ReferenceIdeal.Facts₀ Idealize.ShloMosaic Idealize.ShloMosaic.ValueIdx
open scoped BigOperators

/-! ## Broadcasts and one-axis sums at coordinates -/

section Generic

variable {α : Type}

/-- A vector laid out as a column: entry (i, u) of the column is entry i of the vector. -/
theorem bcast_col_apply {a : ℕ} (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) := by
  refine broadcastInDim_apply ![0] h v (ix2 i u) (ix1 i) ?_
  intro c
  match c with
  | ⟨0, _⟩ =>
    show i.val = if a = 1 then 0 else i.val
    split
    · have := i.isLt; omega
    · rfl

/-- A column spread over b lanes: entry (i, j) is the column's entry (i, 0). -/
theorem bcast_colSpread_apply {a b : ℕ} (h : (⟨2, ![a, 1]⟩ : Shape).BroadcastsInDim ⟨2, ![a, b]⟩ ![0, 1])
    (v : (⟨2, ![a, 1]⟩ : Shape).Idx → α) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) ?_
  intro c
  match c with
  | ⟨0, _⟩ =>
    show i.val = if a = 1 then 0 else i.val
    split
    · have := i.isLt; omega
    · rfl
  | ⟨1, _⟩ =>
    show (0 : ℕ) = if (1 : ℕ) = 1 then 0 else j.val
    simp

/-- A vector laid out as one row: entry (u, k) of the row is entry k of the vector. -/
theorem bcast_vecRow_apply {b : ℕ} (h : (⟨1, ![b]⟩ : Shape).BroadcastsInDim ⟨2, ![1, b]⟩ ![1])
    (v : (⟨1, ![b]⟩ : Shape).Idx → α) (u : Fin 1) (k : Fin b) :
    broadcastInDim ⟨2, ![1, b]⟩ ![1] h v (ix2 u k) = v (ix1 k) := by
  refine broadcastInDim_apply ![1] h v (ix2 u k) (ix1 k) ?_
  intro c
  match c with
  | ⟨0, _⟩ =>
    show k.val = if b = 1 then 0 else k.val
    split
    · have := k.isLt; omega
    · rfl

/-- The host's sum along the lanes of an [a, b] array at row i: the initial value plus the sum of the row's entries. -/
theorem hostRowSum_apply {a b : ℕ} (x : (⟨2, ![a, b]⟩ : Shape).Idx → EReal) (init : EReal)
    (h' : (⟨2, ![a, b]⟩ : Shape).ReducesTo [1] ⟨1, ![a]⟩) (h : (⟨2, ![a, b]⟩ : Shape).Reduces [1] ⟨1, ![a]⟩) (i : Fin a) :
    Ideal.hostReduceAdd h' x init (ix1 i) = init + ∑ k : Fin b, x (ix2 i k) := by
  refine (Ideal.hostReduceAdd_single h' h x init (ix1 i)).trans ?_
  refine congrArg (fun s => init + s) (Finset.sum_congr rfl fun k _ => congrArg x ?_)
  funext c; apply Fin.ext
  match c with
  | ⟨0, _⟩ => rfl
  | ⟨1, _⟩ => rfl

/-- The indices of a vector of length a are its a coordinates. -/
def idxEquiv1 {a : ℕ} : (⟨1, ![a]⟩ : Shape).Idx ≃ Fin a where
  toFun j := j 0
  invFun := ix1
  left_inv j := (eq_ix1 j).symm
  right_inv _ := rfl

/-- A sum over a vector's indices is the sum over its coordinates. -/
theorem sum_idx1 {M : Type*} [AddCommMonoid M] {a : ℕ} (f : (⟨1, ![a]⟩ : Shape).Idx → M) :
    ∑ i, f i = ∑ r : Fin a, f (ix1 r) := by
  rw [← Equiv.sum_comp (idxEquiv1 (a := a)).symm f]
  rfl

/-- The host's sum of a vector of length a into a scalar: the initial value plus the sum of its entries. -/
theorem hostVecSum_apply {a : ℕ} (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ r : Fin a, x (ix1 r) := by
  rw [Ideal.hostReduceAdd_total h' (fun b => b.elim0) x init j, sum_idx1]

/-- The host's exponential and logarithm, entry by entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

end Generic

variable [Cert.ReferenceIdeal.Facts]

/-! ## The parts of the term at coordinates -/

/-- Row r of an array, as a function of the class. -/
def rowAt (x : Mat) (r : Fin 2097152) : Fin 7 → EReal := fun k => x (ix2 r k)

/-- The constant table's words are the specification's. -/
theorem lit0_eq (i k : Fin 7) (h : i.val = k.val) : lit0 i = Spec.tWord k := by
  have e : i = k := Fin.ext h
  subst e
  fin_cases i <;> rfl

theorem tRow_apply (u : Fin 1) (k : Fin 7) : tRow (ix2 u k) = Spec.temp k := by
  unfold tRow
  rw [bcast_vecRow_apply]
  show Ideal.ofBits .f32 (lit0 (S7.rowMajor (ix1 k))) = Ideal.ofBits .f32 (Spec.tWord k)
  exact congrArg (Ideal.ofBits .f32) (lit0_eq _ k (Shape.rowMajor_val_one _))

theorem spread_apply (v : Col) (r : Fin 2097152) (k : Fin 7) : spread v (ix2 r k) = v (ix1 r) := by
  unfold spread
  rw [bcast_colSpread_apply, bcast_col_apply]

theorem scaledHost_apply (a : Mat) (r : Fin 2097152) (k : Fin 7) :
    scaledHost a (ix2 r k) = Ideal.div (a (ix2 r k)) (Spec.temp k) := by
  unfold scaledHost
  rw [hostDivf_apply, broadcastInDim_oneRow_apply, tRow_apply]

theorem rowAt_scaled (a : Mat) (r : Fin 2097152) :
    rowAt (scaledHost a) r = Spec.scaled Spec.temp (Spec.rowOf a r.val) := by
  funext k
  unfold rowAt Spec.scaled Spec.rowOf
  rw [scaledHost_apply, dif_pos r.isLt]

theorem rowMaxHost_apply (x : Mat) (r : Fin 2097152) : rowMaxHost x (ix1 r) = Spec.rowMax (rowAt x r) := by
  unfold rowMaxHost
  rw [maximumf_apply, broadcastInDim_scalar_apply, constant_apply,
    Cert.LibHostLaneMax.hostLaneMax_apply x _ _ (by decide) h_S_ r, constant_apply]
  rfl

theorem shiftedHost_apply (x : Mat) (r : Fin 2097152) (k : Fin 7) :
    shiftedHost x (ix2 r k) = Spec.shifted (rowAt x r) k := by
  unfold shiftedHost Spec.shifted
  rw [subf_apply, spread_apply, rowMaxHost_apply]
  rfl

theorem expHost_apply (x : Mat) (r : Fin 2097152) (k : Fin 7) :
    expHost x (ix2 r k) = Ideal.exp (Spec.shifted (rowAt x r) k) := by
  unfold expHost
  rw [hostExp_apply, shiftedHost_apply]

theorem sumExpHost_apply (x : Mat) (r : Fin 2097152) : sumExpHost x (ix1 r) = Spec.sumExpR (rowAt x r) := by
  unfold sumExpHost Spec.sumExpR
  rw [hostReduceAdd_apply, constant_apply, hostRowSum_apply (expHost x) _ _ (by decide) r]
  exact congrArg (fun s => Spec.zero + s) (Finset.sum_congr rfl fun k _ => expHost_apply x r k)

theorem lsmHost_apply (x : Mat) (r : Fin 2097152) (k : Fin 7) :
    lsmHost x (ix2 r k) = Spec.lsmR (rowAt x r) k := by
  unfold lsmHost Spec.lsmR
  rw [subf_apply, shiftedHost_apply, bcast_colSpread_apply, hostLog_apply, bcast_col_apply, sumExpHost_apply]

theorem softmaxHost_apply (x : Mat) (r : Fin 2097152) (k : Fin 7) :
    softmaxHost x (ix2 r k) = Ideal.div (Ideal.exp (Spec.shifted (rowAt x r) k)) (Spec.sumExpR (rowAt x r)) := by
  unfold softmaxHost
  rw [hostDivf_apply, expHost_apply, spread_apply, sumExpHost_apply]

theorem klHost_apply (q lq lp : Mat) (r : Fin 2097152) :
    klHost q lq lp (ix1 r)
      = Ideal.div (Spec.zero + ∑ k : Fin 7, q (ix2 r k) * (lq (ix2 r k) - lp (ix2 r k))) Spec.seven := by
  unfold klHost
  rw [hostDivf_apply, hostReduceAdd_apply, constant_apply, hostRowSum_apply _ _ _ (by decide) r,
    broadcastInDim_scalar_apply, constant_apply]
  rfl

theorem kl_eq (a b : Mat) (r : Fin 2097152) :
    klHost (softmaxHost (scaledHost a)) (lsmHost (scaledHost a)) (lsmHost (scaledHost b)) (ix1 r)
      = Spec.klR Spec.temp (Spec.rowOf a r.val) (Spec.rowOf b r.val) := by
  rw [klHost_apply]
  unfold Spec.klR
  refine congrArg (fun s => Ideal.div (Spec.zero + s) Spec.seven) (Finset.sum_congr rfl fun k _ => ?_)
  rw [softmaxHost_apply, lsmHost_apply, lsmHost_apply, rowAt_scaled, rowAt_scaled]

theorem meanSq_apply (j : S_.Idx) : meanSq j = Spec.meanSqR Spec.temp := by
  unfold meanSq Spec.meanSqR
  rw [hostDivf_apply, hostReduceAdd_apply, constant_apply, constant_apply,
    Ideal.hostReduceAdd_total _ (fun b => b.elim0), sum_idx2, Fin.sum_univ_one]
  refine congrArg (fun s => Ideal.div (Spec.zero + s) Spec.seven) (Finset.sum_congr rfl fun k _ => ?_)
  rw [mulf_apply, tRow_apply]

theorem lossHost_apply (a0 a1 a2 a3 : Mat) (r : Fin 2097152) :
    lossHost a0 a1 a2 a3 (ix1 r) = Spec.costR a0 a1 a2 a3 r.val := by
  unfold lossHost costHost Spec.costR Spec.rowR
  rw [hostDivf_apply, mulf_apply, addf_apply, addf_apply, kl_eq, kl_eq, kl_eq,
    broadcastInDim_scalar_apply, broadcastInDim_scalar_apply, meanSq_apply, constant_apply]

/-- The reference's term is the specification's result, at its one index. -/
theorem refTerm_eq (a0 a1 a2 a3 : (⟨S2097152x7, .f32⟩ : BufTy).Contents (Elt Ideal)) :
    refTerm a0 a1 a2 a3 = fun _ => Cert.Spec.resultR a0 a1 a2 a3 := by
  funext j
  unfold refTerm Spec.resultR Spec.totalR
  rw [hostDivf_apply, hostReduceAdd_apply, constant_apply, constant_apply,
    hostVecSum_apply _ _ _ j]
  exact congrArg (fun s => Ideal.div (Spec.zero + s) Spec.count)
    (Finset.sum_congr rfl fun r _ => lossHost_apply a0 a1 a2 a3 r)

end Cert.RefSide

end
-- ==== Proof.Consts.lean ====
/-
  The literal words of the two programs as numbers: the zero, −∞, the class count 7, the student count 3, and the
  seven temperatures, each a normal single-precision pattern with exponent field 127, hence a positive dyadic
  (2²³ + fraction) · 2⁻²³.
-/
import Idealize.ShloMosaic.PureOps.Ideal
import Idealize.ShloMosaic.PureOps.Ideal.Laws
import proofs.«126880_j42013370090071_1_alg».proof.Proof.Spec

noncomputable section

namespace Cert.Bridge

open Idealize.ShloMosaic

/-- The all-zero pattern is the number 0. -/
theorem zero_eq : Cert.Spec.zero = 0 := Ideal.ofBits_zero_f32

/-- Sign bit set, exponent all ones, fraction zero: −∞. -/
theorem negInf_eq : Cert.Spec.negInf = ⊥ := by
  simp [Cert.Spec.negInf, Ideal.ofBits, Ideal.ieee]

/-- `0x40E00000` is 7. -/
theorem seven_eq : Cert.Spec.seven = ((7 : ℝ) : EReal) := by
  simp [Cert.Spec.seven, Ideal.ofBits, Ideal.ieee, -EReal.coe_mul]; norm_num

/-- `0x40400000` is 3. -/
theorem three_eq : Cert.Spec.three = ((3 : ℝ) : EReal) := by
  simp [Cert.Spec.three, Ideal.ofBits, Ideal.ieee, -EReal.coe_mul]; norm_num

/-- The pattern `0x3FB97C91` denotes the positive dyadic 12156049 · 2⁻²³. -/
theorem word0_eq : Ideal.ofBits .f32 0x3FB97C91#32 = ((12156049 * (2 ^ 23)⁻¹ : ℝ) : EReal) := by
  simp [Ideal.ofBits, Ideal.ieee, -EReal.coe_mul]

/-- The pattern `0x3FB9817D` denotes the positive dyadic 12157309 · 2⁻²³. -/
theorem word1_eq : Ideal.ofBits .f32 0x3FB9817D#32 = ((12157309 * (2 ^ 23)⁻¹ : ℝ) : EReal) := by
  simp [Ideal.ofBits, Ideal.ieee, -EReal.coe_mul]

/-- The pattern `0x3FB8CEBB` denotes the positive dyadic 12111547 · 2⁻²³. -/
theorem word2_eq : Ideal.ofBits .f32 0x3FB8CEBB#32 = ((12111547 * (2 ^ 23)⁻¹ : ℝ) : EReal) := by
  simp [Ideal.ofBits, Ideal.ieee, -EReal.coe_mul]

/-- The pattern `0x3FC00000` denotes the positive dyadic 12582912 · 2⁻²³. -/
theorem word3_eq : Ideal.ofBits .f32 0x3FC00000#32 = ((12582912 * (2 ^ 23)⁻¹ : ℝ) : EReal) := by
  simp [Ideal.ofBits, Ideal.ieee, -EReal.coe_mul]

/-- The pattern `0x3FBB8820` denotes the positive dyadic 12290080 · 2⁻²³. -/
theorem word4_eq : Ideal.ofBits .f32 0x3FBB8820#32 = ((12290080 * (2 ^ 23)⁻¹ : ℝ) : EReal) := by
  simp [Ideal.ofBits, Ideal.ieee, -EReal.coe_mul]

/-- The pattern `0x3FBA6C6A` denotes the positive dyadic 12217450 · 2⁻²³. -/
theorem word5_eq : Ideal.ofBits .f32 0x3FBA6C6A#32 = ((12217450 * (2 ^ 23)⁻¹ : ℝ) : EReal) := by
  simp [Ideal.ofBits, Ideal.ieee, -EReal.coe_mul]

/-- The pattern `0x3FBC6657` denotes the positive dyadic 12346967 · 2⁻²³. -/
theorem word6_eq : Ideal.ofBits .f32 0x3FBC6657#32 = ((12346967 * (2 ^ 23)⁻¹ : ℝ) : EReal) := by
  simp [Ideal.ofBits, Ideal.ieee, -EReal.coe_mul]

/-- Every temperature is a positive real. -/
theorem temp_pos (k : Fin 7) : ∃ t : ℝ, 0 < t ∧ Cert.Spec.temp k = (t : EReal) := by
  fin_cases k
  · exact ⟨_, by positivity, word0_eq⟩
  · exact ⟨_, by positivity, word1_eq⟩
  · exact ⟨_, by positivity, word2_eq⟩
  · exact ⟨_, by positivity, word3_eq⟩
  · exact ⟨_, by positivity, word4_eq⟩
  · exact ⟨_, by positivity, word5_eq⟩
  · exact ⟨_, by positivity, word6_eq⟩

end Cert.Bridge

end
-- ==== Proof.LibRealClosure.lean ====
/-
  Extended reals that are reals, continued. The ideal float values are the extended reals `[-∞, +∞]`,
  where multiplication does not distribute over addition at the infinities; on the image of `ℝ` every
  ring identity of the reals holds. For the predicate `IsReal` ("is the image of a real") this file adds
  closure under negation, difference, maximum, the ideal quotient by a nonzero real and the ideal
  reciprocal square root of a positive real; the reals that three single-precision patterns denote; and
  the identity between the two usual formulas for a population variance — the mean of the squares minus
  the square of the mean, and the mean of the squared deviations from the mean — first over `ℝ`, then
  over extended reals that are reals, with the positivity of the variance plus a positive real.
-/
import Idealize.ShloMosaic.PureOps.Ideal
import proofs.«126880_j42013370090071_1_alg».proof.Proof.LibTileSum

noncomputable section

namespace Cert.LibRealClosure

open Idealize.ShloMosaic Cert.TileSum
open scoped BigOperators

/-! ## Closure of `IsReal` -/

/-- A real is the image of its real part. -/
theorem coe_toReal_of_isReal {x : EReal} (h : IsReal x) : ((x.toReal : ℝ) : EReal) = x :=
  EReal.coe_toReal (isReal_iff.mp h).1 (isReal_iff.mp h).2

/-- The negation of a real is a real. -/
theorem isReal_neg {x : EReal} (hx : IsReal x) : IsReal (-x) := by
  obtain ⟨a, rfl⟩ := hx; exact ⟨-a, (EReal.coe_neg a).symm⟩

/-- The difference of two reals is a real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The maximum of the images of two reals is the image of their maximum. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The maximum of two reals is a real. -/
theorem isReal_max {x y : EReal} (hx : IsReal x) (hy : IsReal y) : IsReal (max x y) := by
  obtain ⟨a, rfl⟩ := hx; obtain ⟨b, rfl⟩ := hy; exact ⟨max a b, (coe_max a b).symm⟩

/-- A sum of reals over a finite type is a real. -/
theorem isReal_sum_univ {ι : Type*} [Fintype ι] (f : ι → EReal) (h : ∀ i, IsReal (f i)) :
    IsReal (∑ i, f i) :=
  IsReal.sum Finset.univ f fun i _ => h i

/-- The ideal quotient of the images of two reals, the divisor not zero, is the image of the quotient. -/
theorem div_coe_coe (a : ℝ) {c : ℝ} (hc : c ≠ 0) :
    Ideal.div (a : EReal) (c : EReal) = ((a / c : ℝ) : EReal) := by
  rw [Ideal.div_coe hc, ← EReal.coe_mul, mul_one_div]

/-- The ideal quotient of a real by a nonzero real is a real. -/
theorem isReal_div_coe {x : EReal} (hx : IsReal x) {c : ℝ} (hc : c ≠ 0) :
    IsReal (Ideal.div x (c : EReal)) := by
  obtain ⟨a, rfl⟩ := hx; exact ⟨a / c, div_coe_coe a hc⟩

/-- The ideal quotient by a nonzero real is the product with the inverse of its image. -/
theorem div_coe_eq_mul_inv {c : ℝ} (hc : c ≠ 0) (x : EReal) :
    Ideal.div x (c : EReal) = x * (c : EReal)⁻¹ := by
  rw [Ideal.div, if_neg (by exact_mod_cast hc)]

/-- The ideal quotient by a nonzero real is the product with the image of its inverse. -/
theorem div_coe_eq_mul_coe_inv {c : ℝ} (hc : c ≠ 0) (x : EReal) :
    Ideal.div x (c : EReal) = x * ((c⁻¹ : ℝ) : EReal) := by
  rw [div_coe_eq_mul_inv hc, EReal.coe_inv]

/-- The ideal reciprocal square root of the image of a positive real `r` is the image of `(√r)⁻¹`. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The ideal reciprocal square root of a real above zero is a real. -/
theorem isReal_rsqrt_of_pos {x : EReal} (hx : IsReal x) (hpos : 0 < x) : IsReal (Ideal.rsqrt x) := by
  obtain ⟨r, rfl⟩ := hx
  exact ⟨(Real.sqrt r)⁻¹, rsqrt_coe_of_pos (EReal.coe_pos.mp hpos)⟩

/-! ## Three single-precision patterns -/

/-- The pattern `0x47C35000` denotes the real `100000`. -/
theorem ofBits_f32_100000 : Ideal.ofBits .f32 0x47C35000#32 = ((100000 : ℝ) : EReal) := by
  simp [Ideal.ofBits, Ideal.ieee, -EReal.coe_mul]; norm_num

/-- The pattern `0x00000000` denotes `0`. -/
theorem ofBits_f32_zero : Ideal.ofBits .f32 0x00000000#32 = 0 := by
  simp [Ideal.ofBits, Ideal.ieee]

/-- The pattern `0x3727C5AC` denotes the real `10995116 · 2⁻⁴⁰` (about `1.0e-5`). -/
theorem ofBits_f32_eps :
    Ideal.ofBits .f32 0x3727C5AC#32 = ((10995116 * (2 : ℝ) ^ (-40 : ℤ) : ℝ) : EReal) := by
  simp [Ideal.ofBits, Ideal.ieee, -EReal.coe_mul]

/-- The pattern `0x3727C5AC` denotes a real above zero. -/
theorem ofBits_f32_eps_pos : ∃ e : ℝ, 0 < e ∧ Ideal.ofBits .f32 0x3727C5AC#32 = (e : EReal) :=
  ⟨10995116 * (2 : ℝ) ^ (-40 : ℤ), by positivity, ofBits_f32_eps⟩

/-! ## The two formulas for a variance, over the reals -/

section RealVariance

variable {ι : Type*} [Fintype ι]

/-- Over `N` reals, `N ≠ 0`: the mean of the squared deviations from the mean is the mean of the squares
    minus the square of the mean (deviations squared written as products). -/
theorem variance_mul_eq (N : ℝ) (hcard : (Fintype.card ι : ℝ) = N) (hN : N ≠ 0) (x : ι → ℝ) :
    (∑ i, (x i - (∑ j, x j) / N) * (x i - (∑ j, x j) / N)) / N
      = (∑ i, x i * x i) / N - ((∑ j, x j) / N) * ((∑ j, x j) / N) := by
  have h1 : ∀ i, (x i - (∑ j, x j) / N) * (x i - (∑ j, x j) / N)
      = x i * x i - 2 * ((∑ j, x j) / N) * x i + ((∑ j, x j) / N) * ((∑ j, x j) / N) := fun i => by ring
  simp only [h1]
  rw [Finset.sum_add_distrib, Finset.sum_sub_distrib, ← Finset.mul_sum, Finset.sum_const, Finset.card_univ,
    nsmul_eq_mul, hcard]
  field_simp
  ring

/-- The same with the deviations squared written as second powers. -/
theorem variance_sq_eq (N : ℝ) (hcard : (Fintype.card ι : ℝ) = N) (hN : N ≠ 0) (x : ι → ℝ) :
    (∑ i, (x i - (∑ j, x j) / N) ^ 2) / N
      = (∑ i, x i * x i) / N - ((∑ j, x j) / N) * ((∑ j, x j) / N) := by
  simp only [sq]
  exact variance_mul_eq N hcard hN x

/-- The mean of the squared deviations is not negative. -/
theorem variance_mul_nonneg (N : ℝ) (hcard : (Fintype.card ι : ℝ) = N) (x : ι → ℝ) :
    0 ≤ (∑ i, (x i - (∑ j, x j) / N) * (x i - (∑ j, x j) / N)) / N :=
  div_nonneg (Finset.sum_nonneg fun i _ => mul_self_nonneg _) (hcard ▸ Nat.cast_nonneg _)

/-- The same with second powers. -/
theorem variance_sq_nonneg (N : ℝ) (hcard : (Fintype.card ι : ℝ) = N) (x : ι → ℝ) :
    0 ≤ (∑ i, (x i - (∑ j, x j) / N) ^ 2) / N :=
  div_nonneg (Finset.sum_nonneg fun i _ => sq_nonneg _) (hcard ▸ Nat.cast_nonneg _)

/-- Hence the mean of the squares minus the square of the mean is not negative. -/
theorem meansq_sub_sqmean_nonneg (N : ℝ) (hcard : (Fintype.card ι : ℝ) = N) (hN : N ≠ 0) (x : ι → ℝ) :
    0 ≤ (∑ i, x i * x i) / N - ((∑ j, x j) / N) * ((∑ j, x j) / N) :=
  variance_mul_eq N hcard hN x ▸ variance_mul_nonneg N hcard x

end RealVariance

/-! ## The same identity on extended reals that are reals -/

section ERealVariance

variable {ι : Type*} [Fintype ι]

/-- A family of extended reals each of which is a real is the image of a family of reals. -/
theorem exists_coe_of_isReal (X : ι → EReal) (hX : ∀ i, IsReal (X i)) :
    ∃ x : ι → ℝ, X = fun i => (x i : EReal) :=
  ⟨fun i => (X i).toReal, funext fun i => (coe_toReal_of_isReal (hX i)).symm⟩

/-- On `N` extended reals that are reals, `N ≠ 0`, with the ideal quotient: the mean of the squared deviations
    from the mean is the mean of the squares minus the square of the mean. -/
theorem variance_div_eq (N : ℝ) (hcard : (Fintype.card ι : ℝ) = N) (hN : N ≠ 0) (X : ι → EReal)
    (hX : ∀ i, IsReal (X i)) :
    Ideal.div (∑ i, (X i - Ideal.div (∑ j, X j) (N : EReal)) * (X i - Ideal.div (∑ j, X j) (N : EReal))) (N : EReal)
      = Ideal.div (∑ i, X i * X i) (N : EReal)
          - Ideal.div (∑ j, X j) (N : EReal) * Ideal.div (∑ j, X j) (N : EReal) := by
  obtain ⟨x, rfl⟩ := exists_coe_of_isReal X hX
  simp only [← coe_sum, div_coe_coe _ hN, ← EReal.coe_sub, ← EReal.coe_mul]
  rw [variance_mul_eq N hcard hN x]

/-- The same with every quotient written as the product with the inverse of `N`'s image. -/
theorem variance_mul_inv_eq (N : ℝ) (hcard : (Fintype.card ι : ℝ) = N) (hN : N ≠ 0) (X : ι → EReal)
    (hX : ∀ i, IsReal (X i)) :
    (∑ i, (X i - (∑ j, X j) * (N : EReal)⁻¹) * (X i - (∑ j, X j) * (N : EReal)⁻¹)) * (N : EReal)⁻¹
      = (∑ i, X i * X i) * (N : EReal)⁻¹
          - (∑ j, X j) * (N : EReal)⁻¹ * ((∑ j, X j) * (N : EReal)⁻¹) := by
  simp only [← div_coe_eq_mul_inv hN]
  exact variance_div_eq N hcard hN X hX

/-- The same with every quotient written as the product with the image of the real `1 / N`. -/
theorem variance_mul_one_div_eq (N : ℝ) (hcard : (Fintype.card ι : ℝ) = N) (hN : N ≠ 0) (X : ι → EReal)
    (hX : ∀ i, IsReal (X i)) :
    (∑ i, (X i - (∑ j, X j) * ((1 / N : ℝ) : EReal)) * (X i - (∑ j, X j) * ((1 / N : ℝ) : EReal)))
        * ((1 / N : ℝ) : EReal)
      = (∑ i, X i * X i) * ((1 / N : ℝ) : EReal)
          - (∑ j, X j) * ((1 / N : ℝ) : EReal) * ((∑ j, X j) * ((1 / N : ℝ) : EReal)) := by
  simp only [← Ideal.div_coe hN]
  exact variance_div_eq N hcard hN X hX

/-- The mean of the squared deviations of reals is the image of a real that is not negative. -/
theorem variance_div_eq_coe (N : ℝ) (hcard : (Fintype.card ι : ℝ) = N) (hN : N ≠ 0) (X : ι → EReal)
    (hX : ∀ i, IsReal (X i)) :
    ∃ v : ℝ, 0 ≤ v ∧
      Ideal.div (∑ i, (X i - Ideal.div (∑ j, X j) (N : EReal)) * (X i - Ideal.div (∑ j, X j) (N : EReal))) (N : EReal)
        = (v : EReal) := by
  obtain ⟨x, rfl⟩ := exists_coe_of_isReal X hX
  refine ⟨_, variance_mul_nonneg N hcard x, ?_⟩
  simp only [← coe_sum, div_coe_coe _ hN, ← EReal.coe_sub, ← EReal.coe_mul]

/-- The mean of the squares of reals minus the square of their mean is the image of a real that is not negative. -/
theorem meansq_sub_sqmean_eq_coe (N : ℝ) (hcard : (Fintype.card ι : ℝ) = N) (hN : N ≠ 0) (X : ι → EReal)
    (hX : ∀ i, IsReal (X i)) :
    ∃ v : ℝ, 0 ≤ v ∧
      Ideal.div (∑ i, X i * X i) (N : EReal) - Ideal.div (∑ j, X j) (N : EReal) * Ideal.div (∑ j, X j) (N : EReal)
        = (v : EReal) := by
  rw [← variance_div_eq N hcard hN X hX]
  exact variance_div_eq_coe N hcard hN X hX

/-- A real that is not negative plus a real above zero is a real above zero, and so is its ideal reciprocal
    square root a real. -/
theorem isReal_pos_rsqrt_of_nonneg_add_pos {V E : EReal} (hV : ∃ v : ℝ, 0 ≤ v ∧ V = (v : EReal))
    (hE : ∃ e : ℝ, 0 < e ∧ E = (e : EReal)) :
    IsReal (V + E) ∧ 0 < V + E ∧ IsReal (Ideal.rsqrt (V + E)) := by
  obtain ⟨v, hv, rfl⟩ := hV
  obtain ⟨e, he, rfl⟩ := hE
  have hr : IsReal ((v : EReal) + (e : EReal)) := (isReal_coe v).add (isReal_coe e)
  have hp : (0 : EReal) < (v : EReal) + (e : EReal) := by
    rw [← EReal.coe_add]; exact EReal.coe_pos.mpr (add_pos_of_nonneg_of_pos hv he)
  exact ⟨hr, hp, isReal_rsqrt_of_pos hr hp⟩

/-- For reals `X i` and a real `E` above zero: the mean of the squared deviations plus `E` is a real above zero,
    and its ideal reciprocal square root is a real. -/
theorem variance_div_add_pos (N : ℝ) (hcard : (Fintype.card ι : ℝ) = N) (hN : N ≠ 0) (X : ι → EReal)
    (hX : ∀ i, IsReal (X i)) {E : EReal} (hE : ∃ e : ℝ, 0 < e ∧ E = (e : EReal)) :
    IsReal (Ideal.div (∑ i, (X i - Ideal.div (∑ j, X j) (N : EReal)) * (X i - Ideal.div (∑ j, X j) (N : EReal))) (N : EReal) + E)
    ∧ 0 < Ideal.div (∑ i, (X i - Ideal.div (∑ j, X j) (N : EReal)) * (X i - Ideal.div (∑ j, X j) (N : EReal))) (N : EReal) + E
    ∧ IsReal (Ideal.rsqrt
        (Ideal.div (∑ i, (X i - Ideal.div (∑ j, X j) (N : EReal)) * (X i - Ideal.div (∑ j, X j) (N : EReal))) (N : EReal) + E)) :=
  isReal_pos_rsqrt_of_nonneg_add_pos (variance_div_eq_coe N hcard hN X hX) hE

/-- The same for the mean of the squares minus the square of the mean. -/
theorem meansq_sub_sqmean_add_pos (N : ℝ) (hcard : (Fintype.card ι : ℝ) = N) (hN : N ≠ 0) (X : ι → EReal)
    (hX : ∀ i, IsReal (X i)) {E : EReal} (hE : ∃ e : ℝ, 0 < e ∧ E = (e : EReal)) :
    IsReal (Ideal.div (∑ i, X i * X i) (N : EReal) - Ideal.div (∑ j, X j) (N : EReal) * Ideal.div (∑ j, X j) (N : EReal) + E)
    ∧ 0 < Ideal.div (∑ i, X i * X i) (N : EReal) - Ideal.div (∑ j, X j) (N : EReal) * Ideal.div (∑ j, X j) (N : EReal) + E
    ∧ IsReal (Ideal.rsqrt
        (Ideal.div (∑ i, X i * X i) (N : EReal) - Ideal.div (∑ j, X j) (N : EReal) * Ideal.div (∑ j, X j) (N : EReal) + E)) :=
  isReal_pos_rsqrt_of_nonneg_add_pos (meansq_sub_sqmean_eq_coe N hcard hN X hX) hE

end ERealVariance

end Cert.LibRealClosure

end
-- ==== Proof.RowLaw.lean ====
/-
  The per-row mathematics. For one row of seven real logits divided by positive real temperatures, the
  first row's probabilities written as exp (log-softmax) and as exp (shifted) / (sum of exp) are the same numbers:
  the row maximum m is a real number, the shifted entries d = z − m are real, the sum s of their exponentials is a
  positive real, and exp (d − log s) = exp d / s. The explicit zero the reference's sums start from changes nothing,
  and scaling a cost by (m / 3) or scaling by m and then dividing by 3 is the same by associativity of the product.
-/
import Mathlib.Analysis.SpecialFunctions.Log.Basic
import Idealize.ShloMosaic.PureOps.Ideal
import proofs.«126880_j42013370090071_1_alg».proof.Proof.Spec
import proofs.«126880_j42013370090071_1_alg».proof.Proof.LibTileSum
import proofs.«126880_j42013370090071_1_alg».proof.Proof.LibRealClosure
import proofs.«126880_j42013370090071_1_alg».proof.Proof.Consts

noncomputable section

namespace Cert.RowLaw

/-- exp (d - log s) = exp d / s for a positive s. -/
theorem exp_sub_log (d s : ℝ) (hs : 0 < s) : Real.exp (d - Real.log s) = Real.exp d / s := by
  rw [Real.exp_sub, Real.exp_log hs]

end Cert.RowLaw

namespace Cert.Bridge

open Idealize.ShloMosaic Cert.Spec Cert.TileSum Cert.LibRealClosure

/-! ## The explicit zero changes nothing -/

/-- The reference's sum of exponentials is the kernel's: 0 + x = x. -/
theorem sumExpR_eq (z : Fin 7 → EReal) : sumExpR z = sumExpK z := by
  unfold sumExpR sumExpK; rw [zero_eq, zero_add]

/-- Hence the two forms of the log-softmax agree. -/
theorem lsmR_eq (z : Fin 7 → EReal) : lsmR z = lsmK z := by
  funext k; unfold lsmR lsmK; rw [sumExpR_eq]

/-- The two forms of the mean squared temperature agree. -/
theorem meanSqR_eq (T : Fin 7 → EReal) : meanSqR T = meanSqK T := by
  unfold meanSqR meanSqK; rw [zero_eq, zero_add]

/-! ## A real row -/

/-- The maximum of a row of seven reals, computed as a running maximum from −∞, is a real: it is below +∞ because
    every entry is, and above −∞ because the first entry is. -/
theorem isReal_rowMax (z : Fin 7 → EReal) (hz : ∀ k, IsReal (z k)) : IsReal (rowMax z) := by
  unfold rowMax
  rw [negInf_eq, max_eq_right bot_le]
  refine isReal_iff.mpr ⟨ne_of_lt ?_, ne_of_gt ?_⟩
  · rw [Finset.fold_max_lt]
    refine ⟨bot_lt_top, fun k _ => ?_⟩
    obtain ⟨r, hr⟩ := hz k
    rw [hr]; exact EReal.coe_lt_top r
  · rw [Finset.lt_fold_max]
    refine Or.inr ⟨0, Finset.mem_univ _, ?_⟩
    obtain ⟨r, hr⟩ := hz 0
    rw [hr]; exact EReal.bot_lt_coe r

/-- For a real row the probability exp (log-softmax) is exp (shifted) / (sum of exp). -/
theorem exp_lsmK_eq (Z : Fin 7 → EReal) (hZ : ∀ k, IsReal (Z k)) (k : Fin 7) :
    Ideal.exp (lsmK Z k) = Ideal.div (Ideal.exp (shifted Z k)) (sumExpK Z) := by
  obtain ⟨m, hm⟩ := isReal_rowMax Z hZ
  obtain ⟨z, rfl⟩ := exists_coe_of_isReal Z hZ
  have hsh : ∀ j, shifted (fun i => (z i : EReal)) j = ((z j - m : ℝ) : EReal) := fun j => by
    show (z j : EReal) - rowMax _ = _
    rw [hm, EReal.coe_sub]
  have hS : sumExpK (fun i => (z i : EReal)) = ((∑ j, Real.exp (z j - m) : ℝ) : EReal) := by
    unfold sumExpK
    simp only [hsh, Ideal.exp_coe]
    rw [coe_sum]
  have hpos : 0 < ∑ j, Real.exp (z j - m) :=
    Finset.sum_pos (fun j _ => Real.exp_pos _) Finset.univ_nonempty
  unfold lsmK
  rw [hS, hsh, Ideal.log_coe, if_neg (not_le.mpr hpos), ← EReal.coe_sub, Ideal.exp_coe, Ideal.exp_coe,
    div_coe_coe _ hpos.ne', Cert.RowLaw.exp_sub_log _ _ hpos]

/-! ## The two forms of a row's cost -/

/-- The mean of q · (log q − log p) in the two forms, when the first row divided by the temperatures is real. -/
theorem klK_eq_klR (T a b : Fin 7 → EReal) (hA : ∀ k, IsReal (scaled T a k)) : klK T a b = klR T a b := by
  unfold klK klR
  simp only [zero_eq, zero_add, sumExpR_eq, lsmR_eq]
  congr 1
  exact Finset.sum_congr rfl fun k _ => by rw [exp_lsmK_eq _ hA k]

/-- One row's scaled cost in the kernel's form is the same in the reference's form, for positive real temperatures
    and real logits. -/
theorem rowK_eq_rowR (T o1 o2 o3 o4 : Fin 7 → EReal) (hT : ∀ k, ∃ t : ℝ, 0 < t ∧ T k = (t : EReal))
    (h1 : ∀ k, IsReal (o1 k)) (_h2 : ∀ k, IsReal (o2 k)) (_h3 : ∀ k, IsReal (o3 k)) (_h4 : ∀ k, IsReal (o4 k)) :
    rowK T o1 o2 o3 o4 = rowR T o1 o2 o3 o4 := by
  have hA : ∀ k, IsReal (scaled T o1 k) := fun k => by
    obtain ⟨t, ht, hTk⟩ := hT k
    unfold scaled; rw [hTk]; exact isReal_div_coe (h1 k) ht.ne'
  have h3ne : (3 : ℝ) ≠ 0 := by norm_num
  unfold rowK rowR
  rw [← klK_eq_klR T o1 o2 hA, ← klK_eq_klR T o1 o3 hA, ← klK_eq_klR T o1 o4 hA, meanSqR_eq, three_eq,
    div_coe_eq_mul_inv h3ne, div_coe_eq_mul_inv h3ne, mul_assoc]

end Cert.Bridge

end
-- ==== Proof.SumLaw.lean ====
/-
  Regrouping the rows: the sum over 2 halves × 256 tiles × 4096 rows of a tile is the sum over all 2097152 rows.
  Only commutativity and associativity of addition are used, so the law holds for arbitrary extended reals.
-/
import proofs.«126880_j42013370090071_1_alg».proof.Proof.Spec
import proofs.«126880_j42013370090071_1_alg».proof.Proof.LibTileSum

noncomputable section

namespace Cert.Bridge

open Idealize.ShloMosaic

/-- Row 4096 · (256 · c + s) + p runs once through all rows below 2097152 = 2 · 256 · 4096. -/
theorem sum_regroup (f : ℕ → EReal) :
    ∑ c : Fin 2, ∑ s : Fin 256, ∑ p : Fin 4096, f (4096 * (256 * c.val + s.val) + p.val)
      = ∑ r : Fin 2097152, f r.val := by
  have h1 := Cert.TileSum.sum_tile_nat 2 256 (fun t => ∑ p : Fin 4096, f (4096 * t + p.val))
  have h2 := Cert.TileSum.sum_tile_nat (2 * 256) 4096 f
  beta_reduce at h1
  rw [h1, h2]

/-- The kernel's tile-by-tile total of rows' costs is the reference's total of the same costs. -/
theorem totalK_eq_totalR (f g : ℕ → EReal) (h : ∀ r, r < 2097152 → f r = g r) :
    Cert.Spec.totalK f = Cert.Spec.totalR g := by
  unfold Cert.Spec.totalK Cert.Spec.totalR
  rw [sum_regroup f]
  have hfg : ∑ r : Fin 2097152, f r.val = ∑ r : Fin 2097152, g r.val :=
    Finset.sum_congr rfl fun r _ => h r.val r.isLt
  rw [hfg]

end Cert.Bridge

end
-- ==== Proof.Bridge.lean ====
/-
  The two programs' results as functions of the four logit arrays are the same extended real when every entry of
  the arrays is a real number: row by row the scaled costs agree (the temperatures are positive reals), and the
  kernel's tile-by-tile total of the rows is the reference's total.
-/
import proofs.«126880_j42013370090071_1_alg».proof.Proof.Spec
import proofs.«126880_j42013370090071_1_alg».proof.Proof.LibTileSum
import proofs.«126880_j42013370090071_1_alg».proof.Proof.Consts
import proofs.«126880_j42013370090071_1_alg».proof.Proof.RowLaw
import proofs.«126880_j42013370090071_1_alg».proof.Proof.SumLaw

noncomputable section

namespace Cert.Bridge

open Idealize.ShloMosaic Cert.Spec Cert.TileSum

/-- A row of an array of reals is a row of reals (a row beyond the array reads as zeros, which are real too). -/
theorem isReal_rowOf (a : (⟨2, ![2097152, 7]⟩ : Shape).Idx → EReal) (h : ∀ i, IsReal (a i)) (r : ℕ) (k : Fin 7) :
    IsReal (rowOf a r k) := by
  by_cases hr : r < 2097152
  · simp only [rowOf, dif_pos hr]; exact h _
  · simp only [rowOf, dif_neg hr]; exact isReal_zero

/-- Row by row the two forms of the scaled cost agree on arrays of reals. -/
theorem costK_eq_costR (a0 a1 a2 a3 : (⟨2, ![2097152, 7]⟩ : Shape).Idx → EReal)
    (h0 : ∀ i, IsReal (a0 i)) (h1 : ∀ i, IsReal (a1 i)) (h2 : ∀ i, IsReal (a2 i)) (h3 : ∀ i, IsReal (a3 i)) (r : ℕ) :
    costK a0 a1 a2 a3 r = costR a0 a1 a2 a3 r :=
  rowK_eq_rowR temp _ _ _ _ temp_pos (isReal_rowOf a0 h0 r) (isReal_rowOf a1 h1 r) (isReal_rowOf a2 h2 r)
    (isReal_rowOf a3 h3 r)

/-- The kernel's result and the reference's are the same function of four arrays of reals. -/
theorem resultK_eq_resultR (a0 a1 a2 a3 : (⟨2, ![2097152, 7]⟩ : Shape).Idx → EReal)
    (h0 : ∀ i, IsReal (a0 i)) (h1 : ∀ i, IsReal (a1 i)) (h2 : ∀ i, IsReal (a2 i)) (h3 : ∀ i, IsReal (a3 i)) :
    resultK a0 a1 a2 a3 = resultR a0 a1 a2 a3 :=
  totalK_eq_totalR _ _ fun r _ => costK_eq_costR a0 a1 a2 a3 h0 h1 h2 h3 r

end Cert.Bridge

end
-- ==== Proof.LibAbsLtInf.lean ====
/-
  Finiteness of an extended real, read off a printed comparison.

  A precondition "every entry is finite" prints, entry by entry, as the comparison |x| < +∞, with |x| spelt
  max x (−x) and +∞ as the f32 word 0x7F800000. That word denotes ⊤; and max x (−x) < ⊤ excludes x = ⊤ (then the
  maximum is ⊤) and x = ⊥ (then −x = ⊤), so x is a real number.
-/
import Idealize.ShloMosaic.PureOps.Ideal

namespace Cert.LibAbsLtInf

open Idealize.ShloMosaic

/-- The word 0x7F800000 denotes +∞. -/
theorem inf_eq : Ideal.ofBits .f32 0x7F800000#32 = ⊤ := by
  simp [Ideal.ofBits, Ideal.ieee]

/-- A comparison bit that is 1 came from a true comparison. -/
theorem ofBool_one {b : Bool} (h : BitVec.ofBool b = 1#1) : b = true := by
  cases b
  · exact absurd h (by decide)
  · rfl

/-- |x| < +∞, as the ordered less-than of max x (−x) against the word of +∞, says that x is a real number. -/
theorem real_of_abs_lt (x : EReal) (h : Ideal.cmp .olt (max x (-x)) (Ideal.ofBits .f32 0x7F800000#32) = 1#1) :
    ∃ r : ℝ, x = (r : EReal) := by
  rw [inf_eq] at h
  have hlt : max x (-x) < ⊤ := by
    have h' := ofBool_one h
    simpa using h'
  induction x using EReal.rec with
  | bot => simp at hlt
  | coe r => exact ⟨r, rfl⟩
  | top => simp at hlt

end Cert.LibAbsLtInf
-- ==== Proof.Finite.lean ====
/-
  The precondition "every input entry is finite" read back: it is the conjunction, over the four logit arrays,
  of the "all" over every entry x of the comparison |x| < +∞; each conjunct is 1, so each comparison is 1, and a
  comparison |x| < +∞ that holds says that x is a real number.
-/
import proofs.«126880_j42013370090071_1_alg».proof.Pre_finite_inputs
import proofs.«126880_j42013370090071_1_alg».proof.Proof.Gen.Pre_finite_inputs
import proofs.«126880_j42013370090071_1_alg».proof.Proof.LibTileSum
import proofs.«126880_j42013370090071_1_alg».proof.Proof.LibAbsLtInf
import Idealize.ShloMosaic.Lib.ReduceAll
import Idealize.ShloMosaic.Lib.ValueIdx

noncomputable section

namespace Cert.Bridge

open Idealize.ShloMosaic Idealize.ShloMosaic.ValueIdx Cert.TileSum Cert.Pre_finite_inputs

/-- The rank-0 shape has one index. -/
instance : Subsingleton S_.Idx := ⟨fun a b => funext fun d => d.elim0⟩

/-- One array's conjunct: if the "all" of the comparisons |x| < +∞ over the array is 1, every entry is real. -/
theorem real_of_all [Cert.Pre_finite_inputs.Facts] (a : FVec Ideal S2097152x7 .f32) (init : IVec S_ 1)
    (e : Host.reduce IntOp.andi
        (cmpf CmpFPredicate.olt (Host.absf a)
          (broadcastInDim S2097152x7 ![] Facts.bcast_S_S2097152x7 (constant S_ FTy.f32 0x7F800000#32)))
        init Facts.reducesTo_S2097152x7_S_d0_1 Facts.h_S_ ix0 = 1#1) (i : S2097152x7.Idx) : IsReal (a i) :=
  Cert.LibAbsLtInf.real_of_abs_lt (a i) (Host.reduce_andi_all _ init _ _ ix0 e i)

/-- Under the precondition every entry of the four logit arrays is a real number. -/
theorem real_of_pre [Cert.Pre_finite_inputs.Facts]
    (a0 a1 a2 a3 : (⟨S2097152x7, .f32⟩ : BufTy).Contents (Elt Ideal))
    (a4 : (⟨S2097152, .i32⟩ : BufTy).Contents (Elt Ideal))
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) := by
  have h' := congrFun h ValueIdx.ix0
  dsimp only [Cert.Pre_finite_inputs.fn, Cert.Pre_finite_inputs.fn_part1] at h'
  obtain ⟨h012, e3⟩ := IntOp.andi_eq_one.1 h'
  obtain ⟨h01, e2⟩ := IntOp.andi_eq_one.1 h012
  obtain ⟨e0, e1⟩ := IntOp.andi_eq_one.1 h01
  exact ⟨real_of_all a0 _ e0, real_of_all a1 _ e1, real_of_all a2 _ e2, real_of_all a3 _ e3⟩

end Cert.Bridge

end
-- ==== Proof.lean ====
/-
  A KL-divergence loss, computed twice. Each of 2097152 rows holds seven logits in four arrays; a row is divided by seven
  fixed positive temperatures, its log-softmax is taken, and the first array's row is compared with each of the three
  others by the mean over the seven classes of q · (log q − log p); the three means are added, scaled by a third of the
  mean squared temperature, and averaged over all rows. The kernel forms q as exp (log q), scales by (m / 3) and adds
  the rows tile by tile (2 halves × 256 steps × 4096 rows); the reference forms q as exp / (sum of exp), divides
  (cost · m) by 3 and adds all rows at once. Over the extended reals the two results are the same number whenever
  every logit is a real number, which is what the precondition says; both programs leave their arguments unchanged.
-/
import proofs.«126880_j42013370090071_1_alg».proof.Defs
import proofs.«126880_j42013370090071_1_alg».proof.Proof.Gen.Kernel
import proofs.«126880_j42013370090071_1_alg».proof.Proof.Gen.Kernel.Skeleton
import proofs.«126880_j42013370090071_1_alg».proof.Proof.Gen.Kernel.Launch
import proofs.«126880_j42013370090071_1_alg».proof.Proof.Gen.Kernel.Points
import proofs.«126880_j42013370090071_1_alg».proof.Proof.Gen.Kernel.Frame
import proofs.«126880_j42013370090071_1_alg».proof.Proof.Gen.KernelIdeal
import proofs.«126880_j42013370090071_1_alg».proof.Proof.Gen.KernelIdeal.Skeleton
import proofs.«126880_j42013370090071_1_alg».proof.Proof.Gen.KernelIdeal.Launch
import proofs.«126880_j42013370090071_1_alg».proof.Proof.Gen.KernelIdeal.Points
import proofs.«126880_j42013370090071_1_alg».proof.Proof.Gen.KernelIdeal.Frame
import proofs.«126880_j42013370090071_1_alg».proof.Proof.Gen.ReferenceIdeal
import proofs.«126880_j42013370090071_1_alg».proof.Proof.Gen.Pre_finite_inputs
import Idealize.ShloMosaic.Adequacy
import Idealize.ShloMosaic.Init
import proofs.«126880_j42013370090071_1_alg».proof.Proof.Spec
import proofs.«126880_j42013370090071_1_alg».proof.Proof.KFinal
import proofs.«126880_j42013370090071_1_alg».proof.Proof.RefRun
import proofs.«126880_j42013370090071_1_alg».proof.Proof.RefValue
import proofs.«126880_j42013370090071_1_alg».proof.Proof.Bridge
import proofs.«126880_j42013370090071_1_alg».proof.Proof.Finite

noncomputable section

namespace Cert.Proof

open Idealize.ShloMosaic Idealize.SL.Sem Cert.TileSum Cert.Kernel

/-- The reference's result at arrays equal to arrays of reals is the kernel's result at those arrays. -/
theorem resultR_eq_resultK (a0 a1 a2 a3 b0 b1 b2 b3 : (⟨2, ![2097152, 7]⟩ : Shape).Idx → EReal)
    (e0 : b0 = a0) (e1 : b1 = a1) (e2 : b2 = a2) (e3 : b3 = a3)
    (h0 : ∀ i, IsReal (a0 i)) (h1 : ∀ i, IsReal (a1 i)) (h2 : ∀ i, IsReal (a2 i)) (h3 : ∀ i, IsReal (a3 i)) :
    (fun _ : (⟨0, ![]⟩ : Shape).Idx => Cert.Spec.resultR b0 b1 b2 b3) = fun _ => Cert.Spec.resultK a0 a1 a2 a3 := by
  subst e0 e1 e2 e3
  exact funext fun _ => (Cert.Bridge.resultK_eq_resultR _ _ _ _ h0 h1 h2 h3).symm

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run (Cert.ReferenceIdeal.defs (F := Ideal)) _ _).mono (fun _ h c => (h c).2) (Cert.RefSide.run m ρ)

/-- Over the extended reals, from memories that agree on the arguments and hold only finite logits, the kernel ends
    with the tile-by-tile mean of the rows' scaled costs and the reference with the mean over all rows at once:
    the same number, because every logit is a real number. -/
theorem algebraic : Cert.algebraic_KernelIdeal_ReferenceIdeal := by
  intro m ρ m' ρ' hpre hagree
  refine ⟨fun c => fun _ => Cert.Spec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KerSide.run m ρ, ?_⟩
  refine (θ_run (Cert.ReferenceIdeal.defs (F := Ideal)) _ _).mono
    (fun _ h c => ⟨(h c).1.trans ((Cert.RefSide.refTerm_eq _ _ _ _).trans ?_), (h c).2⟩) (Cert.RefSide.run m' ρ')
  obtain ⟨r0, r1, r2, r3⟩ := Cert.Bridge.real_of_pre _ _ _ _ _ (hpre c)
  exact resultR_eq_resultK _ _ _ _ _ _ _ _ (hagree c).1 (hagree c).2.1 (hagree c).2.2.1 (hagree c).2.2.2.1 r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
